-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x50 : Shape := ⟨2, ![1024, 50]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S1024x50 : S_.BroadcastsInDim S1024x50 (![] : Fin 0 → Fin S1024x50.rank)
  reducesTo_S1024x50_S_d0_1 : S1024x50.ReducesTo [0, 1] S_

variable [Facts]

def fn {F : FTy → Type} [FloatOps F] (main_arg0 : IVec S1024x50 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S1024x50 32 := broadcastInDim S1024x50 ![] bcast_S_S1024x50 main_c_0
  let main_v5 : IVec S1024x50 1 := cmpi .sge main_arg0 main_v4
  let main_c_1 : IVec S_ 32 := constantI S_ 32 999#32
  let main_v6 : IVec S1024x50 32 := broadcastInDim S1024x50 ![] bcast_S_S1024x50 main_c_1
  let main_v7 : IVec S1024x50 1 := cmpi .sle main_arg0 main_v6
  let main_v8 : IVec S1024x50 1 := andi main_v5 main_v7
  let main_c_2 : IVec S_ 1 := constantI S_ 1 1#1
  let main_v9 : IVec S_ 1 := (fun x v => Host.reduce IntOp.andi x v reducesTo_S1024x50_S_d0_1 h_S_) main_v8 main_c_2
  let main_v10 : IVec S_ 1 := andi main_v3 main_v9
  main_v10
-- ==== Kernel.lean ====
abbrev S1024x50 : Shape := ⟨2, ![1024, 50]⟩
abbrev S1000x128 : Shape := ⟨2, ![1000, 128]⟩
abbrev S50x1024 : Shape := ⟨2, ![50, 1024]⟩
abbrev S32x20x80 : Shape := ⟨3, ![32, 20, 80]⟩
abbrev S32x20x80x128 : Shape := ⟨4, ![32, 20, 80, 128]⟩
abbrev S20x80 : Shape := ⟨2, ![20, 80]⟩
abbrev S80x128 : Shape := ⟨2, ![80, 128]⟩
abbrev S_ : Shape := ⟨0, ![]⟩
abbrev S1x20x80 : Shape := ⟨3, ![1, 20, 80]⟩
abbrev S1x80 : Shape := ⟨2, ![1, 80]⟩
abbrev S80 : Shape := ⟨1, ![80]⟩
abbrev S1x1x80x128 : Shape := ⟨4, ![1, 1, 80, 128]⟩
abbrev S50x1024x128 : Shape := ⟨3, ![50, 1024, 128]⟩
abbrev S1024x50x128 : Shape := ⟨3, ![1024, 50, 128]⟩
abbrev S50x1000x1024 : Shape := ⟨3, ![50, 1000, 1024]⟩
abbrev S1x1000x1024 : Shape := ⟨3, ![1, 1000, 1024]⟩
abbrev S1x1024 : Shape := ⟨2, ![1, 1024]⟩
abbrev S1x1x1024 : Shape := ⟨3, ![1, 1, 1024]⟩
abbrev S1024x50x1000 : Shape := ⟨3, ![1024, 50, 1000]⟩

abbrev nBuf : Table → Nat
  | .hbm => 9
  | .local .tc .vmem => 2
  | .shared => 1
  | .local .scVector .vmem => 2
  | _ => 0

abbrev bufTy : (tb : Table) → Fin (nBuf tb) → BufTy
  | .hbm, ⟨0, _⟩ => ⟨S1024x50, .i32⟩
  | .hbm, ⟨1, _⟩ => ⟨S1000x128, .f32⟩
  | .hbm, ⟨2, _⟩ => ⟨S50x1024, .i32⟩
  | .hbm, ⟨3, _⟩ => ⟨S32x20x80, .i32⟩
  | .hbm, ⟨4, _⟩ => ⟨S32x20x80x128, .f32⟩
  | .hbm, ⟨5, _⟩ => ⟨S50x1024x128, .f32⟩
  | .hbm, ⟨6, _⟩ => ⟨S1024x50x128, .f32⟩
  | .hbm, ⟨7, _⟩ => ⟨S50x1000x1024, .f32⟩
  | .hbm, ⟨8, _⟩ => ⟨S1024x50x1000, .f32⟩
  | .local .tc .vmem, ⟨0, _⟩ => ⟨S1x1000x1024, .f32⟩
  | .local .tc .vmem, ⟨1, _⟩ => ⟨S1x1000x1024, .f32⟩
  | .shared, ⟨0, _⟩ => ⟨S1000x128, .f32⟩
  | .local .scVector .vmem, ⟨0, _⟩ => ⟨S20x80, .i32⟩
  | .local .scVector .vmem, ⟨1, _⟩ => ⟨S80x128, .f32⟩
  | _, _ => ⟨S1024x50, .i32⟩

abbrev bufScoped : (cs : CoreSpace) → Fin (nBuf (.local .tc cs)) → Bool
  | .vmem, ⟨0, _⟩ => true
  | .vmem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r1 : BitVec 32 := 0#32
  let c0_i32_5_r1 : BitVec 32 := 0#32
  ![v1.toNat, 0, 0]
@[reducible] def k0_t1_loop : Scf.Loop 32 :=
  let c0_i32_2 : BitVec 32 := 0#32
  let c20_i32 : BitVec 32 := 20#32
  let v5 : BitVec 32 := Scalar.addi c0_i32_2 c20_i32
  let c1_i32 : BitVec 32 := 1#32
  ⟨c0_i32_2, v5, c1_i32⟩
def k0_off2 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let c0_i32_4 : BitVec 32 := 0#32
  ![arg9.toNat, 0]
def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c1_i32 : BitVec 32 := 1#32
  let arg9 : BitVec 32 := Scf.iv c0_i32_2 c1_i32 k0_t1
  let c0_i32_10_r2 : BitVec 32 := 0#32
  let c0_i32_11_r2 : BitVec 32 := 0#32
  ![v1.toNat, arg9.toNat, 0, 0]
abbrev grid1 : Pipeline.Grid := ⟨1, ![50], ![false]⟩

def k1_off1 (i : grid1.Coords) : Fin 3 → Nat :=
  let c0_12 : Index := 0#32
  let arg0 : BitVec 32 := BitVec.ofNat 32 (i 0).val
  let c1_i32 : BitVec 32 := 1#32
  let v0 : BitVec 32 := Scalar.muli arg0 c1_i32
  let c0_i32 : BitVec 32 := 0#32
  let v3 : BitVec 32 := Scalar.addi v0 c0_i32
  let c8_i32 : BitVec 32 := 8#32
  let v4 : BitVec 32 := Scalar.remsi v3 c8_i32
  let c7_i32_9 : BitVec 32 := 7#32
  let v17 : BitVec 1 := Scalar.cmpi .eq v4 c7_i32_9
  let c0_i32_10 : BitVec 32 := 0#32
  let c6_i32 : BitVec 32 := 6#32
  let v15 : BitVec 1 := Scalar.cmpi .eq v4 c6_i32
  let c6_i32_8 : BitVec 32 := 6#32
  let c5_i32_6 : BitVec 32 := 5#32
  let v13 : BitVec 1 := Scalar.cmpi .eq v4 c5_i32_6
  let c2_i32_7 : BitVec 32 := 2#32
  let c4_i32 : BitVec 32 := 4#32
  let v11 : BitVec 1 := Scalar.cmpi .eq v4 c4_i32
  let c4_i32_5 : BitVec 32 := 4#32
  let c3_i32_3 : BitVec 32 := 3#32
  let v9 : BitVec 1 := Scalar.cmpi .eq v4 c3_i32_3
  let c1_i32_4 : BitVec 32 := 1#32
  let c2_i32 : BitVec 32 := 2#32
  let v7 : BitVec 1 := Scalar.cmpi .eq v4 c2_i32
  let c7_i32 : BitVec 32 := 7#32
  let c1_i32_2 : BitVec 32 := 1#32
  let v5 : BitVec 1 := Scalar.cmpi .eq v4 c1_i32_2
  let c5_i32 : BitVec 32 := 5#32
  let c3_i32 : BitVec 32 := 3#32
  let v6 : BitVec 32 := Scalar.select v5 c5_i32 c3_i32
  let v8 : BitVec 32 := Scalar.select v7 c7_i32 v6
  let v10 : BitVec 32 := Scalar.select v9 c1_i32_4 v8
  let v12 : BitVec 32 := Scalar.select v11 c4_i32_5 v10
  let v14 : BitVec 32 := Scalar.select v13 c2_i32_7 v12
  let v16 : BitVec 32 := Scalar.select v15 c6_i32_8 v14
  let v18 : BitVec 32 := Scalar.select v17 c0_i32_10 v16
  let v20 : Index := Scalar.indexCast v18
  let c0_13 : Index := 0#32
  ![0, v20.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x50_S50x1024_1_0 : S1024x50.Transposes [1, 0] S50x1024
  shapeCasts_S50x1024_S32x20x80 : S50x1024.ShapeCasts S32x20x80
  squeezes_S1x20x80_S20x80 : S1x20x80.Squeezes S20x80
  squeezes_S1x80_S80 : S1x80.Squeezes S80
  inb_S1000x128_S1000x128_0_0 : ∀ a, (![0, 0] : Fin 2 → Nat) a + S1000x128.size a ≤ S1000x128.size a
  gathers_S1000x128_S80x128 : S1000x128.Gathers 0 S80x128
  squeezes_S1x1x80x128_S80x128 : S1x1x80x128.Squeezes S80x128
  shapeCasts_S32x20x80x128_S50x1024x128 : S32x20x80x128.ShapeCasts S50x1024x128
  transposes_S50x1024x128_S1024x50x128_1_0_2 : S50x1024x128.Transposes [1, 0, 2] S1024x50x128
  inb_S1x1000x1024_S1x1000x1024_0_0_0 : ∀ a, (![0, 0, 0] : Fin 3 → Nat) a + S1x1000x1024.size a ≤ S1x1000x1024.size a
  h_S1x1000x1024 : 0 < S1x1000x1024.numel
  h_S1x1x1024 : 0 < S1x1x1024.numel
  shapeCasts_S1x1x1024_S1x1024 : S1x1x1024.ShapeCasts S1x1024
  shapeCasts_S1x1024_S1x1x1024 : S1x1024.ShapeCasts S1x1x1024
  transposes_S50x1000x1024_S1024x50x1000_2_0_1 : S50x1000x1024.Transposes [2, 0, 1] S1024x50x1000
  hcc0_scratch3 : 0 + S_.numel ≤ 6
  hcc0_scoped0 : 1 + S_.numel ≤ 6
  hcc0_scoped1 : 2 + S_.numel ≤ 6
  hcc0_scoped2 : 3 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x20x80.size a ≤ S32x20x80.size a
  k0_t1_ok : k0_t1_loop.OK
  k0_off2_inb : ∀ k0_t1 : Fin k0_t1_loop.trips, ∀ a, (k0_off2 k0_t1) a + S1x80.size a ≤ S20x80.size a
  k0_off3_inb : ∀ (i : grid0.Coords) (k0_t1 : Fin k0_t1_loop.trips), ∀ a, (k0_off3 i k0_t1) a + S1x1x80x128.size a ≤ S32x20x80x128.size a
  hrank1 : 0 < grid1.rank
  k1_off1_inb : ∀ i : grid1.Coords, ∀ a, (k1_off1 i) a + S1x1x1024.size a ≤ S1x1000x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x1024.size a ≤ S50x1000x1024.size a
  hwx1_0 : ∀ i : grid1.Coords, EltTy.bits .f32 = 32 ∨ (Rect.block (s := S50x1000x1024) S1x1000x1024.size (cc1_transform_0 i) (hinb1_0 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2

abbrev win1_0 : Pipeline.Window sig grid1 :=
  Pipeline.Window.ofSpec (Memref.whole main_v5) S1x1000x1024.size cc1_transform_0 reads1_0 true false 2 stage1_0 sem1_0
    hrank1 hreads1_0 hinb1_0 nbuf1_0 (Memref.isWhole_whole _) hwx1_0 hstage1_0

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

class Facts : Prop extends Facts₀ where

variable [Facts]
-- ==== ReferenceIdeal.lean ====
abbrev S1024x50 : Shape := ⟨2, ![1024, 50]⟩
abbrev S1000x128 : Shape := ⟨2, ![1000, 128]⟩
abbrev S8 : Shape := ⟨1, ![8]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S50 : Shape := ⟨1, ![50]⟩
abbrev S50x1 : Shape := ⟨2, ![50, 1]⟩
abbrev S1024x50x1000 : Shape := ⟨3, ![1024, 50, 1000]⟩
abbrev S50x2 : Shape := ⟨2, ![50, 2]⟩

abbrev nBuf : Space → Nat
  | .hbm => 81
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1000x128, .f32⟩
  | .hbm, ⟨2, _⟩ => ⟨S8, .i32⟩
  | .hbm, ⟨3, _⟩ => ⟨S_, .i32⟩
  | .hbm, ⟨4, _⟩ => ⟨S1024x50, .i32⟩
  | .hbm, ⟨5, _⟩ => ⟨S1024x50, .i1⟩
  | .hbm, ⟨6, _⟩ => ⟨S_, .i32⟩
  | .hbm, ⟨7, _⟩ => ⟨S1024x50, .i32⟩
  | .hbm, ⟨8, _⟩ => ⟨S1024x50, .i32⟩
  | .hbm, ⟨9, _⟩ => ⟨S1024x50, .i32⟩
  | .hbm, ⟨10, _⟩ => ⟨S1024x50x1, .i32⟩
  | .hbm, ⟨11, _⟩ => ⟨S1, .i32⟩
  | .hbm, ⟨12, _⟩ => ⟨S_, .i32⟩
  | .hbm, ⟨13, _⟩ => ⟨S1024x50x1, .i32⟩
  | .hbm, ⟨14, _⟩ => ⟨S1024x50x1, .i1⟩
  | .hbm, ⟨15, _⟩ => ⟨S1x1x1, .i32⟩
  | .hbm, ⟨16, _⟩ => ⟨S1024x50x1, .i32⟩
  | .hbm, ⟨17, _⟩ => ⟨S1024x50x1, .i1⟩
  | .hbm, ⟨18, _⟩ => ⟨S1024x50x1, .i1⟩
  | .hbm, ⟨19, _⟩ => ⟨S_, .i1⟩
  | .hbm, ⟨20, _⟩ => ⟨S1024x50, .i1⟩
  | .hbm, ⟨21, _⟩ => ⟨S1024x50x128, .f32⟩
  | .hbm, ⟨22, _⟩ => ⟨S1024x50x128, .i1⟩
  | .hbm, ⟨23, _⟩ => ⟨S_, .f32⟩
  | .hbm, ⟨24, _⟩ => ⟨S1024x50x128, .f32⟩
  | .hbm, ⟨25, _⟩ => ⟨S1024x50x128, .f32⟩
  | .hbm, ⟨26, _⟩ => ⟨S50, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S50, .i32⟩
  | .hbm, ⟨34, _⟩ => ⟨S50, .i32⟩
  | .hbm, ⟨35, _⟩ => ⟨S_, .i32⟩
  | .hbm, ⟨36, _⟩ => ⟨S50, .i32⟩
  | .hbm, ⟨37, _⟩ => ⟨S50, .i1⟩
  | .hbm, ⟨38, _⟩ => ⟨S_, .i32⟩
  | .hbm, ⟨39, _⟩ => ⟨S50, .i32⟩
  | .hbm, ⟨40, _⟩ => ⟨S50, .i1⟩
  | .hbm, ⟨41, _⟩ => ⟨S_, .i32⟩
  | .hbm, ⟨42, _⟩ => ⟨S_, .i1⟩
  | .hbm, ⟨43, _⟩ => ⟨S50, .i1⟩
  | .hbm, ⟨44, _⟩ => ⟨S50, .i1⟩
  | .hbm, ⟨45, _⟩ => ⟨S50, .i1⟩
  | .hbm, ⟨46, _⟩ => ⟨S50, .i32⟩
  | .hbm, ⟨47, _⟩ => ⟨S50, .i32⟩
  | .hbm, ⟨48, _⟩ => ⟨S50, .i32⟩
  | .hbm, ⟨49, _⟩ => ⟨S_, .i32⟩
  | .hbm, ⟨50, _⟩ => ⟨S50, .i32⟩
  | .hbm, ⟨51, _⟩ => ⟨S50, .i1⟩
  | .hbm, ⟨52, _⟩ => ⟨S_, .i32⟩
  | .hbm, ⟨53, _⟩ => ⟨S50, .i32⟩
  | .hbm, ⟨54, _⟩ => ⟨S50, .i32⟩
  | .hbm, ⟨55, _⟩ => ⟨S50, .i32⟩
  | .hbm, ⟨56, _⟩ => ⟨S50x1, .i32⟩
  | .hbm, ⟨57, _⟩ => ⟨S50, .i32⟩
  | .hbm, ⟨58, _⟩ => ⟨S_, .f32⟩
  | .hbm, ⟨59, _⟩ => ⟨S1024x50x1000, .f32⟩
  | .hbm, ⟨60, _⟩ => ⟨S50, .i32⟩
  | .hbm, ⟨61, _⟩ => ⟨S_, .i32⟩
  | .hbm, ⟨62, _⟩ => ⟨S50, .i32⟩
  | .hbm, ⟨63, _⟩ => ⟨S50, .i1⟩
  | .hbm, ⟨64, _⟩ => ⟨S_, .i32⟩
  | .hbm, ⟨65, _⟩ => ⟨S50, .i32⟩
  | .hbm, ⟨66, _⟩ => ⟨S50, .i32⟩
  | .hbm, ⟨67, _⟩ => ⟨S50, .i32⟩
  | .hbm, ⟨68, _⟩ => ⟨S_, .i32⟩
  | .hbm, ⟨69, _⟩ => ⟨S50, .i32⟩
  | .hbm, ⟨70, _⟩ => ⟨S50, .i1⟩
  | .hbm, ⟨71, _⟩ => ⟨S_, .i32⟩
  | .hbm, ⟨72, _⟩ => ⟨S50, .i32⟩
  | .hbm, ⟨73, _⟩ => ⟨S50, .i32⟩
  | .hbm, ⟨74, _⟩ => ⟨S50, .i32⟩
  | .hbm, ⟨75, _⟩ => ⟨S50x1, .i32⟩
  | .hbm, ⟨76, _⟩ => ⟨S50x1, .i32⟩
  | .hbm, ⟨77, _⟩ => ⟨S50x2, .i32⟩
  | .hbm, ⟨78, _⟩ => ⟨S_, .f32⟩
  | .hbm, ⟨79, _⟩ => ⟨S1024x50, .f32⟩
  | .hbm, ⟨80, _⟩ => ⟨S1024x50x1000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v2 : Ref sig .tc := ⟨.hbm, 48, rfl⟩
abbrev main_c_1 : Ref sig .tc := ⟨.hbm, 49, rfl⟩
abbrev main_v3 : Ref sig .tc := ⟨.hbm, 50, rfl⟩
abbrev main_v4 : Ref sig .tc := ⟨.hbm, 51, rfl⟩
abbrev main_c_2 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst : Ref sig .tc := ⟨.hbm, 58, rfl⟩
abbrev main_v10 : Ref sig .tc := ⟨.hbm, 59, rfl⟩
abbrev main_v11 : Ref sig .tc := ⟨.hbm, 60, rfl⟩
abbrev main_c_3 : Ref sig .tc := ⟨.hbm, 61, rfl⟩
abbrev main_v12 : Ref sig .tc := ⟨.hbm, 62, rfl⟩
abbrev main_v13 : Ref sig .tc := ⟨.hbm, 63, rfl⟩
abbrev main_c_4 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_c_5 : Ref sig .tc := ⟨.hbm, 68, rfl⟩
abbrev main_v17 : Ref sig .tc := ⟨.hbm, 69, rfl⟩
abbrev main_v18 : Ref sig .tc := ⟨.hbm, 70, rfl⟩
abbrev main_c_6 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_7 : Ref sig .tc := ⟨.hbm, 78, rfl⟩
abbrev main_v25 : Ref sig .tc := ⟨.hbm, 79, rfl⟩
abbrev main_v26 : Ref sig .tc := ⟨.hbm, 80, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x128_0_1 : S1024x50.BroadcastsInDim S1024x50x128 (![0, 1] : Fin 2 → Fin S1024x50x128.rank)
  bcast_S_S1024x50x128 : S_.BroadcastsInDim S1024x50x128 (![] : Fin 0 → Fin S1024x50x128.rank)
  bcast_S_S50 : S_.BroadcastsInDim S50 (![] : Fin 0 → Fin S50.rank)
  bcast_S50_S50x1_0 : S50.BroadcastsInDim S50x1 (![0] : Fin 1 → Fin S50x1.rank)
  bcast_S_S1024x50x1000 : S_.BroadcastsInDim S1024x50x1000 (![] : Fin 0 → Fin S1024x50x1000.rank)
  concatenates_S50x1_S50x1_S50x2_d1 : Shape.Concatenates [S50x1, S50x1] S50x2 1
  gather_S1000x128_S1024x50x1_S1024x50x128_2_0_n_n_0_2_1128_wf : GatherDims.WF S1000x128 S1024x50x1 S1024x50x128 [2] [0] [] [0] [] 2 ![1, 128]
  gather_S8_S50x1_S50_n_0_n_n_0_1_1_wf : GatherDims.WF S8 S50x1 S50 [] [0] [] [0] [] 1 ![1]
  scatter_S1024x50x1000_S50x2_S1024x50_0_12_12_1_wf : ScatterDims.WF S1024x50x1000 S50x2 S1024x50 [0] [1, 2] [1, 2] 1

variable [Facts₀]

def gather_S1000x128_S1024x50x1_S1024x50x128_2_0_n_n_0_2_1128 : GatherDims S1000x128 S1024x50x1 S1024x50x128 where
  offsetDims := [2]
  collapsedSliceDims := [0]
  operandBatchingDims := []
  startIndicesBatchingDims := []
  startIndexMap := [0]
  indexVectorDim := 2
  sliceSizes := ![1, 128]
  wf := gather_S1000x128_S1024x50x1_S1024x50x128_2_0_n_n_0_2_1128_wf
def gather_S8_S50x1_S50_n_0_n_n_0_1_1 : GatherDims S8 S50x1 S50 where
  offsetDims := []
  collapsedSliceDims := [0]
  operandBatchingDims := []
  startIndicesBatchingDims := []
  startIndexMap := [0]
  indexVectorDim := 1
  sliceSizes := ![1]
  wf := gather_S8_S50x1_S50_n_0_n_n_0_1_1_wf
def scatter_S1024x50x1000_S50x2_S1024x50_0_12_12_1 : ScatterDims S1024x50x1000 S50x2 S1024x50 where
  updateWindowDims := [0]
  insertedWindowDims := [1, 2]
  scatterDimsToOperandDims := [1, 2]
  indexVectorDim := 1
  wf := scatter_S1024x50x1000_S50x2_S1024x50_0_12_12_1_wf

class Facts : Prop extends Facts₀ where

variable [Facts]
-- ==== Proof.Spec.lean ====
/-
  The two results as functions of the two arguments, index by index.

  The first result is an embedding lookup: entry (b, t, e) is the table's entry at row tokens[b, t] and column e. A
  token word is read as a natural number and cut at 999, the last row; for the words the precondition admits
  (0 ≤ token ≤ 999) the cut changes nothing, and it makes the row a total function of the word.

  The second result does not depend on the arguments: entry (b, t, v) is 1 where v is the programmed target of
  position t — the entry of the table 3 5 7 1 4 2 6 0 at t mod 8 — and −10⁹ everywhere else. Both numbers are
  kept as the words the two programs spell them with.
-/
import Idealize.ShloMosaic.PureOps
import Idealize.ShloMosaic.Lib.ValueIdx

noncomputable section

namespace Cert.Spec

open Idealize.ShloMosaic Idealize.ShloMosaic.ValueIdx

abbrev S1024x50 : Shape := ⟨2, ![1024, 50]⟩
abbrev S1000x128 : Shape := ⟨2, ![1000, 128]⟩
abbrev S1024x50x128 : Shape := ⟨3, ![1024, 50, 128]⟩
abbrev S1024x50x1000 : Shape := ⟨3, ![1024, 50, 1000]⟩

/-- The table row a token word names: the word as a natural number, cut at the last row. -/
def rowOf (w : BitVec 32) : Fin 1000 := ⟨min w.toNat 999, by omega⟩

/-- A word below 1000 names its own row. -/
theorem rowOf_val {w : BitVec 32} (h : w.toNat < 1000) : (rowOf w).val = w.toNat := by
  show min w.toNat 999 = w.toNat
  omega

/-- The lookup: entry (b, t, e) is the table at row tokens[b, t], column e. -/
def lookup {α : Type} (tok : S1024x50.Idx → BitVec 32) (emb : S1000x128.Idx → α) : S1024x50x128.Idx → α :=
  fun i => emb (ix2 (n0 := 1000) (n1 := 128) (rowOf (tok (ix2 (n0 := 1024) (n1 := 50) ⟨(i 0).val, (i 0).isLt⟩ ⟨(i 1).val, (i 1).isLt⟩)))
    ⟨(i 2).val, (i 2).isLt⟩)

/-- The programmed targets, one per residue of the position modulo 8. -/
def prog : Fin 8 → Nat := ![3, 5, 7, 1, 4, 2, 6, 0]

/-- The programmed target of position t. -/
def target (t : Nat) : Nat := prog ⟨t % 8, Nat.mod_lt _ (by decide)⟩

theorem target_lt (t : Nat) : target t < 8 := by
  unfold target
  have h : ∀ r : Fin 8, prog r < 8 := by decide
  exact h _

/-- The programmed logits: 1 at the target of the position, −10⁹ elsewhere. -/
def logits {F : FTy → Type} [FloatOps F] : S1024x50x1000.Idx → F .f32 :=
  fun i => if (i 2).val = target (i 1).val then FloatOps.ofBits .f32 0x3F800000#32 else FloatOps.ofBits .f32 0xCE6E6B28#32

end Cert.Spec

end
-- ==== Proof.KICommon.lean ====
/-
  The idealized kernel's program as the SparseCore launch theorem sees it, and the resources its proof is written over.

  The program: on the TensorCore, the tokens transposed and re-laid as 32 rows of 20 chunks of 80; one SparseCore call
  on both SparseCores, sixteen tiles each, tile (c, s) working row 2 s + c; the result re-laid and transposed; a
  TensorCore kernel that writes the logits position by position; a last transpose.

  What a tile does: tile 0 of each SparseCore copies the whole embedding table into the SparseCore's shared memory;
  every tile fetches its row of token words; all sixteen meet at the subcore barrier; then, twenty times, a tile
  gathers the eighty table rows its chunk of words names out of the shared memory and writes them to its block of the
  result.

  The ghost state: the launch handshakes' rounds, the barrier cells' rounds (a library of their own), the rounds of the
  TensorCore kernel's staging cells, and the transfers' counters.
-/
import proofs.«211305_g76828374991638_cont_9to1_m_1055_18_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«211305_g76828374991638_cont_9to1_m_1055_18_alg».proof.Proof.Gen.KernelIdeal
import proofs.«211305_g76828374991638_cont_9to1_m_1055_18_alg».proof.Proof.Gen.KernelIdeal.Skeleton
import proofs.«211305_g76828374991638_cont_9to1_m_1055_18_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

/-- The handshakes' rounds: the left factor. -/
abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore kernel's staging cells' rounds. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

/-- The re-laid tokens, the table and the SparseCore call's result, as locations of device `d`. -/
abbrev tokLoc (d : Dev nD) : Loc nD τ sig := (SparseCore.T d).loc main_v1
abbrev embLoc (d : Dev nD) : Loc nD τ sig := (SparseCore.T d).loc main_arg1
abbrev outLoc (d : Dev nD) : Loc nD τ sig := (SparseCore.T d).loc main_v2
/-- SparseCore `c`'s shared copy of the table. -/
abbrev shRef (c : Fin τ.nSC) : DevRef τ sig := ⟨.shared, ⟨0, by decide⟩, c⟩
abbrev shLoc (d : Dev nD) (c : Fin τ.nSC) : Loc nD τ sig := (d, shRef c)

/-- The row of tile `(c, s)`: `2 s + c`. -/
def wid (c : Fin 2) (s : Fin 16) : Fin 32 := ⟨2 * s.val + c.val, by omega⟩

theorem wid_injective : Function.Injective (fun cs : Fin 2 × Fin 16 => wid cs.1 cs.2) := by
  rintro ⟨c, s⟩ ⟨c', s'⟩ h
  have h' : 2 * s.val + c.val = 2 * s'.val + c'.val := congrArg Fin.val h
  have hc : c.val = c'.val := by omega
  have hs : s.val = s'.val := by omega
  exact Prod.ext (Fin.ext hc) (Fin.ext hs)

theorem wid_surjective (w : Fin 32) : ∃ c s, wid c s = w :=
  ⟨⟨w.val % 2, Nat.mod_lt _ (by decide)⟩, ⟨w.val / 2, by omega⟩, Fin.ext (by show 2 * (w.val / 2) + w.val % 2 = w.val; omega)⟩

end Cert.Proof.KI

end
-- ==== Proof.KIBarrier.lean ====
/-
  The subcore barrier of the gather kernel, as cells of a rounds library.

  Each tile has a barrier semaphore; arriving, a tile sends one unit to every tile of its SparseCore (its own
  included), and then waits for sixteen units on its own. So each tile's cell has one round of sixteen unit duties,
  one per tile of the SparseCore, named by the tile's number.

  What crosses the barrier: tile 0 has copied the embedding table into the SparseCore's shared memory and waited for
  the copy before it arrives. Its duty in tile j's round therefore hands over a READ SHARE of the shared memory at the
  table's contents — the j-th of sixteen tokens split off the full share —; the other tiles' duties hand over
  nothing. A tile that has left the barrier holds its token: it may read the table there, and nobody may write it.
-/
import proofs.«211305_g76828374991638_cont_9to1_m_1055_18_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

theorem nSub_eq : τ.nSub = 16 := rfl
theorem nSC_eq : τ.nSC = 2 := rfl
theorem bound_zero : grid0.bound 0 = 2 := rfl
theorem bound_one : grid0.bound 1 = 16 := rfl

/-- The table as a SparseCore's shared memory holds it once tile 0 has copied it: the launch memory's table. -/
abbrev embSh (d : Dev nD) (c : Fin τ.nSC) : Buf (Elt F) (shLoc d c) := m (embLoc d)

/-- The read token of the shared table that tile `j` holds after the barrier: the `j`-th of sixteen. -/
abbrev shTok (j : ℕ) : PosShare TreeShare := Transfers.shareTokN fullShare j
/-- What tile 0 keeps of the full share after splitting the sixteen tokens off. -/
abbrev shRest : PosShare TreeShare := Transfers.shareDrop fullShare 16

variable [FloatOps F]

/-- Tile `(c, j)`'s barrier semaphore on device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

/-- Whether a cell is some tile's barrier semaphore. -/
def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What the duty of tile number `n` hands over in the round of the cell `g`: tile 0's, the cell's tile's read token of
    the shared table; any other tile's, nothing. -/
def bPay (g : GSem nD τ sig) (n : ℕ) : sProp 𝕄 :=
  match g with
  | ((d, .scVector c j), _) => if n = 0 then iprop(shLoc d c ↦{shTok j.val} embSh m d c) else iprop(emp)
  | _ => iprop(emp)

/-- The barrier cells' schedule: one round each, sixteen unit duties, tile 0's carrying the read token. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) :
    (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl
theorem bRd_payload_zero (d : Dev nD) (c : Fin τ.nSC) (j : Fin τ.nSub) :
    (bRd (F := F) m).payload (bcell d c j) 0 0 = iprop(shLoc d c ↦{shTok j.val} embSh m d c) := by
  show bPay m (bcell d c j) 0 = _; unfold bPay; exact if_pos rfl
theorem bRd_payload_pos (d : Dev nD) (c : Fin τ.nSC) (j : Fin τ.nSub) {n : ℕ} (hn : n ≠ 0) :
    (bRd (F := F) m).payload (bcell d c j) 0 n = iprop(emp) := by
  show bPay m (bcell d c j) n = _; unfold bPay; exact if_neg hn

/-- What the launch has a tile of SparseCore `c` owe for the barrier: one unit on every tile's cell, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals tile `(c, i)` for the barrier: every cell's invariant of its SparseCore, its duty token in
    every tile's round and that each has reached the round, its own position at the round's origin, and the credit
    for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KI

end
-- ==== Proof.KIPay.lean ====
/-
  What the SparseCore call's handshakes carry, tile by tile.

  A tile at grid coordinates L = (c, s) works row w = 2 s + c of the re-laid tokens [32, 20, 80] and of the result
  [32, 20, 80, 128]: it is handed its row of token words (read only), the twenty blocks of its row of the result, and
  — tile 0 only — a read share of the embedding table and the SparseCore's shared memory outright. It hands back the
  token row, the blocks at the looked-up table rows, its read token of the shared memory at the table's contents, and
  — tile 0 — the table's share and the rest of the shared memory's share.

  The result of the call, entry (w, j, r, e): the table at the row that token word (w, j, r) names, column e.
-/
import proofs.«211305_g76828374991638_cont_9to1_m_1055_18_alg».proof.Proof.KIBarrier

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.KernelIdeal.main_v1_scv : Memref Cert.KernelIdeal.sig Kind.scVector Space.hbm Cert.KernelIdeal.S32x20x80 EltTy.i32)
local notation "outV" => (Memref.whole Cert.KernelIdeal.main_v2_scv : Memref Cert.KernelIdeal.sig Kind.scVector Space.hbm Cert.KernelIdeal.S32x20x80x128 EltTy.f32)
local notation "sI" => (Memref.whole Cert.KernelIdeal.cc0_scratch0 : Memref Cert.KernelIdeal.sig Kind.scVector Space.vmem Cert.KernelIdeal.S20x80 EltTy.i32)

/-! ## Grid coordinates, and a tile's memrefs in the program's spelling -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The row of tile `L`: `2 s + c`. -/
def rowL (L : grid0.Coords) : ℕ := 2 * (L 1).val + (L 0).val

theorem rowL_lt (L : grid0.Coords) : rowL L < 32 := by
  have h0 : (L 0).val < 2 := (L 0).isLt
  have h1 : (L 1).val < 16 := (L 1).isLt
  unfold rowL; omega

/-- The tile's row of token words, as the kernel slices it. -/
abbrev tokRowK (L : grid0.Coords) : Memref sig .scVector .hbm S20x80 .i32 :=
  ((tokV).slice (Rect.unit (s := S32x20x80) (k0_off1 L) S1x20x80.size (k0_off1_inb L)) (fun _ => rfl)).squeeze S20x80 squeezes_S1x20x80_S20x80
/-- The tile's block `k` of the result, as the kernel slices it. -/
abbrev outBlkK (L : grid0.Coords) (k : Fin k0_t1_loop.trips) : Memref sig .scVector .hbm S80x128 .f32 :=
  ((outV).slice (Rect.unit (s := S32x20x80x128) (k0_off3 L k) S1x1x80x128.size (k0_off3_inb L k)) (fun _ => rfl)).squeeze S80x128 squeezes_S1x1x80x128_S80x128
/-- Chunk `k` of the fetched token words, as the kernel slices the index scratch. -/
abbrev idxRowK (k : Fin k0_t1_loop.trips) : Memref sig .scVector .vmem S80 .i32 :=
  ((sI).slice (Rect.unit (s := S20x80) (k0_off2 k) S1x80.size (k0_off2_inb k)) (fun _ => rfl)).squeeze S80 squeezes_S1x80_S80

theorem trips_eq : k0_t1_loop.trips = 20 := by decide

/-- The token row's elements: the indices whose first coordinate is the tile's row. -/
theorem mem_tokSet (L : grid0.Coords) (i : S32x20x80.Idx) : i ∈ (tokRowK L).view.set ↔ (i 0).val = rowL L := by
  show i ∈ (((View.whole main_v1_scv).slice (Rect.unit (s := S32x20x80) (k0_off1 L) S1x20x80.size (k0_off1_inb L))).reshape S20x80 squeezes_S1x20x80_S20x80.numel_eq).set ↔ _
  rw [View.set_reshape, View.set_slice_whole, Rect.mem_set_unit, k0_off1_eq]
  have b1 : (i 1).val < 20 := (i 1).isLt
  have b2 : (i 2).val < 80 := (i 2).isLt
  unfold rowL
  constructor
  · intro h
    have h0 := h 0
    simp only [Matrix.cons_val_zero] at h0
    have e : S1x20x80.size 0 = 1 := rfl
    omega
  · intro h a
    match a with
    | ⟨0, _⟩ => exact ⟨by show 2 * (L 1).val + (L 0).val ≤ (i 0).val; omega, by show (i 0).val < 2 * (L 1).val + (L 0).val + 1; omega⟩
    | ⟨1, _⟩ => exact ⟨Nat.zero_le _, by show (i 1).val < 0 + 20; omega⟩
    | ⟨2, _⟩ => exact ⟨Nat.zero_le _, by show (i 2).val < 0 + 80; omega⟩

/-- A result block's elements: first coordinate the tile's row, second the chunk. -/
theorem mem_outSet (L : grid0.Coords) (k : Fin k0_t1_loop.trips) (i : S32x20x80x128.Idx) :
    i ∈ (outBlkK L k).view.set ↔ (i 0).val = rowL L ∧ (i 1).val = k.val := by
  show i ∈ (((View.whole main_v2_scv).slice (Rect.unit (s := S32x20x80x128) (k0_off3 L k) S1x1x80x128.size (k0_off3_inb L k))).reshape S80x128 squeezes_S1x1x80x128_S80x128.numel_eq).set ↔ _
  rw [View.set_reshape, View.set_slice_whole, Rect.mem_set_unit, k0_off3_eq]
  have b2 : (i 2).val < 80 := (i 2).isLt
  have b3 : (i 3).val < 128 := (i 3).isLt
  unfold rowL
  constructor
  · intro h
    have h0 := h 0
    have h1 := h 1
    simp only [Matrix.cons_val_zero, Matrix.cons_val_one] at h0 h1
    have e0 : S1x1x80x128.size 0 = 1 := rfl
    have e1 : S1x1x80x128.size 1 = 1 := rfl
    omega
  · rintro ⟨h0, h1⟩ a
    match a with
    | ⟨0, _⟩ => exact ⟨by show 2 * (L 1).val + (L 0).val ≤ (i 0).val; omega, by show (i 0).val < 2 * (L 1).val + (L 0).val + 1; omega⟩
    | ⟨1, _⟩ => exact ⟨by show k.val ≤ (i 1).val; omega, by show (i 1).val < k.val + 1; omega⟩
    | ⟨2, _⟩ => exact ⟨Nat.zero_le _, by show (i 2).val < 0 + 80; omega⟩
    | ⟨3, _⟩ => exact ⟨Nat.zero_le _, by show (i 3).val < 0 + 128; omega⟩

/-! ## The call's result, and the launch memory's data -/

variable (m : (ℓ : Loc nD τ sig) → Buf (Elt F) ℓ)
-- the re-laid tokens as the call finds them (the TensorCore's two host operations wrote them)
variable (tk : (d : Dev nD) → Buf (Elt F) (tokLoc d))

/-- Entry (w, j, r, e) of the call's result: the table at the row token word (w, j, r) names, column e. -/
def outSpec (d : Dev nD) : Buf (Elt F) (outLoc d) := fun i =>
  m (embLoc d) (ValueIdx.ix2 (n0 := 1000) (n1 := 128)
    (Cert.Spec.rowOf (tk d (ValueIdx.ix3 (n0 := 32) (n1 := 20) (n2 := 80) ⟨(i 0).val, (i 0).isLt⟩ ⟨(i 1).val, (i 1).isLt⟩ ⟨(i 2).val, (i 2).isLt⟩)))
    ⟨(i 3).val, (i 3).isLt⟩)

/-- Every token word names a row of the table. -/
def TokOK : Prop := ∀ (d : Dev nD) (i : S32x20x80.Idx), (tk d i).toNat < 1000

variable [FloatOps F]

/-! ## What a tile is handed and hands back -/

/-- The tile's row of token words and its twenty result blocks, the blocks at the contents `g`. -/
def tileArr (d : Dev nD) (L : grid0.Coords) (g : Buf (Elt F) (outLoc d)) : sProp 𝕄 :=
  iprop((tokLoc d ↦[(tokRowK L).view.set]{fullShare} tk d)
    ∗ bigSep Finset.univ fun k : Fin k0_t1_loop.trips => outLoc d ↦[(outBlkK L k).view.set]{fullShare} g)

/-- SparseCore `c`'s read share of the table: the `c`-th of two tokens. -/
abbrev embTok (c : ℕ) : PosShare TreeShare := Transfers.shareTokN fullShare c

/-- Tile 0's extra at its start: the table's read share and the shared memory outright. -/
def lead₀ (d : Dev nD) (c : Fin τ.nSC) : sProp 𝕄 :=
  iprop((embLoc d ↦{embTok c.val} m (embLoc d)) ∗ ∃ f, shLoc d c ↦{fullShare} f)
/-- Tile 0's extra at its end: the table's read share and what it kept of the shared memory's. -/
def lead₁ (d : Dev nD) (c : Fin τ.nSC) : sProp 𝕄 :=
  iprop((embLoc d ↦{embTok c.val} m (embLoc d)) ∗ shLoc d c ↦{shRest} embSh m d c)

/-- The grid coordinates of task `i` of SparseCore `c` of the call. -/
def Lof (c : Fin ((K (F := F)).nCore 0)) (i : Fin ((K (F := F)).nSub 0)) : grid0.Coords := coordsV ⟨c.val, c.isLt⟩ ⟨i.val, i.isLt⟩

def goV (d : Dev nD) (c : Fin ((K (F := F)).nCore 0)) (i : Fin ((K (F := F)).nSub 0)) : sProp 𝕄 :=
  iprop(tileArr tk d (Lof c i) (m (outLoc d)) ∗ (if i.val = 0 then lead₀ m d ((K (F := F)).core 0 c) else iprop(emp)))
def tdV (d : Dev nD) (c : Fin ((K (F := F)).nCore 0)) (i : Fin ((K (F := F)).nSub 0)) : sProp 𝕄 :=
  iprop(tileArr tk d (Lof c i) (outSpec m tk d) ∗ (shLoc d ((K (F := F)).core 0 c) ↦{shTok i.val} embSh m d ((K (F := F)).core 0 c))
    ∗ (if i.val = 0 then lead₁ m d ((K (F := F)).core 0 c) else iprop(emp)))
def stV (d : Dev nD) (c : Fin ((K (F := F)).nCore 0)) : sProp 𝕄 :=
  iprop((bigSep Finset.univ fun i : Fin ((K (F := F)).nSub 0) => tileArr tk d (Lof c i) (m (outLoc d)))
    ∗ embLoc d ↦{embTok c.val} m (embLoc d))
def dnV (d : Dev nD) (c : Fin ((K (F := F)).nCore 0)) : sProp 𝕄 :=
  iprop((bigSep Finset.univ fun i : Fin ((K (F := F)).nSub 0) => tileArr tk d (Lof c i) (outSpec m tk d))
    ∗ embLoc d ↦{embTok c.val} m (embLoc d))

/-- The call's payloads; each tile's proof consumes its barrier kit, and each tile owes its sixteen arrivals. -/
def P : (K (F := F)).Pay (nD := nD) (Val := Elt F) (Name := ℕ) (U := UU) where
  st := fun q d c => match q with | 0 => stV m tk d c
  dn := fun q d c => match q with | 0 => dnV m tk d c
  go := fun q d c i => match q with | 0 => goV m tk d c i
  td := fun q d c i => match q with | 0 => tdV m tk d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m tk).IsStorable where
  st q d c := match q with | 0 => by show BI.Storable upEmb (stV m tk d c); unfold stV tileArr; infer_instance
  dn q d c := match q with | 0 => by show BI.Storable upEmb (dnV m tk d c); unfold dnV tileArr; infer_instance
  go q d c i := match q with | 0 => by show BI.Storable upEmb (goV m tk d c i); unfold goV tileArr lead₀; split <;> infer_instance
  td q d c i := match q with | 0 => by show BI.Storable upEmb (tdV m tk d c i); unfold tdV tileArr lead₁; split <;> infer_instance

end Cert.Proof.KI

end
-- ==== Proof.KITileVal.lean ====
/-
  What one trip of a tile's loop leaves in block k of its row of the result.

  The index scratch holds the tile's row of token words; the gather's payload at (r, e) is the shared table — the
  launch memory's table — at the row that word (k, r) names and column e; the row scratch is written whole with that
  payload and copied whole to the block. The block's element (w, k, r, e) is therefore the table at row
  tokens[w, k, r], column e: the call's result there.
-/
import proofs.«211305_g76828374991638_cont_9to1_m_1055_18_alg».proof.Proof.KIPay
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.KernelIdeal.main_v1_scv : Memref Cert.KernelIdeal.sig Kind.scVector Space.hbm Cert.KernelIdeal.S32x20x80 EltTy.i32)
local notation "embV" => (Memref.whole Cert.KernelIdeal.main_arg1_scv : Memref Cert.KernelIdeal.sig Kind.scVector Space.hbm Cert.KernelIdeal.S1000x128 EltTy.f32)
local notation "outV" => (Memref.whole Cert.KernelIdeal.main_v2_scv : Memref Cert.KernelIdeal.sig Kind.scVector Space.hbm Cert.KernelIdeal.S32x20x80x128 EltTy.f32)
local notation "sI" => (Memref.whole Cert.KernelIdeal.cc0_scratch0 : Memref Cert.KernelIdeal.sig Kind.scVector Space.vmem Cert.KernelIdeal.S20x80 EltTy.i32)
local notation "sR" => (Memref.whole Cert.KernelIdeal.cc0_scratch1 : Memref Cert.KernelIdeal.sig Kind.scVector Space.vmem Cert.KernelIdeal.S80x128 EltTy.f32)
local notation "shV" => (Memref.whole Cert.KernelIdeal.cc0_scratch2 : Memref Cert.KernelIdeal.sig Kind.scVector Space.shared Cert.KernelIdeal.S1000x128 EltTy.f32)

variable (m : (ℓ : Loc nD τ sig) → Buf (Elt F) ℓ) (tk : (d : Dev nD) → Buf (Elt F) (tokLoc d))
variable (d : Dev nD) (L : grid0.Coords)

/-- The tile's thread. -/
abbrev thrL (d : Dev nD) (L : grid0.Coords) : Thread nD τ := V d (cV L) (jV L)

/-- The tile's row of token words, as its fetch reads it off the re-laid tokens. -/
abbrev tokRowOf : S20x80.Idx → Elt F .i32 := ReadAs.same.apply (View.read (Elt F) (tokRowK L).view (tk d))

/-- The index scratch after the fetch, whatever it held before: the tile's row of token words. -/
abbrev fIdx (f1 : Buf (Elt F) ((thrL d L).loc cc0_scratch0)) : Buf (Elt F) ((thrL d L).loc cc0_scratch0) :=
  View.write (Elt F) (sI).view f1 (tokRowOf tk d L) Finset.univ

theorem fIdx_eq (f1 : Buf (Elt F) ((thrL d L).loc cc0_scratch0)) : fIdx tk d L f1 = tokRowOf tk d L :=
  View.write_whole_univ _ _ _

/-- Every word of a chunk names a row of the table. -/
theorem idx_inb (htk : TokOK tk) (f1 : Buf (Elt F) ((thrL d L).loc cc0_scratch0)) (k : Fin k0_t1_loop.trips) :
    ∀ x, ((idxRowK k).view.read (Elt F) (fIdx tk d L f1) x).toNat < S1000x128.size gathers_S1000x128_S80x128.axis := by
  intro x
  rw [fIdx_eq, View.read_apply]
  exact htk d _

open Idealize.ShloMosaic.ValueIdx

/-- The token row's placement: (p, q) of the row sits at (w, p, q) of the tokens. -/
theorem tokRowK_emb (L : grid0.Coords) (p : Fin 20) (q : Fin 80) :
    (tokRowK L).view.emb (ix2 p q) = ix3 (n0 := 32) (n1 := 20) (n2 := 80) ⟨rowL L, rowL_lt L⟩ p q := by
  show ((View.whole main_v1_scv).slice (Rect.unit (s := S32x20x80) (k0_off1 L) S1x20x80.size (k0_off1_inb L))).emb
      (Shape.reshapeEquiv squeezes_S1x20x80_S20x80.numel_eq (ix2 p q)) = _
  rw [reshapeEquiv_ix2_1ab]
  funext a
  apply Fin.ext
  match a with
  | ⟨0, _⟩ =>
    show (k0_off1 L) 0 + 1 * 0 = rowL L
    rw [k0_off1_eq]
    show 2 * (L 1).val + (L 0).val + 1 * 0 = rowL L
    unfold rowL; omega
  | ⟨1, _⟩ =>
    show (k0_off1 L) 1 + 1 * p.val = p.val
    rw [k0_off1_eq]
    show 0 + 1 * p.val = p.val
    omega
  | ⟨2, _⟩ =>
    show (k0_off1 L) 2 + 1 * q.val = q.val
    rw [k0_off1_eq]
    show 0 + 1 * q.val = q.val
    omega

theorem trip_lt (k : Fin k0_t1_loop.trips) : k.val < 20 := trips_eq ▸ k.isLt

/-- An index `x` matched with shape `[1, a]` is `(0, x)`. -/
theorem reshapeEquiv_ix1_1a {a : ℕ} (h : (⟨1, ![a]⟩ : Shape).numel = (⟨2, ![1, a]⟩ : Shape).numel)
    (x : Fin a) : Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    simp only [Nat.zero_mul, Nat.zero_add])

/-- The index chunk's placement: x of chunk k sits at (k, x) of the index scratch. -/
theorem idxRowK_emb (k : Fin k0_t1_loop.trips) (x : Fin 80) :
    (idxRowK k).view.emb (ix1 x) = ix2 (n0 := 20) (n1 := 80) ⟨k.val, trip_lt k⟩ x := by
  show ((View.whole cc0_scratch0).slice (Rect.unit (s := S20x80) (k0_off2 k) S1x80.size (k0_off2_inb k))).emb
      (Shape.reshapeEquiv squeezes_S1x80_S80.numel_eq (ix1 x)) = _
  rw [reshapeEquiv_ix1_1a]
  funext a
  apply Fin.ext
  match a with
  | ⟨0, _⟩ =>
    show (k0_off2 k) 0 + 1 * 0 = k.val
    rw [k0_off2_eq]
    show k.val + 1 * 0 = k.val
    omega
  | ⟨1, _⟩ =>
    show (k0_off2 k) 1 + 1 * x.val = x.val
    rw [k0_off2_eq]
    show 0 + 1 * x.val = x.val
    omega

/-- The gather's source view — the whole shared table sliced by the whole-shape rectangle at offsets (0, 0) — places
    every index at itself. -/
theorem shSrc_emb (x : S1000x128.Idx) :
    ((shV).slice (Rect.unit (s := S1000x128) ![0, 0] S1000x128.size inb_S1000x128_S1000x128_0_0) (fun _ => rfl)).view.emb x = x := by
  funext a
  apply Fin.ext
  match a with
  | ⟨0, _⟩ =>
    show 0 + 1 * (x 0).val = (x 0).val
    omega
  | ⟨1, _⟩ =>
    show 0 + 1 * (x 1).val = (x 1).val
    omega

theorem S80_numel : S80.numel = 80 := by decide

/-- The rank-1 shape's row-major position is the coordinate, so the index at position j is (j). -/
theorem rowMajor_symm_S80 (j : Fin S80.numel) : S80.rowMajor.symm j = ix1 (n := 80) ⟨j.val, S80_numel ▸ j.isLt⟩ :=
  (Equiv.symm_apply_eq _).2 (Fin.ext (by rw [Shape.rowMajor_val_one]))

/-- A result block's placement: (r, e) of block k sits at (w, k, r, e) of the result. -/
theorem outBlkK_emb (L : grid0.Coords) (k : Fin k0_t1_loop.trips) (r : Fin 80) (e : Fin 128) :
    (outBlkK L k).view.emb (ix2 r e) = ix4 (n0 := 32) (n1 := 20) (n2 := 80) (n3 := 128) ⟨rowL L, rowL_lt L⟩ ⟨k.val, trip_lt k⟩ r e := by
  show ((View.whole main_v2_scv).slice (Rect.unit (s := S32x20x80x128) (k0_off3 L k) S1x1x80x128.size (k0_off3_inb L k))).emb
      (Shape.reshapeEquiv squeezes_S1x1x80x128_S80x128.numel_eq (ix2 r e)) = _
  rw [reshapeEquiv_ix2_11ab]
  funext a
  apply Fin.ext
  match a with
  | ⟨0, _⟩ =>
    show (k0_off3 L k) 0 + 1 * 0 = rowL L
    rw [k0_off3_eq]
    show 2 * (L 1).val + (L 0).val + 1 * 0 = rowL L
    unfold rowL; omega
  | ⟨1, _⟩ =>
    show (k0_off3 L k) 1 + 1 * 0 = k.val
    rw [k0_off3_eq]
    show k.val + 1 * 0 = k.val
    omega
  | ⟨2, _⟩ =>
    show (k0_off3 L k) 2 + 1 * r.val = r.val
    rw [k0_off3_eq]
    show 0 + 1 * r.val = r.val
    omega
  | ⟨3, _⟩ =>
    show (k0_off3 L k) 3 + 1 * e.val = e.val
    rw [k0_off3_eq]
    show 0 + 1 * e.val = e.val
    omega

/-- Entry n of chunk k's offset list names the table row of token word (w, k, n). -/
theorem rows_val (f1 : Buf (Elt F) ((thrL d L).loc cc0_scratch0)) (k : Fin k0_t1_loop.trips)
    (hin : ∀ x, ((idxRowK k).view.read (Elt F) (fIdx tk d L f1) x).toNat < S1000x128.size gathers_S1000x128_S80x128.axis)
    (n : Fin 80) :
    (SparseCore.rows (View.read (Elt F) (idxRowK k).view (fIdx tk d L f1)) rfl hin n).val
      = (tk d (ix3 (n0 := 32) (n1 := 20) (n2 := 80) ⟨rowL L, rowL_lt L⟩ ⟨k.val, trip_lt k⟩ n)).toNat := by
  unfold SparseCore.rows
  show (View.read (Elt F) (idxRowK k).view (fIdx tk d L f1) (S80.rowMajor.symm _)).toNat = _
  rw [rowMajor_symm_S80, fIdx_eq, View.read_apply]
  show (tk d ((tokRowK L).view.emb ((idxRowK k).view.emb (ix1 n)))).toNat = _
  rw [idxRowK_emb, tokRowK_emb]

/-- The gather's payload at (r, e): the launch memory's table at the row token word (w, k, r) names, column e. -/
theorem payload_val (htk : TokOK tk) (f1 : Buf (Elt F) ((thrL d L).loc cc0_scratch0)) (k : Fin k0_t1_loop.trips)
    (hin : ∀ x, ((idxRowK k).view.read (Elt F) (fIdx tk d L f1) x).toNat < S1000x128.size gathers_S1000x128_S80x128.axis)
    (r : Fin 80) (e : Fin 128) :
    SparseCore.gatherPayload gathers_S1000x128_S80x128
        (View.read (Elt F) ((shV).slice (Rect.unit (s := S1000x128) ![0, 0] S1000x128.size inb_S1000x128_S1000x128_0_0) (fun _ => rfl)).view (embSh m d (cV L)))
        (SparseCore.rows (View.read (Elt F) (idxRowK k).view (fIdx tk d L f1)) rfl hin) (ix2 r e)
      = m (embLoc d) (ix2 (n0 := 1000) (n1 := 128)
          ⟨(tk d (ix3 (n0 := 32) (n1 := 20) (n2 := 80) ⟨rowL L, rowL_lt L⟩ ⟨k.val, trip_lt k⟩ r)).toNat, htk d _⟩ e) := by
  unfold SparseCore.gatherPayload
  rw [View.read_apply, shSrc_emb]
  show m (embLoc d) _ = _
  congr 1
  funext a
  apply Fin.ext
  match a with
  | ⟨0, _⟩ =>
    show (gathers_S1000x128_S80x128.idx _ (ix2 r e) gathers_S1000x128_S80x128.axis).val = _
    rw [Shape.Gathers.idx_axis]
    exact rows_val tk d L f1 k hin r
  | ⟨1, h1⟩ =>
    exact Shape.Gathers.idx_of_ne gathers_S1000x128_S80x128 _ (ix2 r e) ⟨1, h1⟩ Nat.one_ne_zero

/-- What one whole-shape write through a view leaves under the view's own index. -/
theorem writes_whole_emb {sig : RefSig} {κ : Kind} {sp : Space} {s : Shape} {e : EltTy} {Val : EltTy → Type}
    (v : View sig κ sp s e) (f : v.ty.Contents Val) (w : (Rect.whole s).shape.Idx → Val e) (x : s.Idx) :
    v.writes Val f [⟨Rect.whole s, w⟩] (v.emb x) = _root_.cast (congrArg Val v.elt_eq.symm) (w x) := by
  have h := View.write_emb_of_mem (v := v.slice (Rect.whole s)) f w (M := Finset.univ) (x := x) (Finset.mem_univ x)
  rw [View.emb_slice, Function.Embedding.trans_apply, Rect.emb_whole_apply] at h
  exact h

/-- A view written whole reads back the payload. -/
theorem read_writes_whole {sig : RefSig} {κ : Kind} {sp : Space} {s : Shape} {e : EltTy} {Val : EltTy → Type}
    (v : View sig κ sp s e) (f : v.ty.Contents Val) (w : (Rect.whole s).shape.Idx → Val e) (x : s.Idx) :
    v.read Val (v.writes Val f [⟨Rect.whole s, w⟩]) x = w x := by
  have h := View.read_writes_cons_emb v f (Rect.whole s) w [] x
  rwa [Rect.emb_whole_apply] at h

/-- Block `k` as the trip leaves it — the gather's payload written to the row scratch, read back and written to the
    block — is the call's result on the block's elements. -/
theorem out_val (htk : TokOK tk) (f1 : Buf (Elt F) ((thrL d L).loc cc0_scratch0)) (g2 : Buf (Elt F) ((thrL d L).loc cc0_scratch1))
    (k : Fin k0_t1_loop.trips)
    (hin : ∀ x, ((idxRowK k).view.read (Elt F) (fIdx tk d L f1) x).toNat < S1000x128.size gathers_S1000x128_S80x128.axis) :
    ∀ i ∈ (outBlkK L k).view.set,
      ((outBlkK L k).view.writes (Elt F) (m (outLoc d))
        [⟨Rect.whole S80x128, ReadAs.same.apply (View.read (Elt F) (sR).view ((sR).view.writes (Elt F) g2
          [⟨Rect.whole cc0_scratch1.ty.shape,
            SparseCore.gatherPayload gathers_S1000x128_S80x128
              (View.read (Elt F) ((shV).slice (Rect.unit (s := S1000x128) ![0, 0] S1000x128.size inb_S1000x128_S1000x128_0_0) (fun _ => rfl)).view (embSh m d (cV L)))
              (SparseCore.rows (View.read (Elt F) (idxRowK k).view (fIdx tk d L f1)) rfl hin)⟩]))⟩]) i
      = outSpec m tk d i := by
  intro i hi
  obtain ⟨y, -, rfl⟩ := Finset.mem_map.mp hi
  obtain ⟨r, e, rfl⟩ : ∃ (r : Fin 80) (e : Fin 128), y = ix2 r e := ⟨y 0, y 1, eq_ix2 y⟩
  refine (writes_whole_emb _ _ _ _).trans ?_
  refine (read_writes_whole (sR).view g2 _ (ix2 r e)).trans ?_
  refine (payload_val m tk d L htk f1 k hin r e).trans ?_
  rw [outBlkK_emb]
  show _ = m (embLoc d) (ix2 (n0 := 1000) (n1 := 128)
    (Cert.Spec.rowOf (tk d (ix3 (n0 := 32) (n1 := 20) (n2 := 80) ⟨rowL L, rowL_lt L⟩ ⟨k.val, trip_lt k⟩ r))) e)
  refine congrArg (m (embLoc d)) ?_
  funext a
  apply Fin.ext
  match a with
  | ⟨0, _⟩ => exact (Cert.Spec.rowOf_val (htk d _)).symm
  | ⟨1, _⟩ => rfl

end Cert.Proof.KI

end
-- ==== Proof.KITile.lean ====
/-
  One tile's task, from the barrier to its end.

  Before the barrier the tile has fetched its row of token words into its index scratch. At the barrier it pays its
  duty of every tile's round — tile 0's duties each carry a read token of the shared table — and, leaving, takes
  the read token tile 0 handed it. Then twenty times: the eighty words of chunk k name eighty rows of the table (each
  word below 1000), the indirect gather brings those rows from the shared memory into the row scratch, and the row
  scratch is written to block k of the tile's row of the result; so block k ends at the looked-up rows, and the loop's
  invariant is "the blocks before k are done".
-/
import proofs.«211305_g76828374991638_cont_9to1_m_1055_18_alg».proof.Proof.KITileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.KernelIdeal.main_v1_scv : Memref Cert.KernelIdeal.sig Kind.scVector Space.hbm Cert.KernelIdeal.S32x20x80 EltTy.i32)
local notation "embV" => (Memref.whole Cert.KernelIdeal.main_arg1_scv : Memref Cert.KernelIdeal.sig Kind.scVector Space.hbm Cert.KernelIdeal.S1000x128 EltTy.f32)
local notation "outV" => (Memref.whole Cert.KernelIdeal.main_v2_scv : Memref Cert.KernelIdeal.sig Kind.scVector Space.hbm Cert.KernelIdeal.S32x20x80x128 EltTy.f32)
local notation "sI" => (Memref.whole Cert.KernelIdeal.cc0_scratch0 : Memref Cert.KernelIdeal.sig Kind.scVector Space.vmem Cert.KernelIdeal.S20x80 EltTy.i32)
local notation "sR" => (Memref.whole Cert.KernelIdeal.cc0_scratch1 : Memref Cert.KernelIdeal.sig Kind.scVector Space.vmem Cert.KernelIdeal.S80x128 EltTy.f32)
local notation "shV" => (Memref.whole Cert.KernelIdeal.cc0_scratch2 : Memref Cert.KernelIdeal.sig Kind.scVector Space.shared Cert.KernelIdeal.S1000x128 EltTy.f32)

variable (m : (ℓ : Loc nD τ sig) → Buf (Elt F) ℓ) (tk : (d : Dev nD) → Buf (Elt F) (tokLoc d))
variable (d : Dev nD) (L : grid0.Coords)

variable [FloatOps F]

/-- What the barrier hands over for tile `L` in the round of tile `j` of its SparseCore, with the duty's token and the
    round reached. -/
abbrev arrive (d : Dev nD) (L : grid0.Coords) (j : Fin (grid0.bound 1)) : sProp 𝕄 :=
  iprop(dutyTok EB (bcell d (cV L) (j.castLE hsub0)) 0 (jV L).val
    ∗ (bRd (F := F) m).payload (bcell d (cV L) (j.castLE hsub0)) 0 (jV L).val ∗ reached EB (bcell d (cV L) (j.castLE hsub0)) 0)

/-- What a tile takes out of its own round when it leaves the barrier: tile 0's duty carried the tile's read token of the
    shared table. -/
theorem barrier_take (d : Dev nD) (L : grid0.Coords) :
    (bigSep ((bRd (F := F) m).duties (bcell d (cV L) (jV L)) 0 \ ∅) fun n => (bRd (F := F) m).payload (bcell d (cV L) (jV L)) 0 n : sProp 𝕄)
      ⊢ shLoc d (cV L) ↦{shTok (jV L).val} embSh m d (cV L) := by
  rw [Finset.sdiff_empty, bRd_duties₀ m d (cV L) (jV L),
    SparseCore.bigSep_erase' (Finset.mem_image_of_mem Fin.val (Finset.mem_univ (⟨0, by decide⟩ : Fin τ.nSub)))]
  exact sep_elim_left.trans (Entails.of_eq (bRd_payload_zero m d (cV L) (jV L)))

/-- The tile's result blocks with the first `n` at the looked-up rows and the others as the launch left them. -/
abbrev blocksAt (d : Dev nD) (L : grid0.Coords) (n : ℕ) : sProp 𝕄 :=
  bigSep Finset.univ fun k : Fin k0_t1_loop.trips =>
    outLoc d ↦[(outBlkK L k).view.set]{fullShare} (if k.val < n then outSpec m tk d else m (outLoc d))

/-- Block `k` out of the family before trip `k`: still as the launch left it. -/
theorem blocks_split (k : Fin k0_t1_loop.trips) :
    blocksAt m tk d L k.val = iprop((outLoc d ↦[(outBlkK L k).view.set]{fullShare} m (outLoc d))
      ∗ bigSep (Finset.univ.erase k) fun j : Fin k0_t1_loop.trips =>
          outLoc d ↦[(outBlkK L j).view.set]{fullShare} (if j.val < k.val then outSpec m tk d else m (outLoc d))) := by
  unfold blocksAt
  rw [SparseCore.bigSep_erase' (Finset.mem_univ k), if_neg (lt_irrefl _)]

/-- Block `k` back into the family after trip `k`: at the looked-up rows. -/
theorem blocks_join (k : Fin k0_t1_loop.trips) :
    iprop((outLoc d ↦[(outBlkK L k).view.set]{fullShare} outSpec m tk d)
      ∗ bigSep (Finset.univ.erase k) fun j : Fin k0_t1_loop.trips =>
          outLoc d ↦[(outBlkK L j).view.set]{fullShare} (if j.val < k.val then outSpec m tk d else m (outLoc d)))
      = blocksAt m tk d L (k.val + 1) := by
  unfold blocksAt
  rw [SparseCore.bigSep_erase' (Finset.mem_univ k), if_pos (Nat.lt_succ_self _)]
  congr 1
  refine bigSep_congr fun j hj => ?_
  have hne : j.val ≠ k.val := fun e => (Finset.mem_erase.mp hj).1 (Fin.ext e)
  by_cases h : j.val < k.val
  · rw [if_pos h, if_pos (Nat.lt_succ_of_lt h)]
  · rw [if_neg h, if_neg (by omega)]

/-- The loop's invariant before trip `n`: the read token of the shared table, the fetched token words, the row scratch
    at some contents, the blocks before `n` done, both semaphores at zero, and the tile owing `O`. -/
def inv (O : CellTallies nD τ sig (HIx 1)) (W : Waits sig (HIx 1)) (f1 : Buf (Elt F) ((thrL d L).loc cc0_scratch0))
    (n : ℕ) (_ : PUnit) : sProp 𝕄 :=
  iprop(Transfers.MayWaits (thrL d L) (none : HIx 1) O
    ∗ ((shV).view.loc (thrL d L) ↦{shTok (jV L).val} embSh m d (cV L))
    ∗ ((sI).view.loc (thrL d L) ↦{fullShare} fIdx tk d L f1)
    ∗ (∃ f2, (sR).view.loc (thrL d L) ↦{fullShare} f2)
    ∗ blocksAt m tk d L n
    ∗ semVal (thrL d L, SemLoc.dma cc0_scratch3.sem) 0
    ∗ semVal (thrL d L, SemLoc.dma cc0_scoped2.sem) 0
    ∗ ∃ W', ⌜∀ p ∈ W', p ∈ W ∨ p.2 = none ∨ p.2 = some (0 : Fin 1)⌝ ∗ owes (thrL d L) O W')

set_option maxHeartbeats 4000000 in
/-- From the barrier to the task's end, for any continuation's post `Q`. -/
theorem tile_rest (htk : TokOK tk) (O : CellTallies nD τ sig (HIx 1)) (W : Waits sig (HIx 1)) (hO : ∀ g, O g none = 0)
    (hOlev : ∀ g ι, 0 < O g ι → 8 * (0 : Fin 1).val + 6 ≤ (K (F := F)).lev g ι)
    (κ : GSem nD τ sig → ℕ) (f1 : Buf (Elt F) ((thrL d L).loc cc0_scratch0)) (Q : PUnit → sProp 𝕄) :
    iprop(levAts (K (F := F)).L (K (F := F)).lev
        ∗ (bigSep Finset.univ fun j : Fin (grid0.bound 1) => cellInv EB (bRd (F := F) m) (κ (bcell d (cV L) (j.castLE hsub0))) (bcell d (cV L) (j.castLE hsub0)))
        ∗ (bigSep Finset.univ fun j : Fin (grid0.bound 1) => arrive m d L j)
        ∗ atPos EB (bcell d (cV L) (jV L)) 0 ∅ 0
        ∗ cred (tallyAt (bcell d (cV L) (jV L)) (some 0) (grid0.bound 1))
        ∗ blocksAt m tk d L 0
        ∗ ((thrL d L).loc cc0_scratch0 ↦{fullShare} fIdx tk d L f1)
        ∗ (∃ f2, (thrL d L).loc cc0_scratch1 ↦{fullShare} f2)
        ∗ semVal (thrL d L, SemLoc.dma cc0_scratch3.sem) 0
        ∗ semVal (thrL d L, SemLoc.dma cc0_scoped2.sem) 0
        ∗ owes (thrL d L) (O + oxV d (cV L)) W
        ∗ (iprop(blocksAt m tk d L k0_t1_loop.trips
              ∗ (shLoc d (cV L) ↦{shTok (jV L).val} embSh m d (cV L))
              ∗ ((thrL d L).loc cc0_scratch0 ↦{fullShare} fIdx tk d L f1)
              ∗ (∃ f2, (thrL d L).loc cc0_scratch1 ↦{fullShare} f2)
              ∗ semVal (thrL d L, SemLoc.dma cc0_scratch3.sem) 0
              ∗ semVal (thrL d L, SemLoc.dma cc0_scoped2.sem) 0
              ∗ ∃ W', ⌜∀ p ∈ W', p ∈ W ∨ p.2 = none ∨ p.2 = some (0 : Fin 1)⌝ ∗ owes (thrL d L) O W') -∗ Q ⟨⟩))
      ⊢ wp frame (wpE (defs₀ (F := F)) 𝒱₀ (thrL d L) none) Set.univ
          (do
            SparseCore.subcoreBarrier sc_bar0 (grid0.bound 1) hsub0
            Scf.Loop.for k0_t1_loop k0_t1_ok ⟨⟩ (k0_t1_body L tokV (Memref.isWhole_whole _) embV (Memref.isWhole_whole _) outV (Memref.isWhole_whole _) sI (Memref.isWhole_whole _) sR (Memref.isWhole_whole _) shV (Memref.isWhole_whole _) cc0_scratch3 cc0_scoped0 cc0_scoped1 cc0_scoped2)
            pure ⟨⟩) Q := by
  iintro ⟨#Hlv, #Hinv, Htoks, Hat, Hcred, Hblk, HsI, ⟨%f2, HsR⟩, Hs3, Hs2, HO, HQ⟩
  ihave Hmw := (show levAts (K (F := F)).L (K (F := F)).lev ⊢ Transfers.MayWaits (thrL d L) (default : HIx 1) O from
    (K (F := F)).mayWaits_none (thr := thrL d L) hO) $$ Hlv
  have eI : ((thrL d L).loc cc0_scratch0 ↦{fullShare} fIdx tk d L f1 : sProp 𝕄) = ((sI).view.loc (thrL d L) ↦{fullShare} fIdx tk d L f1) := rfl
  have eR : ((thrL d L).loc cc0_scratch1 ↦{fullShare} f2 : sProp 𝕄) = ((sR).view.loc (thrL d L) ↦{fullShare} f2) := rfl
  ihave HsI' := (Entails.of_eq eI) $$ HsI
  ihave HsR' := (Entails.of_eq eR) $$ HsR
  -- the barrier: the tile pays its duty of every round and waits for its own
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := thrL d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, -, -, Hpay⟩
  -- what crossed the barrier: tile 0's duty carried the read token
  ihave Hsh := (barrier_take m d L) $$ Hpay
  have eS : (shLoc d (cV L) ↦{shTok (jV L).val} embSh m d (cV L) : sProp 𝕄) = ((shV).view.loc (thrL d L) ↦{shTok (jV L).val} embSh m d (cV L)) := rfl
  ihave Hsh' := (Entails.of_eq eS) $$ Hsh
  sl_for (inv m tk d L O W f1) $$ [Hmw Hsh' HsI' HsR' Hblk Hs3 Hs2 HO]
  case region =>
    intro k _
    unfold inv
    iintro ⟨Hmw, Hsh, HsI, ⟨%g2, HsR⟩, Hblk, Hs3, Hs2, %W', %hW', HO⟩
    have hin := idx_inb tk d L htk f1 k
    ihave Hb := (Entails.of_eq (blocks_split m tk d L k)) $$ Hblk
    icases Hb with ⟨Hk, Hrest⟩
    have eK : (outLoc d ↦[(outBlkK L k).view.set]{fullShare} m (outLoc d) : sProp 𝕄)
        = ((outBlkK L k).view.loc (thrL d L) ↦[(outBlkK L k).view.set]{fullShare} m (outLoc d)) := rfl
    ihave Hk' := (Entails.of_eq eK) $$ Hk
    sl_exec
    ihave Hk'' := (Entails.of_eq (pointsTo_congr (out_val m tk d L htk f1 g2 k hin))) $$ Hk'
    sl_step
    isplitl [Hmw]; · iexact Hmw
    isplitl [Hsh]; · iexact Hsh
    isplitl [HsI]; · iexact HsI
    isplitl [HsR]; · iexists _; iexact HsR
    isplitl [Hk'' Hrest]
    · iapply (Entails.of_eq (blocks_join m tk d L k))
      isplitl [Hk'']; · iexact Hk''
      iexact Hrest
    isplitl [Hs3]; · iexact Hs3
    isplitl [Hs2]; · iexact Hs2
    iexists _; isplitr
    swap; · iexact HO
    ipureintro; intro p hp
    rcases Finset.mem_insert.mp hp with hp | hp; · exact .inr (.inl (by rw [hp]; rfl))
    rcases Finset.mem_insert.mp hp with hp | hp; · exact .inr (.inl (by rw [hp]; rfl))
    exact hW' p hp
  · unfold inv
    isplitl [Hmw]; · iexact Hmw
    isplitl [Hsh']; · iexact Hsh'
    isplitl [HsI']; · iexact HsI'
    isplitl [HsR']; · iexists _; iexact HsR'
    isplitl [Hblk]; · iexact Hblk
    isplitl [Hs3]; · iexact Hs3
    isplitl [Hs2]; · iexact Hs2
    iexists _; isplitr
    swap; · iexact HO
    ipureintro; intro p hp
    rcases Finset.mem_insert.mp hp with hp | hp; · exact .inr (.inr (by rw [hp]))
    exact .inl hp
  iintro %_ HI
  unfold inv
  icases HI with ⟨-, Hsh, HsI, HsR, Hblk, Hs3, Hs2, HW⟩
  sl_exec
  sl_step
  iapply HQ
  isplitl [Hblk]; · iexact Hblk
  isplitl [Hsh]; · iexact Hsh
  isplitl [HsI]; · iexact HsI
  isplitl [HsR]; · iexact HsR
  isplitl [Hs3]; · iexact Hs3
  isplitl [Hs2]; · iexact Hs2
  iexact HW

end Cert.Proof.KI

end
-- ==== Proof.KITileBody.lean ====
/-
  One tile's whole task, and the launch theorem's obligation for the gather kernel.

  Tile 0 of a SparseCore first copies the embedding table into the shared memory and waits for the copy; every tile
  fetches its row of token words. Tile 0 then splits the shared memory's full share into sixteen read tokens and what
  is left, and its arrival at the barrier hands each tile its token; the other tiles arrive handing over nothing. From
  the barrier on, the task is `tile_rest`.
-/
import proofs.«211305_g76828374991638_cont_9to1_m_1055_18_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.KernelIdeal.main_v1_scv : Memref Cert.KernelIdeal.sig Kind.scVector Space.hbm Cert.KernelIdeal.S32x20x80 EltTy.i32)
local notation "embV" => (Memref.whole Cert.KernelIdeal.main_arg1_scv : Memref Cert.KernelIdeal.sig Kind.scVector Space.hbm Cert.KernelIdeal.S1000x128 EltTy.f32)
local notation "outV" => (Memref.whole Cert.KernelIdeal.main_v2_scv : Memref Cert.KernelIdeal.sig Kind.scVector Space.hbm Cert.KernelIdeal.S32x20x80x128 EltTy.f32)
local notation "sI" => (Memref.whole Cert.KernelIdeal.cc0_scratch0 : Memref Cert.KernelIdeal.sig Kind.scVector Space.vmem Cert.KernelIdeal.S20x80 EltTy.i32)
local notation "sR" => (Memref.whole Cert.KernelIdeal.cc0_scratch1 : Memref Cert.KernelIdeal.sig Kind.scVector Space.vmem Cert.KernelIdeal.S80x128 EltTy.f32)
local notation "shV" => (Memref.whole Cert.KernelIdeal.cc0_scratch2 : Memref Cert.KernelIdeal.sig Kind.scVector Space.shared Cert.KernelIdeal.S1000x128 EltTy.f32)

variable (m : (ℓ : Loc nD τ sig) → Buf (Elt F) ℓ) (tk : (d : Dev nD) → Buf (Elt F) (tokLoc d))
variable (d : Dev nD) (L : grid0.Coords)
variable [FloatOps F]

/-! ## The tile's own semaphores and buffers -/

abbrev c3cell (d : Dev nD) (L : grid0.Coords) : GSem nD τ sig := (thrL d L, .dma cc0_scratch3.sem)
abbrev c0cell (d : Dev nD) (L : grid0.Coords) : GSem nD τ sig := (thrL d L, .dma cc0_scoped0.sem)
abbrev c1cell (d : Dev nD) (L : grid0.Coords) : GSem nD τ sig := (thrL d L, .dma cc0_scoped1.sem)
abbrev c2cell (d : Dev nD) (L : grid0.Coords) : GSem nD τ sig := (thrL d L, .dma cc0_scoped2.sem)

omit [FloatOps F] in
/-- The tile's four DMA semaphores among its own, each at zero, and the rest. -/
theorem ownSems0_V :
    (ownSems0 (thrL d L) : sProp 𝕄)
      = iprop(semVal (c3cell d L) 0 ∗ semVal (c0cell d L) 0 ∗ semVal (c1cell d L) 0 ∗ semVal (c2cell d L) 0
          ∗ bigSep (((((ownCells (thrL d L)).erase (c3cell d L)).erase (c0cell d L)).erase (c1cell d L)).erase (c2cell d L)) fun g => semVal g 0) := by
  unfold SparseCore.Cfg.ownSems0
  have h3 : c3cell d L ∈ ownCells (thrL d L) := (mem_ownCells (g := c3cell d L)).mpr ⟨rfl, by
    show (SemLoc.dma cc0_scratch3.sem : SemLoc sig).isScoped .scVector = true; decide⟩
  have h0 : c0cell d L ∈ (ownCells (thrL d L)).erase (c3cell d L) := Finset.mem_erase.mpr ⟨by simp [c0cell, c3cell]; decide,
    (mem_ownCells (g := c0cell d L)).mpr ⟨rfl, by show (SemLoc.dma cc0_scoped0.sem : SemLoc sig).isScoped .scVector = true; decide⟩⟩
  have h1 : c1cell d L ∈ ((ownCells (thrL d L)).erase (c3cell d L)).erase (c0cell d L) :=
    Finset.mem_erase.mpr ⟨by simp [c1cell, c0cell]; decide, Finset.mem_erase.mpr ⟨by simp [c1cell, c3cell]; decide,
      (mem_ownCells (g := c1cell d L)).mpr ⟨rfl, by show (SemLoc.dma cc0_scoped1.sem : SemLoc sig).isScoped .scVector = true; decide⟩⟩⟩
  have h2 : c2cell d L ∈ (((ownCells (thrL d L)).erase (c3cell d L)).erase (c0cell d L)).erase (c1cell d L) :=
    Finset.mem_erase.mpr ⟨by simp [c2cell, c1cell]; decide, Finset.mem_erase.mpr ⟨by simp [c2cell, c0cell]; decide, Finset.mem_erase.mpr ⟨by simp [c2cell, c3cell]; decide,
      (mem_ownCells (g := c2cell d L)).mpr ⟨rfl, by show (SemLoc.dma cc0_scoped2.sem : SemLoc sig).isScoped .scVector = true; decide⟩⟩⟩⟩
  rw [SparseCore.bigSep_erase' h3, SparseCore.bigSep_erase' h0, SparseCore.bigSep_erase' h1, SparseCore.bigSep_erase' h2]

abbrev r0 (L : grid0.Coords) : DevRef τ sig := (Proc.scVector (cV L) (jV L)).devRef cc0_scratch0
abbrev r1 (L : grid0.Coords) : DevRef τ sig := (Proc.scVector (cV L) (jV L)).devRef cc0_scratch1

omit [FloatOps F] in
/-- The tile's two scratch buffers among its own, each at some contents, and the rest. -/
theorem ownBufs_V :
    (ownBufs (thrL d L) : sProp 𝕄)
      = iprop((∃ f, (thrL d L).loc cc0_scratch0 ↦{fullShare} f) ∗ (∃ f, (thrL d L).loc cc0_scratch1 ↦{fullShare} f)
          ∗ bigSep (((ownRefs (τ := τ) (.scVector (cV L) (jV L))).erase (r0 L)).erase (r1 L))
              fun b => iprop(∃ f, ((d, b) : Loc nD τ sig) ↦{fullShare} f)) := by
  unfold SparseCore.Cfg.ownBufs
  have h0 : r0 L ∈ ownRefs (τ := τ) (sig := sig) (.scVector (cV L) (jV L)) := SparseCore.Cfg.mem_ownRefs_of_owner (p := Proc.scVector (cV L) (jV L)) (b := r0 L) rfl
  have h1 : r1 L ∈ (ownRefs (τ := τ) (sig := sig) (.scVector (cV L) (jV L))).erase (r0 L) :=
    Finset.mem_erase.mpr ⟨by simp [r0, r1], SparseCore.Cfg.mem_ownRefs_of_owner (p := Proc.scVector (cV L) (jV L)) (b := r1 L) rfl⟩
  rw [SparseCore.bigSep_erase' h0, SparseCore.bigSep_erase' h1]

/-! ## The blocks family at the loop's ends, and what a tile presents at the barrier -/

/-- Before the first trip no block is done. -/
theorem blocks_none :
    blocksAt m tk d L 0 = bigSep Finset.univ fun k : Fin k0_t1_loop.trips => outLoc d ↦[(outBlkK L k).view.set]{fullShare} m (outLoc d) := by
  unfold blocksAt; exact bigSep_congr fun k _ => by rw [if_neg (Nat.not_lt_zero _)]

/-- After the last trip every block is done. -/
theorem blocks_done :
    blocksAt m tk d L k0_t1_loop.trips = bigSep Finset.univ fun k : Fin k0_t1_loop.trips => outLoc d ↦[(outBlkK L k).view.set]{fullShare} outSpec m tk d := by
  unfold blocksAt; exact bigSep_congr fun k _ => by rw [if_pos k.isLt]

/-- A tile other than tile 0 arrives handing over nothing. -/
theorem arrive_plain (hs : (jV L).val ≠ 0) :
    iprop((bigSep Finset.univ fun j : Fin (grid0.bound 1) => dutyTok EB (bcell d (cV L) (j.castLE hsub0)) 0 (jV L).val)
        ∗ (bigSep Finset.univ fun j : Fin (grid0.bound 1) => reached EB (bcell d (cV L) (j.castLE hsub0)) 0))
      ⊢ (bigSep Finset.univ fun j : Fin (grid0.bound 1) => arrive m d L j : sProp 𝕄) := by
  rw [← bigSep_sep']
  refine bigSep_mono fun j _ => ?_
  show _ ⊢ iprop(_ ∗ (bRd (F := F) m).payload (bcell d (cV L) (j.castLE hsub0)) 0 (jV L).val ∗ _)
  rw [bRd_payload_pos m d (cV L) (j.castLE hsub0) hs]
  iintro ⟨A, B⟩
  isplitl [A]; · iexact A
  isplitr; · iempintro
  iexact B

/-- Tile 0 arrives handing every tile of its SparseCore its read token of the shared table. -/
theorem arrive_lead (hs : (jV L).val = 0) :
    iprop((bigSep Finset.univ fun j : Fin (grid0.bound 1) => dutyTok EB (bcell d (cV L) (j.castLE hsub0)) 0 (jV L).val)
        ∗ (bigSep Finset.univ fun j : Fin (grid0.bound 1) => reached EB (bcell d (cV L) (j.castLE hsub0)) 0)
        ∗ (bigSep Finset.univ fun j : Fin (grid0.bound 1) => shLoc d (cV L) ↦{shTok j.val} embSh m d (cV L)))
      ⊢ (bigSep Finset.univ fun j : Fin (grid0.bound 1) => arrive m d L j : sProp 𝕄) := by
  rw [← bigSep_sep', ← bigSep_sep']
  refine bigSep_mono fun j _ => ?_
  show _ ⊢ iprop(_ ∗ (bRd (F := F) m).payload (bcell d (cV L) (j.castLE hsub0)) 0 (jV L).val ∗ _)
  rw [hs, bRd_payload_zero m d (cV L) (j.castLE hsub0)]
  iintro ⟨A, B, C⟩
  isplitl [A]; · iexact A
  isplitl [C]; · iexact C
  iexact B

/-! ## The task -/

omit [FloatOps F] in
/-- Off tile 0 the kernel's first branch is not taken. -/
theorem cond_ne : ∀ v : Fin 16, v.val ≠ 0 →
    ¬ (Scalar.cmpi .ne (Scalar.extui (Scalar.cmpi .eq (BitVec.ofNat 32 v.val) 0#32)) 0#32 = 1#1) := by decide

set_option maxHeartbeats 4000000 in
/-- The task of the tile at grid coordinates `L` of device `d`. -/
theorem tile_body (hF : (K (F := F)).Facts) (htk : TokOK tk) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr tk d L (m (outLoc d)) ∗ (if (jV L).val = 0 then lead₀ m d (cV L) else iprop(emp)))
        ∗ scopedBufs (thrL d L) ∗ scopedSems0 (thrL d L) ∗ owes (thrL d L) (O + oxV d (cV L)) W)
      ⊢ wp frame (wpE (defs₀ (F := F)) 𝒱₀ (thrL d L) none) Set.univ
          (cc0_gather L tokV (Memref.isWhole_whole _) embV (Memref.isWhole_whole _) outV (Memref.isWhole_whole _) sI (Memref.isWhole_whole _) sR (Memref.isWhole_whole _) shV (Memref.isWhole_whole _) cc0_scratch3 cc0_scoped0 cc0_scoped1 cc0_scoped2)
          fun _ => iprop((tileArr tk d L (outSpec m tk d) ∗ (shLoc d (cV L) ↦{shTok (jV L).val} embSh m d (cV L))
              ∗ (if (jV L).val = 0 then lead₁ m d (cV L) else iprop(emp)))
            ∗ scopedBufs (thrL d L) ∗ scopedSems0 (thrL d L)
            ∗ ∃ W', ⌜∀ p ∈ W', p ∈ W ∨ p.2 = none ∨ p.2 = some (0 : Fin 1)⌝ ∗ owes (thrL d L) O W') := by
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  unfold bkit tileArr
  have hO' : ∀ g, (O + oxV d (cV L)) g none = 0 := fun g => by rw [Pi.add_apply, Finsupp.add_apply, hO g, oxV_none]
  by_cases hs : (jV L).val = 0
  · -- tile 0: the table's copy first
    have k0_h1 : Scalar.cmpi .ne (Scalar.extui (Scalar.cmpi .eq (BitVec.ofNat 32 (L 1).val) 0#32)) 0#32 = 1#1 := by
      rw [show (L 1).val = 0 from hs]; decide
    rw [if_pos hs, if_pos hs]; unfold lead₀ lead₁
    iintro ⟨#Hlv, ⟨⟨%κ, #Hinv⟩, Htoks, #Hreach, Hat, Hcred⟩, ⟨⟨Htok, Hblk⟩, ⟨Hemb, %fs, Hsh⟩⟩, ⟨⟨%f1, HsI⟩, ⟨%f2, HsR⟩, Hbufs⟩, ⟨Hs3, Hs0, Hs1, Hs2, Hsems⟩, HO⟩
    ihave Hmw1 := (show levAts (K (F := F)).L (K (F := F)).lev ⊢ Transfers.MayWaits (thrL d L) (default : HIx 1) (O + oxV d (cV L)) from
      (K (F := F)).mayWaits_none (thr := thrL d L) hO') $$ Hlv
    have e1 : (tokLoc d ↦[(tokRowK L).view.set]{fullShare} tk d : sProp 𝕄) = ((tokRowK L).view.loc (thrL d L) ↦[(tokRowK L).view.set]{fullShare} tk d) := rfl
    have e2 : (embLoc d ↦{embTok (cV L).val} m (embLoc d) : sProp 𝕄) = ((embV).view.loc (thrL d L) ↦{embTok (cV L).val} m (embLoc d)) := rfl
    have e3 : (shLoc d (cV L) ↦{fullShare} fs : sProp 𝕄) = ((shV).view.loc (thrL d L) ↦{fullShare} fs) := rfl
    have e4 : ((thrL d L).loc cc0_scratch0 ↦{fullShare} f1 : sProp 𝕄) = ((sI).view.loc (thrL d L) ↦{fullShare} f1) := rfl
    have e5 : ((thrL d L).loc cc0_scratch1 ↦{fullShare} f2 : sProp 𝕄) = ((sR).view.loc (thrL d L) ↦{fullShare} f2) := rfl
    ihave Htok' := (Entails.of_eq e1) $$ Htok
    ihave Hemb' := (Entails.of_eq e2) $$ Hemb
    ihave Hsh' := (Entails.of_eq e3) $$ Hsh
    ihave HsI' := (Entails.of_eq e4) $$ HsI
    ihave HsR' := (Entails.of_eq e5) $$ HsR
    sl_exec
    -- the shared memory holds the table; its full share is sixteen read tokens and a rest
    have eW : View.write (Elt F) (shV).view fs (tile_body.sl.dma0 m d) Finset.univ = embSh m d (cV L) :=
      View.write_whole_univ _ _ _
    ihave Hsh2 := (Entails.of_eq (pointsTo_congr (ℓ := (shV).view.loc (thrL d L)) (I := Finset.univ) (q := fullShare) (fun i _ => congrFun eW i))) $$ Hsh'
    have e3' : (((shV).view.loc (thrL d L)) ↦{fullShare} embSh m d (cV L) : sProp 𝕄) = (shLoc d (cV L) ↦{fullShare} embSh m d (cV L)) := rfl
    ihave Hsh3 := (Entails.of_eq e3') $$ Hsh2
    ihave Hparts := (Transfers.pointsTo_toks_split (ℓ := shLoc d (cV L)) (S := Finset.univ) (f := embSh m d (cV L)) fullShare 16) $$ Hsh3
    icases Hparts with ⟨Hrest, Htokens⟩
    iapply (tile_rest m tk d L htk O _ hO hOlev κ f1 _)
    isplitr; · iexact Hlv
    isplitr; · iexact Hinv
    isplitl [Htoks Htokens]
    · iapply (arrive_lead m d L hs)
      isplitl [Htoks]; · iexact Htoks
      isplitr; · iexact Hreach
      iexact Htokens
    isplitl [Hat]; · iexact Hat
    isplitl [Hcred]; · iexact Hcred
    isplitl [Hblk]; · iapply (Entails.of_eq (blocks_none m tk d L).symm); iexact Hblk
    isplitl [HsI']; · iexact HsI'
    isplitl [HsR']; · iexists _; iexact HsR'
    isplitl [Hs3]; · iexact Hs3
    isplitl [Hs2]; · iexact Hs2
    isplitl [HO]; · iexact HO
    iintro ⟨Hblk, Hsh, HsI, HsR, Hs3, Hs2, %W', %hW', HO⟩
    isplitl [Htok' Hblk Hsh Hemb' Hrest]
    · isplitl [Htok' Hblk]
      · isplitl [Htok']; · iexact Htok'
        iapply (Entails.of_eq (blocks_done m tk d L)); iexact Hblk
      isplitl [Hsh]; · iexact Hsh
      isplitl [Hemb']; · iexact Hemb'
      iexact Hrest
    isplitl [HsI HsR Hbufs]
    · isplitl [HsI]; · iexists _; iexact HsI
      isplitl [HsR]; · iexact HsR
      iexact Hbufs
    isplitl [Hs3 Hs0 Hs1 Hs2 Hsems]
    · isplitl [Hs3]; · iexact Hs3
      isplitl [Hs0]; · iexact Hs0
      isplitl [Hs1]; · iexact Hs1
      isplitl [Hs2]; · iexact Hs2
      iexact Hsems
    iexists W'; isplitr
    swap; · iexact HO
    ipureintro; intro p hp
    rcases hW' p hp with h | h | h
    · rcases Finset.mem_insert.mp h with h | h; · exact .inr (.inl (by rw [h]; rfl))
      rcases Finset.mem_insert.mp h with h | h; · exact .inr (.inl (by rw [h]; rfl))
      exact .inl h
    · exact .inr (.inl h)
    · exact .inr (.inr h)
  · -- the other tiles
    have k0_h1 : ¬ (Scalar.cmpi .ne (Scalar.extui (Scalar.cmpi .eq (BitVec.ofNat 32 (L 1).val) 0#32)) 0#32 = 1#1) := cond_ne (L 1) hs
    rw [if_neg hs, if_neg hs]
    iintro ⟨#Hlv, ⟨⟨%κ, #Hinv⟩, Htoks, #Hreach, Hat, Hcred⟩, ⟨⟨Htok, Hblk⟩, -⟩, ⟨⟨%f1, HsI⟩, ⟨%f2, HsR⟩, Hbufs⟩, ⟨Hs3, Hs0, Hs1, Hs2, Hsems⟩, HO⟩
    ihave Hmw1 := (show levAts (K (F := F)).L (K (F := F)).lev ⊢ Transfers.MayWaits (thrL d L) (default : HIx 1) (O + oxV d (cV L)) from
      (K (F := F)).mayWaits_none (thr := thrL d L) hO') $$ Hlv
    have e1 : (tokLoc d ↦[(tokRowK L).view.set]{fullShare} tk d : sProp 𝕄) = ((tokRowK L).view.loc (thrL d L) ↦[(tokRowK L).view.set]{fullShare} tk d) := rfl
    have e4 : ((thrL d L).loc cc0_scratch0 ↦{fullShare} f1 : sProp 𝕄) = ((sI).view.loc (thrL d L) ↦{fullShare} f1) := rfl
    have e5 : ((thrL d L).loc cc0_scratch1 ↦{fullShare} f2 : sProp 𝕄) = ((sR).view.loc (thrL d L) ↦{fullShare} f2) := rfl
    ihave Htok' := (Entails.of_eq e1) $$ Htok
    ihave HsI' := (Entails.of_eq e4) $$ HsI
    ihave HsR' := (Entails.of_eq e5) $$ HsR
    sl_exec
    iapply (tile_rest m tk d L htk O _ hO hOlev κ f1 _)
    isplitr; · iexact Hlv
    isplitr; · iexact Hinv
    isplitl [Htoks]
    · iapply (arrive_plain m d L hs)
      isplitl [Htoks]; · iexact Htoks
      iexact Hreach
    isplitl [Hat]; · iexact Hat
    isplitl [Hcred]; · iexact Hcred
    isplitl [Hblk]; · iapply (Entails.of_eq (blocks_none m tk d L).symm); iexact Hblk
    isplitl [HsI']; · iexact HsI'
    isplitl [HsR']; · iexists _; iexact HsR'
    isplitl [Hs3]; · iexact Hs3
    isplitl [Hs2]; · iexact Hs2
    isplitl [HO]; · iexact HO
    iintro ⟨Hblk, Hsh, HsI, HsR, Hs3, Hs2, %W', %hW', HO⟩
    isplitl [Htok' Hblk Hsh]
    · isplitl [Htok' Hblk]
      · isplitl [Htok']; · iexact Htok'
        iapply (Entails.of_eq (blocks_done m tk d L)); iexact Hblk
      isplitl [Hsh]; · iexact Hsh
      iempintro
    isplitl [HsI HsR Hbufs]
    · isplitl [HsI]; · iexists _; iexact HsI
      isplitl [HsR]; · iexact HsR
      iexact Hbufs
    isplitl [Hs3 Hs0 Hs1 Hs2 Hsems]
    · isplitl [Hs3]; · iexact Hs3
      isplitl [Hs0]; · iexact Hs0
      isplitl [Hs1]; · iexact Hs1
      isplitl [Hs2]; · iexact Hs2
      iexact Hsems
    iexists W'; isplitr
    swap; · iexact HO
    ipureintro; intro p hp
    rcases hW' p hp with h | h | h
    · rcases Finset.mem_insert.mp h with h | h; · exact .inr (.inl (by rw [h]; rfl))
      exact .inl h
    · exact .inr (.inl h)
    · exact .inr (.inr h)

end Cert.Proof.KI

end
-- ==== Proof.KIObl.lean ====
/-
  The launch theorem's two obligations for the gather kernel: the task of each tile, and how a SparseCore's operands
  split among its sixteen tasks and come back.

  A SparseCore is handed the token rows and result blocks of its sixteen tiles, a read share of the table, and holds
  its own shared memory. Tile 0's task takes the table's share and the shared memory; each task returns a read token of
  the shared memory and tile 0 what it kept: the sixteen tokens and the rest are the full share again.
-/
import proofs.«211305_g76828374991638_cont_9to1_m_1055_18_alg».proof.Proof.KITileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.KernelIdeal.main_v1_scv : Memref Cert.KernelIdeal.sig Kind.scVector Space.hbm Cert.KernelIdeal.S32x20x80 EltTy.i32)
local notation "embV" => (Memref.whole Cert.KernelIdeal.main_arg1_scv : Memref Cert.KernelIdeal.sig Kind.scVector Space.hbm Cert.KernelIdeal.S1000x128 EltTy.f32)
local notation "outV" => (Memref.whole Cert.KernelIdeal.main_v2_scv : Memref Cert.KernelIdeal.sig Kind.scVector Space.hbm Cert.KernelIdeal.S32x20x80x128 EltTy.f32)
local notation "sI" => (Memref.whole Cert.KernelIdeal.cc0_scratch0 : Memref Cert.KernelIdeal.sig Kind.scVector Space.vmem Cert.KernelIdeal.S20x80 EltTy.i32)
local notation "sR" => (Memref.whole Cert.KernelIdeal.cc0_scratch1 : Memref Cert.KernelIdeal.sig Kind.scVector Space.vmem Cert.KernelIdeal.S80x128 EltTy.f32)
local notation "shV" => (Memref.whole Cert.KernelIdeal.cc0_scratch2 : Memref Cert.KernelIdeal.sig Kind.scVector Space.shared Cert.KernelIdeal.S1000x128 EltTy.f32)

variable (m : (ℓ : Loc nD τ sig) → Buf (Elt F) ℓ) (tk : (d : Dev nD) → Buf (Elt F) (tokLoc d))
variable [FloatOps F]

/-! ## The task, as the launch theorem states it -/

theorem defs₀_vector (c : Fin τ.nSC) (s : Fin τ.nSub) :
    defs₀ (F := F) (.scVector c s) 0 ()
      = SparseCore.onTile hcore0 hsub0 (fun c s => cc0_gather (coordsV c s)
          tokV (Memref.isWhole_whole _) embV (Memref.isWhole_whole _) outV (Memref.isWhole_whole _) sI (Memref.isWhole_whole _) sR (Memref.isWhole_whole _) shV (Memref.isWhole_whole _)
          cc0_scratch3 cc0_scoped0 cc0_scoped1 cc0_scoped2) ⟨⟩ c s := rfl

set_option maxRecDepth 16384 in
theorem tileObl (hF : (K (F := F)).Facts) (htk : TokOK tk) : (K (F := F)).TileObl (D (F := F)) 𝒱 (P m tk) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m tk d (coordsV ⟨_, hci.1⟩ ⟨_, hci.2⟩) hF htk O W hO hOlev

/-! ## The split -/

/-- Task 0 of a SparseCore. -/
def task0 : Fin ((K (F := F)).nSub 0) := Fin.cast (nSub_zero (F := F)).symm (0 : Fin 16)

omit [FloatOps F] in
/-- A family that is `A` at task 0 and nothing elsewhere is `A`. -/
theorem lead_eq (A : sProp 𝕄) :
    (bigSep Finset.univ fun i : Fin ((K (F := F)).nSub 0) => if i.val = 0 then A else iprop(emp)) = iprop(A ∗ emp) := by
  have h : (bigSep (Finset.univ.erase (task0 (F := F))) fun i : Fin ((K (F := F)).nSub 0) => if i.val = 0 then A else iprop(emp))
      = bigSep (Finset.univ.erase (task0 (F := F))) fun _ => (iprop(emp) : sProp 𝕄) :=
    bigSep_congr fun i hi => if_neg fun h => (Finset.mem_erase.mp hi).1 (Fin.ext h)
  rw [SparseCore.bigSep_erase' (Finset.mem_univ (task0 (F := F))), if_pos (show (task0 (F := F)).val = 0 from rfl), h]
  exact congrArg (fun X : sProp 𝕄 => iprop(A ∗ X)) (bigSep_emp_const _)

theorem go_eq (d : Dev nD) (c : Fin ((K (F := F)).nCore 0)) :
    (bigSep Finset.univ fun i : Fin ((K (F := F)).nSub 0) => goV m tk d c i)
      = iprop((bigSep Finset.univ fun i : Fin ((K (F := F)).nSub 0) => tileArr tk d (Lof c i) (m (outLoc d))) ∗ (lead₀ m d ((K (F := F)).core 0 c) ∗ emp)) := by
  unfold goV; rw [bigSep_sep', lead_eq]

theorem td_eq (d : Dev nD) (c : Fin ((K (F := F)).nCore 0)) :
    (bigSep Finset.univ fun i : Fin ((K (F := F)).nSub 0) => tdV m tk d c i)
      = iprop((bigSep Finset.univ fun i : Fin ((K (F := F)).nSub 0) => tileArr tk d (Lof c i) (outSpec m tk d))
          ∗ (bigSep Finset.univ fun i : Fin ((K (F := F)).nSub 0) => shLoc d ((K (F := F)).core 0 c) ↦{shTok i.val} embSh m d ((K (F := F)).core 0 c))
          ∗ (lead₁ m d ((K (F := F)).core 0 c) ∗ emp)) := by
  unfold tdV; rw [bigSep_sep', bigSep_sep', lead_eq]

omit [FloatOps F] in
/-- The sequencer's own buffers: its SparseCore's shared memory at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m tk) 0 := by
  intro d c
  show iprop(stV m tk d c ∗ ownBufs (S d ((K (F := F)).core 0 c))) ⊢ |={Set.univ}=> iprop((bigSep Finset.univ fun i => goV m tk d c i)
      ∗ ((bigSep Finset.univ fun i => tdV m tk d c i) -∗ iprop(dnV m tk d c ∗ ownBufs (S d ((K (F := F)).core 0 c)))))
  rw [ownBufs_S, go_eq, td_eq]
  unfold stV dnV lead₀ lead₁
  iintro ⟨⟨Harr, Hemb⟩, ⟨%fs, Hsh⟩, Hrest⟩
  imodintro
  isplitl [Harr Hemb Hsh]
  · isplitl [Harr]; · iexact Harr
    isplitl [Hemb Hsh]
    · isplitl [Hemb]; · iexact Hemb
      iexists fs; iexact Hsh
    iempintro
  iintro ⟨Harr, Htoks, ⟨Hemb, Hshr⟩, -⟩
  isplitl [Harr Hemb]
  · isplitl [Harr]; · iexact Harr
    iexact Hemb
  isplitl [Htoks Hshr]
  · iexists (embSh m d ((K (F := F)).core 0 c))
    iapply (Transfers.pointsTo_toks_join (ℓ := shLoc d ((K (F := F)).core 0 c)) (S := Finset.univ) (f := embSh m d ((K (F := F)).core 0 c)) fullShare 16)
    isplitl [Hshr]; · iexact Hshr
    iexact Htoks
  iexact Hrest

end Cert.Proof.KI

end
-- ==== Proof.KILogitsBody.lean ====
/-
  The TensorCore kernel's body at one grid point.

  The kernel writes the logits position by position: at point t its window is the plane of position t, one block of
  1000 rows of 1024 lanes staged in vector memory. The body fills the whole block with the word of −10⁹ and then stores
  the word of 1 on one row, the row an integer chain picks from t mod 8. Here: the two stores read back as ONE function
  of the block's index, whatever the buffer held before; and the body's run, at a symbolic point on a symbolic staging
  buffer, from the buffer held whole at any contents to the buffer held at that function.
-/
import proofs.«211305_g76828374991638_cont_9to1_m_1055_18_alg».proof.Proof.KICommon

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The block a point leaves in its staging buffer

Point `i` first fills the whole staging block with the word of −10⁹ and then overwrites one row, the row
`k1_off1 i 1`, with the word of 1. Read back, the two stores are one function of the block's index. -/

/-- What point `i` leaves: 1 on the row the point selects, −10⁹ on every other row. -/
def blockT (i : grid1.Coords) : S1x1000x1024.Idx → Elt F .f32 :=
  fun y => if (y 1).val = k1_off1 i 1 then FloatOps.ofBits .f32 0x3F800000#32 else FloatOps.ofBits .f32 0xCE6E6B28#32

/-- The selected row's rectangle is exactly the indices on that row: the other two offsets are zero and the
    rectangle spans the last axis. -/
theorem mem_row (i : grid1.Coords) (y : S1x1000x1024.Idx) :
    y ∈ (Rect.unit (s := S1x1000x1024) (k1_off1 i) S1x1x1024.size (k1_off1_inb i)).set ↔ (y 1).val = k1_off1 i 1 := by
  rw [Rect.mem_set_unit]
  have h0 : k1_off1 i 0 = 0 := by rw [k1_off1_eq]; rfl
  have h2 : k1_off1 i 2 = 0 := by rw [k1_off1_eq]; rfl
  constructor
  · intro h
    have h1 : k1_off1 i 1 ≤ (y 1).val ∧ (y 1).val < k1_off1 i 1 + 1 := h 1
    omega
  · intro h a
    have hy0 : (y 0).val < 1 := (y 0).isLt
    have hy2 : (y 2).val < 1024 := (y 2).isLt
    match a with
    | ⟨0, _⟩ => show k1_off1 i 0 ≤ (y 0).val ∧ (y 0).val < k1_off1 i 0 + 1; omega
    | ⟨1, _⟩ => show k1_off1 i 1 ≤ (y 1).val ∧ (y 1).val < k1_off1 i 1 + 1; omega
    | ⟨2, _⟩ => show k1_off1 i 2 ≤ (y 2).val ∧ (y 2).val < k1_off1 i 2 + 1024; omega

/-- The first store's rectangle is the whole block. -/
theorem mem_all (y : S1x1000x1024.Idx) :
    y ∈ (Rect.unit (s := S1x1000x1024) ![0, 0, 0] S1x1000x1024.size inb_S1x1000x1024_S1x1000x1024_0_0_0).set := by
  rw [Rect.mem_set_unit]
  intro a
  have hy0 : (y 0).val < 1 := (y 0).isLt
  have hy1 : (y 1).val < 1000 := (y 1).isLt
  have hy2 : (y 2).val < 1024 := (y 2).isLt
  match a with
  | ⟨0, _⟩ => show 0 ≤ (y 0).val ∧ (y 0).val < 0 + 1; omega
  | ⟨1, _⟩ => show 0 ≤ (y 1).val ∧ (y 1).val < 0 + 1000; omega
  | ⟨2, _⟩ => show 0 ≤ (y 2).val ∧ (y 2).val < 0 + 1024; omega

/-- The two stores, read back through the staging memref, are `blockT`: whatever the buffer held before. -/
theorem read_writes_block (i : grid1.Coords) {κ : Kind} {sp : Space} {sg : RefSig} (v : View sg κ sp S1x1000x1024 .f32) (f0 : v.ty.Contents (Elt F)) :
    v.read (Elt F) (v.writes (Elt F) f0
      [⟨Rect.unit (s := S1x1000x1024) (k1_off1 i) S1x1x1024.size (k1_off1_inb i), k1_pay2 (F := F)⟩,
       ⟨Rect.unit (s := S1x1000x1024) ![0, 0, 0] S1x1000x1024.size inb_S1x1000x1024_S1x1000x1024_0_0_0, k1_pay1 (F := F)⟩]) = blockT i := by
  funext y
  by_cases hy : y ∈ (Rect.unit (s := S1x1000x1024) (k1_off1 i) S1x1x1024.size (k1_off1_inb i)).set
  · have hrow := (mem_row i y).mp hy
    obtain ⟨x, rfl⟩ : ∃ x, (Rect.unit (s := S1x1000x1024) (k1_off1 i) S1x1x1024.size (k1_off1_inb i)).emb x = y := (Rect.unit (s := S1x1000x1024) (k1_off1 i) S1x1x1024.size (k1_off1_inb i)).exists_idx_of_mem hy
    rw [View.read_writes_cons_emb]
    unfold blockT; rw [if_pos hrow]; rfl
  · have hrow : ¬ (y 1).val = k1_off1 i 1 := fun h => hy ((mem_row i y).mpr h)
    rw [View.writes_cons, View.read_slice_write_of_not_mem _ _ _ _ (by rw [Rect.map_emb_univ]; exact hy)]
    obtain ⟨x, rfl⟩ : ∃ x, (Rect.unit (s := S1x1000x1024) ![0, 0, 0] S1x1000x1024.size inb_S1x1000x1024_S1x1000x1024_0_0_0).emb x = y := (Rect.unit (s := S1x1000x1024) ![0, 0, 0] S1x1000x1024.size inb_S1x1000x1024_S1x1000x1024_0_0_0).exists_idx_of_mem (mem_all y)
    rw [View.read_writes_cons_emb]
    unfold blockT; rw [if_neg hrow]; rfl

/-! ## The body at a symbolic point, on a symbolic staging buffer -/

/-- From the staging buffer held whole at any contents, the body at point `i` runs to its return leaving the buffer at
    `blockT i`. -/
theorem bodyRun (c : Dev nD) (i : grid1.Coords) (M0 : Memref sig .tc .vmem S1x1000x1024 .f32) (h0 : M0.IsWhole)
    (X : S1x1000x1024.Idx → Elt F .f32) (Q : PUnit → sProp 𝕄) :
    iprop(owns (c : Thread nD τ) M0 fullShare X ∗ (owns (c : Thread nD τ) M0 fullShare (blockT (F := F) i) -∗ Q ⟨⟩))
    ⊢ wp frame (wpE (defs₀ (F := F)) 𝒱₀ c none) Set.univ (cc1__logits_body i M0 h0) Q := by
  unfold owns
  rw [h0.set_eq_univ]
  iintro ⟨⟨%f0, -, H0⟩, Hk⟩
  sl_unfold [cc1__logits_body]
  sl_exec
  sl_step
  iapply Hk
  iexists _
  isplitr; swap; · iexact H0
  ipureintro
  exact read_writes_block i M0.view f0

end Cert.Proof.KI

end
-- ==== Proof.KILogitsDat.lean ====
/-
  The TensorCore kernel's region: the pipeline's proof data (what each point leaves in its staging buffer, nothing kept
  between points, nothing owed), the body obligation at every point, and the region's record: what the region is
  entered with (the array whole at any contents, the core owing nothing), what it leaves (the array at what the
  write-backs make of it, the core owing nothing), and the entailments between.
-/
import proofs.«211305_g76828374991638_cont_9to1_m_1055_18_alg».proof.Proof.KILogitsBody
import proofs.«211305_g76828374991638_cont_9to1_m_1055_18_alg».proof.Proof.Gen.KernelIdeal.Launch
import proofs.«211305_g76828374991638_cont_9to1_m_1055_18_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The pipeline's proof data

One window, written back at every point. What a point leaves in its staging buffer is `blockT` at the point's
coordinates; the body keeps nothing between points beyond the scoped buffers no window stages (there are none);
the core owes nothing; the pairs its waits have recorded stay at level 8 or below, the level its handshake state
after the one SparseCore call bounds them by (a staging cell's own wait is recorded at index `none`, level 0). -/

/-- The prefetched tables' admissible contents: no table. -/
abbrev adm : (p : Fin 1) → (pcfgs (F := F) p).Adm := fun p => (cfgs p).toPCfg_adm

/-- The recorded pairs the region may meet and leave: those at level 8 or below. -/
def recB (d : Dev nD) : Set (SemLoc sig × HIx 1) := {p | (K (F := F)).lev ((T d : Thread nD τ), p.1) p.2 ≤ 8}

/-- What the body may use and need not describe: the scoped buffers no window stages. -/
abbrev ΦR (d : Dev nD) : sProp 𝕄 := Pipeline.scopedRest (Ix := HIx 1) (Name := ℕ) (U := UU) (Lvl := ℕ) (Val := Elt F) spec1 d

/-- The proof data on device `d`, from the array's contents `f5 d` at the region's entry. -/
def dats (f5 : (d : Dev nD) → Buf (Elt F) ((T d : Thread nD τ).loc main_v5)) (_ : Fin 1) (d : Dev nD) :
    Dat τ (Elt F) (HIx 1) ℕ UU ℕ cfg1 d where
  A w := match w with | ⟨0, _⟩ => f5 d
  after w t := match w with | ⟨0, _⟩ => blockT (F := F) (grid1.coords t)
  Φ _ := ΦR (F := F) d
  q _ := fullShare
  owed _ := 0
  recorded _ := recB (F := F) d

variable (f5 : (d : Dev nD) → Buf (Elt F) ((T d : Thread nD τ).loc main_v5))

/-- The library's body obligation: the staging buffer taken out, the body's run applied, the post reassembled. -/
theorem body_obligation (d : Dev nD) : BodyObligation (dats f5 0 d) (defs₀ (F := F)) 𝒱₀ (none : HIx 1) Set.univ := fun t => by
  rw [bigSep_W1, bigSep_W1]
  rw [show (dats f5 0 d).Φ t.castSucc = ΦR (F := F) d from rfl, show (dats f5 0 d).Φ t.succ = ΦR (F := F) d from rfl]
  iintro ⟨HΦ, HO, ⟨%d0, H0⟩⟩
  iapply (bodyRun (F := F) d (grid1.coords t) (win1_0.stage (cfg1.slots t 0)) (hstage1_0 ((cfg1.slots t 0).cast nbuf1_0)) _ _)
  isplitl [H0]; · iexact H0
  iintro H0
  isplitl [HΦ]; · iexact HΦ
  isplitl [HO]; · iexact HO
  iexact H0

/-! ## The region -/

/-- What the region is entered with and left with beside the array: the core owing nothing, its recorded pairs at
    level 8 or below. -/
abbrev owes8 (d : Dev nD) : sProp 𝕄 :=
  iprop(∃ W, ⌜(K (F := F)).WBelow (T d) W (8 * 1)⌝ ∗ owes (T d : Thread nD τ) (0 : CellTallies nD τ sig (HIx 1)) W)

/-- The array after the run, as the library computes it. -/
def finalA (d : Dev nD) : Buf (Elt F) ((T d : Thread nD τ).loc main_v5) := (dats f5 0 d).arrAt 0 cfg1.N

set_option backward.isDefEq.respectTransparency.types false in
/-- THE REGION: the launch kit's layout, no semaphore of the kernel's own, the body obligation; entered with the array
    at `f5` and the core owing nothing, left with the array at its final contents and the core owing nothing. -/
def reg : Pipeline.RegionSeg (pcfgs (F := F)) adm (dats f5) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation f5 c).loose
  hwaits := Pipeline.hwaits_of_owed_zero _ _ _ _ (K (F := F)).L (K (F := F)).lev 0 fun _ _ => rfl
  pre c := iprop(((T c : Thread nD τ).loc main_v5 ↦{fullShare} f5 c) ∗ owes8 (F := F) c)
  post c := iprop(((T c : Thread nD τ).loc main_v5 ↦{fullShare} finalA f5 c) ∗ owes8 (F := F) c)
  X _ := iprop(emp)
  Y _ := iprop(emp)
  Z _ := iprop(emp)
  hentry c := by
    rw [Pipeline.arrays_eq (Pipeline.pin (pcfgs (F := F)) adm) (dats f5) 0 c launch1.arr_whole ((dats f5 0 c).share_full fun _ => rfl), bigSep_W1]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats f5 0 c).Φ 0 = ΦR (F := F) c from rfl]
    iintro ⟨-, -, Hr⟩
    iexact Hr
  hout c := by
    rw [Pipeline.ownSems0_none, show (dats f5 0 c).Φ (Fin.last cfg1.N) = ΦR (F := F) c from rfl]
    iintro Hr
    isplitr; · iempintro
    isplitr; · iempintro
    iexact Hr
  hexit c := by
    rw [Pipeline.arrays_eq (Pipeline.pin (pcfgs (F := F)) adm) (dats f5) 0 c launch1.arr_whole ((dats f5 0 c).share_full fun _ => rfl), bigSep_W1]
    iintro ⟨Ha, HO, -, -⟩
    imodintro
    isplitl [Ha]; · iexact Ha
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Cert.Proof.KI

end
-- ==== Proof.KILogitsValue.lean ====
/-
  The array the TensorCore kernel's region leaves: the programmed logits in the kernel's own layout (position, row,
  batch lane), read off the fifty write-backs.
-/
import proofs.«211305_g76828374991638_cont_9to1_m_1055_18_alg».proof.Proof.KILogitsDat
import Idealize.ShloMosaic.Lib.Pipeline.Value

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The array after the region

Point `t` writes back block `t` of the array: the plane `i 0 = t`. The block it leaves is 1 on the row the point
selects and −10⁹ elsewhere, and the row point `t` selects is the programmed target of `t`; the fifty planes cover
the array. -/

/-- The programmed logits as the TensorCore kernel lays them out: entry (t, v, b) is 1 where `v` is the target of
    position `t`, −10⁹ elsewhere. -/
def logitsT (d : Dev nD) : Buf (Elt F) ((T d : Thread nD τ).loc main_v5) :=
  fun (i : S50x1000x1024.Idx) => if (i 1).val = Cert.Spec.target (i 0).val then FloatOps.ofBits .f32 0x3F800000#32 else FloatOps.ofBits .f32 0xCE6E6B28#32

/-- The row a point selects is the programmed target of the point: decided over the fifty points. -/
theorem row_eq_target : ∀ t : Fin cfg1.N, k1_off1 (grid1.coords t) 1 = Cert.Spec.target t.val :=
  (by decide +kernel : ∀ t : Fin grid1.N, k1_off1 (grid1.coords t) 1 = Cert.Spec.target t.val)

/-- The window's block index at point `t` is `(t, 0, 0)`: decided over the grid. -/
theorem idx_facts : ∀ t : Fin cfg1.N, win1_0.index t (0 : Fin 3) = t.val ∧ win1_0.index t (1 : Fin 3) = 0 ∧ win1_0.index t (2 : Fin 3) = 0 :=
  (by decide +kernel : ∀ t : Fin grid1.N, _)

variable (f5 : (d : Dev nD) → Buf (Elt F) ((T d : Thread nD τ).loc main_v5))

/-- What point `t` writes back is block `t` of the programmed logits. -/
theorem flushed_eq (d : Dev nD) (t : Fin cfg1.N) :
    (dats f5 0 d).flushed 0 t = ((cfg1.win 0).blk t).view.read (Elt F) (logitsT (F := F) d) := by
  show (cfg1.win 0).cut (grid1.coords t) ((dats f5 0 d).after 0 t) = _
  obtain ⟨e0, e1, e2⟩ := idx_facts t
  funext y
  show blockT (F := F) (grid1.coords t) y = logitsT (F := F) d (((cfg1.win 0).blk t).view.emb y)
  have hy0 : (y 0).val < 1 := (y 0).isLt
  have h0 : ((((cfg1.win 0).blk t).view.emb y) 0).val = t.val := by
    show win1_0.index t (0 : Fin 3) * 1 + 1 * (y 0).val = t.val; omega
  have h1 : ((((cfg1.win 0).blk t).view.emb y) 1).val = (y 1).val := by
    show win1_0.index t (1 : Fin 3) * 1000 + 1 * (y 1).val = (y 1).val; omega
  unfold blockT logitsT
  exact if_congr (by rw [h0, h1, row_eq_target t]) rfl rfl

/-- An index of the array is in point `t`'s block iff each coordinate is in the block's range on its axis. -/
theorem mem_blk (t : Fin cfg1.N) (i : S50x1000x1024.Idx) :
    i ∈ ((cfg1.win 0).blk t).view.set ↔ ∀ a : Fin 3, win1_0.index t a * S1x1000x1024.size a ≤ (i a).val ∧ (i a).val < win1_0.index t a * S1x1000x1024.size a + S1x1000x1024.size a := by
  show i ∈ ((View.whole main_v5).slice (win1_0.rect t)).set ↔ _
  rw [View.set_slice_whole, Rect.mem_set_unit]
  exact Iff.rfl

/-- Every index of the array is in the block of the point its first coordinate names. -/
theorem cover (i : S50x1000x1024.Idx) : ∃ t : Fin cfg1.N, (cfg1.win 0).flush t = true ∧ i ∈ ((cfg1.win 0).blk t).view.set := by
  have hi0 : (i 0).val < 50 := (i 0).isLt
  have hi1 : (i 1).val < 1000 := (i 1).isLt
  have hi2 : (i 2).val < 1024 := (i 2).isLt
  have hN : (i 0).val < cfg1.N := by rw [show cfg1.N = 50 from N_1]; exact hi0
  refine ⟨⟨(i 0).val, hN⟩, flush1_0 _, ?_⟩
  obtain ⟨e0, e1, e2⟩ := idx_facts ⟨(i 0).val, hN⟩
  rw [mem_blk]
  intro a
  match a with
  | ⟨0, _⟩ => show win1_0.index ⟨(i 0).val, hN⟩ (0 : Fin 3) * 1 ≤ (i 0).val ∧ (i 0).val < win1_0.index ⟨(i 0).val, hN⟩ (0 : Fin 3) * 1 + 1; rw [e0]; show (i 0).val * 1 ≤ (i 0).val ∧ (i 0).val < (i 0).val * 1 + 1; omega
  | ⟨1, _⟩ => show win1_0.index ⟨(i 0).val, hN⟩ (1 : Fin 3) * 1000 ≤ (i 1).val ∧ (i 1).val < win1_0.index ⟨(i 0).val, hN⟩ (1 : Fin 3) * 1000 + 1000; omega
  | ⟨2, _⟩ => show win1_0.index ⟨(i 0).val, hN⟩ (2 : Fin 3) * 1024 ≤ (i 2).val ∧ (i 2).val < win1_0.index ⟨(i 0).val, hN⟩ (2 : Fin 3) * 1024 + 1024; omega

/-- THE ARRAY after the region: the programmed logits, whatever it held at the entry. -/
theorem finalA_eq (d : Dev nD) : finalA f5 d = logitsT (F := F) d :=
  (dats f5 0 d).arrAt_eq_of_cover 0 (logitsT (F := F) d) (fun t _ => flushed_eq f5 d t) cover

end Cert.Proof.KI

end
-- ==== Proof.KILogits.lean ====
/-
  The TensorCore kernel's region as @main runs it after the SparseCore call: the staging cells' share of the launch's
  ghost state, and the custom call's rule under the launch's table — from the TensorCore's handshake state after the
  call, the region boundary and the array whole at any contents, to the same state, the boundary, and the array at the
  programmed logits.
-/
import proofs.«211305_g76828374991638_cont_9to1_m_1055_18_alg».proof.Proof.KILogitsValue

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The launch's ghost state for the staging cells, and the region under the program's own table -/

/-- The staging cells' launch element: the rounds library's at the two staging cells and the pipeline's transfers. -/
def uP₀ : UP := initOf (Pipeline.cells (nD := nD) (τ := τ) cfgs cellOf_inj) (Pipeline.launchToks (nD := nD) (τ := τ) cfgs cellOf_inj)

/-- What the region needs of the launch's ghost state on device `d`: the staging cells' ghost state and the duty tokens
    of the pipeline's transfers. -/
def GT (d : Dev nD) : sProp 𝕄 :=
  iprop(Pipeline.cellsGhost cfgs (EP (F := F)) 0 d ∗ Pipeline.toksInit cfgs (EP (F := F)) 0 d)

/-- The launch element funds every device's share. -/
theorem fundT : (BI.own (EP (F := F) uP₀) : sProp 𝕄) ⊢ |==> bigSep Finset.univ fun d : Dev nD => GT (F := F) d := by
  have h := Pipeline.fund_ghost (nD := nD) (τ := τ) cfgs (EP (F := F)) cellOf_inj
  unfold GT uP₀
  simp only [bigSep_W1] at h ⊢
  exact h

variable (f5 : (d : Dev nD) → Buf (Elt F) ((T d : Thread nD τ).loc main_v5))

set_option backward.isDefEq.respectTransparency.types false in
/-- THE REGION in @main, under the launch's table, the array's entry contents given on every device: from the persistent
    context (whose level facts the region's waits consult), the TensorCore's handshake state after the one SparseCore
    call (it owes nothing then), the staging cells' ghost state, the region boundary and the array whole at any
    contents, the custom call runs and hands the continuation the same handshake state, the boundary, and the array at
    the programmed logits. The region is entered under the program's own table (the pipeline library's region rule)
    and lifted to the launch's table, in which the custom call of the inner label is that label's lift. -/
theorem wp_logits_call_fam (P : (K (F := F)).Pay (nD := nD) (Val := Elt F) (Name := ℕ) (U := UU)) (κ : GSem nD τ sig → ℕ) (d : Dev nD)
    (Φ : PUnit → sProp 𝕄) :
    iprop((K (F := F)).ctx EH P κ ∗ (K (F := F)).tcSt EH d 1 ∗ GT (F := F) d ∗ boundary (T d : Thread nD τ) ∗ ((T d : Thread nD τ).loc main_v5 ↦{fullShare} f5 d))
      ⊢ iprop((iprop((K (F := F)).tcSt EH d 1 ∗ boundary (T d : Thread nD τ) ∗ ((T d : Thread nD τ).loc main_v5 ↦{fullShare} logitsT (F := F) d)) -∗ Φ ⟨⟩)
          -∗ wp frame (wpE ((K (F := F)).defs (D (F := F))) 𝒱 (T d) none) Set.univ (Prog.lift (.customCall (SparseCore.inner (Pipeline.entry 0)) ())) Φ) := by
  rw [← finalA_eq f5 d]
  unfold GT SparseCore.Cfg.tcSt
  rw [(K (F := F)).Otc_end d (le_refl 1)]
  iintro ⟨#Hctx, ⟨⟨%W, %hW, HO⟩, Hpos, Hreach, Hstarts, Hcalls⟩, ⟨Hg, Ht⟩, Hb, H5⟩ Hk
  ihave Hlev := (SparseCore.Cfg.ctx_levAts (K := K (F := F)) (EH := EH) (P := P) κ) $$ Hctx
  iapply ((K (F := F)).wp_liftProg (D (F := F)) 𝒱 (T d) Set.univ none (.op (.customCall (Pipeline.entry 0) ()) .ret) _)
  iapply (Pipeline.RegionSeg.wp (pcfgs (F := F)) adm (dats f5) (none : HIx 1) cellOf_inj (EP (F := F)) defs₀ 𝒱₀ (K (F := F)).L (K (F := F)).lev (reg f5) d none (fun u hu => nomatch hu) .ret _)
  rw [show (reg f5).post d = iprop(((T d : Thread nD τ).loc main_v5 ↦{fullShare} finalA f5 d) ∗ owes8 (F := F) d) from rfl,
    show (reg f5).pre d = iprop(((T d : Thread nD τ).loc main_v5 ↦{fullShare} f5 d) ∗ owes8 (F := F) d) from rfl]
  isplitl [Hk Hpos Hreach Hstarts Hcalls]
  · iintro ⟨Hb, H5, HO⟩
    rw [wp_ret]; imodintro
    iapply Hk
    isplitl [HO Hpos Hreach Hstarts Hcalls]
    · isplitl [HO]; · iexact HO
      isplitl [Hpos]; · iexact Hpos
      isplitl [Hreach]; · iexact Hreach
      isplitl [Hstarts]; · iexact Hstarts
      iexact Hcalls
    isplitl [Hb]; · iexact Hb
    iexact H5
  isplitl [Hb]; · iexact Hb
  isplitl [H5 HO]
  · isplitl [H5]; · iexact H5
    iexists W; isplitr; · ipureintro; exact hW
    iexact HO
  isplitr; · iexact Hlev
  isplitl [Hg]; · iexact Hg
  iexact Ht

/-- The same with the rest of @main as a continuation `k`. -/
theorem wp_logits_fam (P : (K (F := F)).Pay (nD := nD) (Val := Elt F) (Name := ℕ) (U := UU)) (κ : GSem nD τ sig → ℕ) (d : Dev nD)
    {α : Type} (k : PUnit → Prog (TpuEff nD τ sig (Elt F) (SparseCore.Sig (ΛP (F := F)) 1) .tc) α) (Q : α → sProp 𝕄) :
    iprop((K (F := F)).ctx EH P κ ∗ (K (F := F)).tcSt EH d 1 ∗ GT (F := F) d ∗ boundary (T d : Thread nD τ) ∗ ((T d : Thread nD τ).loc main_v5 ↦{fullShare} f5 d))
      ⊢ iprop((iprop((K (F := F)).tcSt EH d 1 ∗ boundary (T d : Thread nD τ) ∗ ((T d : Thread nD τ).loc main_v5 ↦{fullShare} logitsT (F := F) d))
              -∗ wp frame (wpE ((K (F := F)).defs (D (F := F))) 𝒱 (T d) none) Set.univ (k ⟨⟩) Q)
          -∗ wp frame (wpE ((K (F := F)).defs (D (F := F))) 𝒱 (T d) none) Set.univ (Prog.lift (.customCall (SparseCore.inner (Pipeline.entry 0)) ()) >>= k) Q) := by
  rw [wp_bind]
  exact wp_logits_call_fam f5 P κ d fun a => wp frame (wpE ((K (F := F)).defs (D (F := F))) 𝒱 (T d) none) Set.univ (k a) Q

/-! ## The one-device form -/

omit [FloatOps F] in
/-- There is one device: contents given at `d` are contents given everywhere. -/
def famOf (d : Dev nD) (f : Buf (Elt F) ((T d : Thread nD τ).loc main_v5)) : (c : Dev nD) → Buf (Elt F) ((T c : Thread nD τ).loc main_v5) :=
  fun c => (Subsingleton.elim d c : d = c) ▸ f

omit [FloatOps F] in
theorem famOf_self (d : Dev nD) (f : Buf (Elt F) ((T d : Thread nD τ).loc main_v5)) : famOf d f d = f := rfl

/-- The call alone, the array's entry contents given on the one device `d`. -/
theorem wp_logits_call (P : (K (F := F)).Pay (nD := nD) (Val := Elt F) (Name := ℕ) (U := UU)) (κ : GSem nD τ sig → ℕ) (d : Dev nD)
    (f5 : Buf (Elt F) ((T d : Thread nD τ).loc main_v5)) (Φ : PUnit → sProp 𝕄) :
    iprop((K (F := F)).ctx EH P κ ∗ (K (F := F)).tcSt EH d 1 ∗ GT (F := F) d ∗ boundary (T d : Thread nD τ) ∗ ((T d : Thread nD τ).loc main_v5 ↦{fullShare} f5))
      ⊢ iprop((iprop((K (F := F)).tcSt EH d 1 ∗ boundary (T d : Thread nD τ) ∗ ((T d : Thread nD τ).loc main_v5 ↦{fullShare} logitsT (F := F) d)) -∗ Φ ⟨⟩)
          -∗ wp frame (wpE ((K (F := F)).defs (D (F := F))) 𝒱 (T d) none) Set.univ (Prog.lift (.customCall (SparseCore.inner (Pipeline.entry 0)) ())) Φ) := by
  have h := wp_logits_call_fam (famOf d f5) P κ d Φ
  rw [famOf_self] at h
  exact h

/-- `wp_logits_fam` with the array's entry contents given on the one device `d`. -/
theorem wp_logits (P : (K (F := F)).Pay (nD := nD) (Val := Elt F) (Name := ℕ) (U := UU)) (κ : GSem nD τ sig → ℕ) (d : Dev nD)
    (f5 : Buf (Elt F) ((T d : Thread nD τ).loc main_v5))
    {α : Type} (k : PUnit → Prog (TpuEff nD τ sig (Elt F) (SparseCore.Sig (ΛP (F := F)) 1) .tc) α) (Q : α → sProp 𝕄) :
    iprop((K (F := F)).ctx EH P κ ∗ (K (F := F)).tcSt EH d 1 ∗ GT (F := F) d ∗ boundary (T d : Thread nD τ) ∗ ((T d : Thread nD τ).loc main_v5 ↦{fullShare} f5))
      ⊢ iprop((iprop((K (F := F)).tcSt EH d 1 ∗ boundary (T d : Thread nD τ) ∗ ((T d : Thread nD τ).loc main_v5 ↦{fullShare} logitsT (F := F) d))
              -∗ wp frame (wpE ((K (F := F)).defs (D (F := F))) 𝒱 (T d) none) Set.univ (k ⟨⟩) Q)
          -∗ wp frame (wpE ((K (F := F)).defs (D (F := F))) 𝒱 (T d) none) Set.univ (Prog.lift (.customCall (SparseCore.inner (Pipeline.entry 0)) ()) >>= k) Q) := by
  have h := wp_logits_fam (famOf d f5) P κ d k Q
  rw [famOf_self] at h
  exact h

end Cert.Proof.KI

end
-- ==== Proof.KILaunch.lean ====
/-
  The launch element of the ghost state, and what the launch hands each proof.

  Three rounds libraries start here: the launch handshakes' (the launch theorem's own), the barrier cells' — one cell per
  tile, one token per pair of tiles of a SparseCore —, and the TensorCore kernel's staging cells'. From the barrier
  library's launch element, the free semaphores at zero and the credit for the arrivals every tile owes, each tile is
  dealt its kit: every cell's invariant of its SparseCore, its sixteen duty tokens, its own position, and the credit
  for the sixteen units of its own round (the sixteen tiles each owe one unit on it).
-/
import proofs.«211305_g76828374991638_cont_9to1_m_1055_18_alg».proof.Proof.KIObl
import proofs.«211305_g76828374991638_cont_9to1_m_1055_18_alg».proof.Proof.KILogits

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (tk : (d : Dev nD) → Buf (Elt F) (tokLoc d))
variable [FloatOps F]

/-! ## The barrier cells and their tokens -/

abbrev DCI : Type := Dev nD × Fin τ.nSC × Fin τ.nSub
abbrev bcell₃ (x : DCI) : GSem nD τ sig := bcell x.1 x.2.1 x.2.2

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)

def u₀ : UU := (initOf (K (F := F)).hsCells (K (F := F)).hsToks, (initOf bCells bToks, (uP₀, (1 : Counters))))

omit [FloatOps F] in
/-- The launch element splits into the three libraries' elements. -/
theorem ownU_split (a : UH) (b : UB) (p : UP) :
    (ownU ((a, (b, (p, (1 : Counters)))) : UU) : sProp 𝕄) ⊢ iprop(BI.own (EH a) ∗ BI.own (EB b) ∗ BI.own (EP p)) := by
  refine (ownU_pair a (b, (p, (1 : Counters)))).trans (sep_mono .rfl ?_)
  refine (own_pair_emb (embR : Emb (UB × (UP × Counters)) (MT nD τ sig (HIx 1) (Elt F) ℕ UU ℕ)) b (p, (1 : Counters))).trans (sep_mono .rfl ?_)
  exact (own_pair_emb ((Emb.inr : Emb (UP × Counters) (UB × (UP × Counters))).trans (embR : Emb (UB × (UP × Counters)) (MT nD τ sig (HIx 1) (Elt F) ℕ UU ℕ)))
    p (1 : Counters)).trans sep_elim_left

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeSems0 : sProp 𝕄) ⊢ bigSep bCells fun g => semVal g 0 := by
  rw [bCells_eq]
  unfold SparseCore.Cfg.freeSems0
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_of_isEmpty, tallyAt_zero]
  | n + 1 => by rw [Fin.sum_univ_castSucc, sum_tallyAt_one g ι n, tallyAt_add]

/-- The credit for the tiles' arrivals, regrouped: each tile the sixteen units of its own cell. -/
theorem creds_b : ((P (F := F) m tk).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m tk).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m tk).oxFrom 0 (V d c i) = oxV d c := fun i => by
    rw [show (0 : ℕ) = (0 : Fin 1).val from rfl, (P m tk).oxFrom_step, (P m tk).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

/-! ## Each tile its kit -/

theorem Px_T (d : Dev nD) : (bigSep Finset.univ fun q : Fin 1 => (P (F := F) m tk).x q (SparseCore.T d)) = iprop(emp) :=
  bigSep_univ_of_subsingleton (0 : Fin 1)
theorem Px_S (d : Dev nD) (c : Fin τ.nSC) : (bigSep Finset.univ fun q : Fin 1 => (P (F := F) m tk).x q (S d c)) = iprop(emp) :=
  bigSep_univ_of_subsingleton (0 : Fin 1)
theorem Px_V (d : Dev nD) (c : Fin τ.nSC) (i : Fin τ.nSub) :
    (bigSep Finset.univ fun q : Fin 1 => (P (F := F) m tk).x q (V d c i)) = bkit m d c i :=
  bigSep_univ_of_subsingleton (0 : Fin 1)

omit [FloatOps F] in
theorem bigSep_emp' {I : Type} (s : Finset I) : (bigSep s fun _ => iprop(emp)) = (iprop(emp) : sProp 𝕄) := bigSep_emp_const s

/-- What every tile is handed alike (persistent): every barrier cell's invariant, and that each has reached its round. -/
abbrev common (κ : GSem nD τ sig → ℕ) : sProp 𝕄 :=
  iprop((bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev own₁ (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (κ : GSem nD τ sig → ℕ) (dci : DCI) : iprop(common (F := F) m κ ∗ own₁ dci) ⊢ (bkit (F := F) m dci.1 dci.2.1 dci.2.2 : sProp 𝕄) := by
  obtain ⟨d, c, i⟩ := dci
  unfold bkit
  iintro ⟨⟨#Hinv, #Hr⟩, Hat, Htok, Hcred⟩
  isplitr
  · iexists κ
    iapply (bigSep_intro_persistent (S := (Finset.univ : Finset (Fin (grid0.bound 1)))) fun j _ =>
      (bigSep_elim (Φ := fun x : DCI => (cellInv EB (bRd (F := F) m) (κ (bcell₃ x)) (bcell₃ x) : sProp 𝕄)) (i := (d, c, Fin.castLE hsub0 j)) (Finset.mem_univ _)))
    iexact Hinv
  isplitl [Htok]; · iexact Htok
  isplitr
  · iapply (bigSep_intro_persistent (S := (Finset.univ : Finset (Fin (grid0.bound 1)))) fun j _ =>
      (bigSep_elim (Φ := fun x : DCI => (reached EB (bcell₃ x) 0 : sProp 𝕄)) (i := (d, c, Fin.castLE hsub0 j)) (Finset.mem_univ _)))
    iexact Hr
  isplitl [Hat]; · iexact Hat
  iexact Hcred

/-- Each tile its kit. -/
theorem kits_deal (κ : GSem nD τ sig → ℕ) :
    iprop(common (F := F) m κ ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m tk).x q thr : sProp 𝕄) := by
  rw [SparseCore.Cfg.bigSep_threads (fun thr : Thread nD τ => bigSep Finset.univ fun q : Fin 1 => (P m tk).x q thr)]
  simp only [Px_T, Px_S, Px_V, bigSep_emp']
  iintro ⟨#Hsh, Hat, Htok, Hcred⟩
  isplitr; · iempintro
  isplitr; · iempintro
  iapply (bigSep_with_persistent (R := common (F := F) m κ) (Φ := own₁ (F := F)) fun dci _ => kit_intro (F := F) m κ dci)
  isplitr; · iexact Hsh
  unfold own₁
  rw [bigSep_sep', bigSep_sep']
  isplitl [Hat]; · iexact Hat
  isplitl [Htok]; · iexact Htok
  iexact Hcred

/-- The barrier library's launch element, respelt per tile: the cells' round states, that each has reached its round,
    the tiles' positions and tokens. -/
theorem fund_b : (BI.own (EB (initOf bCells bToks)) : sProp 𝕄)
    ⊢ |==> iprop((bigSep bCells fun g => roundState EB (bRd (F := F) m) g 0)
        ∗ (bigSep Finset.univ fun x : DCI => reached EB (bcell₃ x) 0)
        ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)) := by
  refine (Rounds.fund EB (bRd (F := F) m) bCells bToks).trans (BI.bupd_mono ?_)
  rw [bCells_eq (F := F) (fun g => reached EB g 0), bCells_eq (F := F) (fun g => atPos EB g 0 ∅ 0), toks_eq]
  exact BI.Entails.refl _

/-- The barrier cells' invariants, allocated at once, respelt per tile. -/
theorem invs_b' : iprop((bigSep bCells fun g => (semVal g 0 : sProp 𝕄)) ∗ bigSep bCells fun g => roundState EB (bRd (F := F) m) g 0)
    ⊢ |={Set.univ}=> iprop(∃ κ : GSem nD τ sig → ℕ, bigSep Finset.univ fun x : DCI => cellInv EB (bRd (F := F) m) (κ (bcell₃ x)) (bcell₃ x)) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ
  iapply (Entails.of_eq (bCells_eq (F := F) fun g => cellInv EB (bRd (F := F) m) (κ g) g).symm)
  iexact Hinv

/-- Each tile its kit, under whatever names the invariants were allocated. -/
theorem deal_all :
    iprop(((∃ κ : GSem nD τ sig → ℕ, bigSep Finset.univ fun x : DCI => cellInv EB (bRd (F := F) m) (κ (bcell₃ x)) (bcell₃ x))
          ∗ bigSep Finset.univ fun x : DCI => reached EB (bcell₃ x) 0)
        ∗ ((bigSep Finset.univ fun x : DCI => atPos EB (bcell₃ x) 0 ∅ 0)
          ∗ (bigSep Finset.univ fun dci : DCI => bigSep Finset.univ fun j : Fin (grid0.bound 1) => dutyTok EB (bcell dci.1 dci.2.1 (j.castLE hsub0)) 0 dci.2.2.val)
          ∗ (bigSep Finset.univ fun dci : DCI => cred (tallyAt (bcell₃ dci) (some 0) (grid0.bound 1)))))
      ⊢ (bigSep Finset.univ fun thr : Thread nD τ => bigSep Finset.univ fun q : Fin 1 => (P (F := F) m tk).x q thr : sProp 𝕄) := by
  iintro ⟨⟨⟨%κ, Hinv⟩, Hr⟩, Hat, Htok, Hcred⟩
  iapply (kits_deal m tk κ)
  isplitl [Hinv Hr]
  · isplitl [Hinv]; · iexact Hinv
    iexact Hr
  isplitl [Hat]; · iexact Hat
  isplitl [Htok]; · iexact Htok
  iexact Hcred

omit [FloatOps F] in
/-- The launch element composed, over propositions: the element splits three ways; the barrier library's part funds the
    cells' states `S`, that each has reached its round (`R`), positions `A` and tokens `Tk`; the TensorCore kernel's part
    funds `Gs`; the free semaphores give the cells' counters `Sm`, which with `S` allocate the invariants; the credit
    regroups; and all of it deals every thread's start `X`. -/
theorem launch_elem3 {U HH HA HPp S R A Tk Fr Sm Cr Cd Gs X : sProp 𝕄} {ι : Type} {Inv : ι → sProp 𝕄}
    [BI.Persistent R] [∀ κ, BI.Persistent (Inv κ)]
    (split : U ⊢ iprop(HH ∗ HA ∗ HPp)) (fund : HA ⊢ |==> iprop(S ∗ R ∗ A ∗ Tk)) (fundP : HPp ⊢ |==> Gs) (sems : Fr ⊢ Sm)
    (invs : iprop(Sm ∗ S) ⊢ |={Set.univ}=> iprop(∃ κ, Inv κ)) (creds : Cr ⊢ Cd)
    (deal : iprop(((∃ κ, Inv κ) ∗ R) ∗ (A ∗ Tk ∗ Cd)) ⊢ X) :
    iprop(U ∗ Cr ∗ Fr) ⊢ |={Set.univ}=> iprop(HH ∗ Gs ∗ X) := by
  iintro ⟨Hu, Hcred, Hfree⟩
  ihave H := split $$ Hu
  icases H with ⟨HH, HA, HP⟩
  imod fund $$ HA with ⟨Hst, #Hr, Hat, Htok⟩
  imod fundP $$ HP with HG
  ihave Hsems := sems $$ Hfree
  imod invs $$ [Hsems Hst] with ⟨%κ, #Hinv⟩
  · isplitl [Hsems] <;> iassumption
  ihave Hcred' := creds $$ Hcred
  imodintro
  isplitl [HH]; · iexact HH
  isplitl [HG]; · iexact HG
  iapply deal
  isplitr
  · isplitl; · iexists κ; iexact Hinv
    iexact Hr
  isplitl [Hat]; · iexact Hat
  isplitl [Htok]; · iexact Htok
  iexact Hcred'

/-- The launch element: the handshakes' rounds to the launch theorem, the TensorCore kernel's cells to @main's proof, and
    each tile its barrier kit. -/
theorem hu₀ : iprop(ownU (u₀ (F := F)) ∗ (P (F := F) m tk).oxCred ∗ (K (F := F)).freeSems0)
    ⊢ |={Set.univ}=> iprop(BI.own (EH (initOf (K (F := F)).hsCells (K (F := F)).hsToks)) ∗ (bigSep Finset.univ fun d : Dev nD => GT (F := F) d)
        ∗ (bigSep Finset.univ fun thr : Thread nD τ => bigSep Finset.univ fun q : Fin 1 => (P m tk).x q thr) : sProp 𝕄) :=
  launch_elem3 (ownU_split _ _ _) (fund_b m) (fundT (F := F)) (sems_b (F := F)) (invs_b' m) (creds_b m tk) (deal_all m tk)

end Cert.Proof.KI

end
-- ==== Proof.KISplitArr.lean ====
/-
  The re-laid tokens and the call's result, cut into the tiles' pieces.

  The token rows of the 32 tiles — the indices whose first coordinate is the tile's row 2 s + c — partition the index
  set of the re-laid tokens, (c, s) ranging over the two SparseCores and their sixteen tiles; the result blocks — first
  coordinate the tile's row, second the chunk — partition the result's, (c, s, k) ranging over tiles and the twenty
  chunks. So a whole array held at any contents is the separating conjunction of its pieces held at the same contents.
-/
import proofs.«211305_g76828374991638_cont_9to1_m_1055_18_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The row of the tile with task number i on SparseCore c: 2 i + c. -/
theorem rowL_Lof (c : Fin ((K (F := F)).nCore 0)) (i : Fin ((K (F := F)).nSub 0)) :
    rowL (Lof (F := F) c i) = 2 * i.val + c.val := rfl

/-- Two different tiles' token rows share no element: the row determines the tile. -/
theorem tok_disj (p p' : Fin ((K (F := F)).nCore 0) × Fin ((K (F := F)).nSub 0)) (h : p ≠ p') :
    Disjoint (tokRowK (Lof (F := F) p.1 p.2)).view.set (tokRowK (Lof (F := F) p'.1 p'.2)).view.set := by
  refine Finset.disjoint_left.mpr fun j hj hj' => h ?_
  rw [mem_tokSet, rowL_Lof] at hj hj'
  have c2 : p.1.val < 2 := p.1.isLt
  have c2' : p'.1.val < 2 := p'.1.isLt
  exact Prod.ext (Fin.ext (by omega)) (Fin.ext (by omega))

/-- The token rows cover the re-laid tokens: row w belongs to tile (w mod 2, w div 2). -/
theorem tok_cover (d : Dev nD) :
    (Finset.univ : Finset (Fin ((K (F := F)).nCore 0) × Fin ((K (F := F)).nSub 0))).biUnion
        (fun p => (tokRowK (Lof (F := F) p.1 p.2)).view.set)
      = (Finset.univ : Finset (Idx (tokLoc d))) := by
  refine Finset.eq_univ_iff_forall.mpr fun j => ?_
  have b0 : (j 0).val < 32 := (j 0).isLt
  refine Finset.mem_biUnion.mpr ⟨(⟨(j 0).val % 2, Nat.mod_lt _ (by decide)⟩, ⟨(j 0).val / 2, by show (j 0).val / 2 < 16; omega⟩), Finset.mem_univ _, ?_⟩
  rw [mem_tokSet, rowL_Lof]
  show (j 0).val = 2 * ((j 0).val / 2) + (j 0).val % 2
  omega

/-- The re-laid tokens whole are the thirty-two token rows. -/
theorem tok_split (d : Dev nD) (f : Buf (Elt F) (tokLoc d)) :
    (tokLoc d ↦{fullShare} f : sProp 𝕄)
      = bigSep Finset.univ fun c : Fin ((K (F := F)).nCore 0) => bigSep Finset.univ fun i : Fin ((K (F := F)).nSub 0) =>
          tokLoc d ↦[(tokRowK (Lof (F := F) c i)).view.set]{fullShare} f := by
  have h1 : (tokLoc d ↦[(Finset.univ : Finset (Fin ((K (F := F)).nCore 0) × Fin ((K (F := F)).nSub 0))).biUnion
        (fun p => (tokRowK (Lof (F := F) p.1 p.2)).view.set)]{fullShare} f : sProp 𝕄) = _ :=
    pointsTo_biUnion _ _ fun p _ p' _ h => tok_disj p p' h
  rw [tok_cover d, bigSep_univ_prod] at h1
  exact h1

/-- Two different (tile, chunk) pairs' result blocks share no element: row and chunk determine the pair. -/
theorem out_disj (p p' : Fin ((K (F := F)).nCore 0) × Fin ((K (F := F)).nSub 0) × Fin k0_t1_loop.trips) (h : p ≠ p') :
    Disjoint (outBlkK (Lof (F := F) p.1 p.2.1) p.2.2).view.set (outBlkK (Lof (F := F) p'.1 p'.2.1) p'.2.2).view.set := by
  refine Finset.disjoint_left.mpr fun j hj hj' => h ?_
  rw [mem_outSet, rowL_Lof] at hj hj'
  have c2 : p.1.val < 2 := p.1.isLt
  have c2' : p'.1.val < 2 := p'.1.isLt
  exact Prod.ext (Fin.ext (by omega)) (Prod.ext (Fin.ext (by omega)) (Fin.ext (by omega)))

/-- The result blocks cover the result: entry (w, j, ·, ·) belongs to block j of tile (w mod 2, w div 2). -/
theorem out_cover (d : Dev nD) :
    (Finset.univ : Finset (Fin ((K (F := F)).nCore 0) × Fin ((K (F := F)).nSub 0) × Fin k0_t1_loop.trips)).biUnion
        (fun p => (outBlkK (Lof (F := F) p.1 p.2.1) p.2.2).view.set)
      = (Finset.univ : Finset (Idx (outLoc d))) := by
  refine Finset.eq_univ_iff_forall.mpr fun j => ?_
  have b0 : (j 0).val < 32 := (j 0).isLt
  have b1 : (j 1).val < 20 := (j 1).isLt
  refine Finset.mem_biUnion.mpr ⟨(⟨(j 0).val % 2, Nat.mod_lt _ (by decide)⟩, ⟨(j 0).val / 2, by show (j 0).val / 2 < 16; omega⟩,
    ⟨(j 1).val, by rw [trips_eq]; exact b1⟩), Finset.mem_univ _, ?_⟩
  rw [mem_outSet, rowL_Lof]
  show (j 0).val = 2 * ((j 0).val / 2) + (j 0).val % 2 ∧ (j 1).val = (j 1).val
  omega

/-- The call's result whole is the thirty-two tiles' twenty blocks each. -/
theorem out_split (d : Dev nD) (f : Buf (Elt F) (outLoc d)) :
    (outLoc d ↦{fullShare} f : sProp 𝕄)
      = bigSep Finset.univ fun c : Fin ((K (F := F)).nCore 0) => bigSep Finset.univ fun i : Fin ((K (F := F)).nSub 0) =>
          bigSep Finset.univ fun k : Fin k0_t1_loop.trips => outLoc d ↦[(outBlkK (Lof (F := F) c i) k).view.set]{fullShare} f := by
  have h1 : (outLoc d ↦[(Finset.univ : Finset (Fin ((K (F := F)).nCore 0) × Fin ((K (F := F)).nSub 0) × Fin k0_t1_loop.trips)).biUnion
        (fun p => (outBlkK (Lof (F := F) p.1 p.2.1) p.2.2).view.set)]{fullShare} f : sProp 𝕄) = _ :=
    pointsTo_biUnion _ _ fun p _ p' _ h => out_disj p p' h
  rw [out_cover d] at h1
  simp only [bigSep_univ_prod] at h1
  exact h1

end Cert.Proof.KI

end
-- ==== Proof.KIHost.lean ====
/-
  The TensorCore's host operations around the SparseCore call, as plain functions.

  Before the call the tokens [1024, 50] are transposed to [50, 1024] and cut, in row-major order, into 32 rows of 20
  chunks of 80: entry (w, j, r) of the re-laid tokens is token (b, t) with 1600 w + 80 j + r = 1024 t + b. After the call the
  result [32, 20, 80, 128] is read in row-major order as [50, 1024, 128] and transposed to [1024, 50, 128]; the logits
  [50, 1000, 1024] are transposed to [1024, 50, 1000].
-/
import proofs.«211305_g76828374991638_cont_9to1_m_1055_18_alg».proof.Proof.KICommon

noncomputable section

namespace Cert.Proof.KI

open Cert.KernelIdeal Cert.KernelIdeal.Gen
open Idealize.ShloMosaic

/-- The tokens re-laid: transposed, then cut into 32 rows of 20 chunks of 80. -/
def relay {α : Type} (tok : S1024x50.Idx → α) : S32x20x80.Idx → α :=
  shapeCast S32x20x80 (transpose S50x1024 [1, 0] tok Gen.transposes_S1024x50_S50x1024_1_0) Gen.shapeCasts_S50x1024_S32x20x80

/-- The call's result read as [50, 1024, 128] and transposed to [1024, 50, 128]. -/
def unrelay {α : Type} (o : S32x20x80x128.Idx → α) : S1024x50x128.Idx → α :=
  transpose S1024x50x128 [1, 0, 2] (shapeCast S50x1024x128 o Gen.shapeCasts_S32x20x80x128_S50x1024x128) Gen.transposes_S50x1024x128_S1024x50x128_1_0_2

/-- The logits transposed to [1024, 50, 1000]. -/
def logitsOut {α : Type} (l : S50x1000x1024.Idx → α) : S1024x50x1000.Idx → α :=
  transpose S1024x50x1000 [2, 0, 1] l Gen.transposes_S50x1000x1024_S1024x50x1000_2_0_1

end Cert.Proof.KI

end
-- ==== Proof.KIHostVal.lean ====
/-
  The TensorCore's host operations around the SparseCore call, read at an index.

  The re-laid tokens at (w, j, r) are the token at (b, t) whenever 1600 w + 80 j + r = 1024 t + b: the cut into 32 rows
  of 20 chunks of 80 keeps the row-major position of the transposed array. Read back the same way, a result whose
  entry (w, j, r, e) is the table at the row the re-laid token at (w, j, r) names and column e is the lookup of the
  tokens in the table. The transposed logits keep their pattern: 1 at the programmed target of the position.
-/
import proofs.«211305_g76828374991638_cont_9to1_m_1055_18_alg».proof.Proof.KIHost
import proofs.«211305_g76828374991638_cont_9to1_m_1055_18_alg».proof.Proof.Spec
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx

/-- The re-laid tokens at (w, j, r): the token at the (b, t) with the same row-major position in the transposed
    array. -/
theorem relay_apply {α : Type} (tok : S1024x50.Idx → α) (w : Fin 32) (j : Fin 20) (r : Fin 80) (b : Fin 1024) (t : Fin 50)
    (h : 1600 * w.val + 80 * j.val + r.val = 1024 * t.val + b.val) :
    relay tok (ix3 w j r) = tok (ix2 b t) := by
  unfold relay
  refine (shapeCast_apply _ _ (ix3 w j r) (ix2 (n0 := 50) (n1 := 1024) t b) ?_).trans ?_
  · rw [Shape.rowMajor_val_two, Shape.rowMajor_val_three]
    show t.val * 1024 + b.val = (w.val * 20 + j.val) * 80 + r.val
    omega
  · exact transpose_apply _ _ _ _ (ix2 (n0 := 1024) (n1 := 50) b t) (fun c => by
      match c with
      | ⟨0, _⟩ => rfl
      | ⟨1, _⟩ => rfl)

/-- Every re-laid token is one of the tokens: a bound on all of them is a bound on the re-laid ones. -/
theorem relay_lt (tok : S1024x50.Idx → BitVec 32) (h : ∀ p, (tok p).toNat < 1000) : ∀ i, (relay tok i).toNat < 1000 := by
  intro i
  unfold relay shapeCast transpose
  exact h _

/-- A result whose entry (w, j, r, e) is the table at the row the re-laid token at (w, j, r) names, column e, read back
    as [50, 1024, 128] and transposed, is the lookup. -/
theorem unrelay_lookup {α : Type} (tok : S1024x50.Idx → BitVec 32) (emb : S1000x128.Idx → α) :
    unrelay (fun i : S32x20x80x128.Idx => emb (ix2 (n0 := 1000) (n1 := 128) (Cert.Spec.rowOf (relay tok (ix3 (n0 := 32) (n1 := 20) (n2 := 80) ⟨(i 0).val, (i 0).isLt⟩ ⟨(i 1).val, (i 1).isLt⟩ ⟨(i 2).val, (i 2).isLt⟩))) ⟨(i 3).val, (i 3).isLt⟩))
      = Cert.Spec.lookup tok emb := by
  funext i
  obtain ⟨b, t, e, rfl⟩ : ∃ (b : Fin 1024) (t : Fin 50) (e : Fin 128), i = ix3 b t e := ⟨i 0, i 1, i 2, eq_ix3 i⟩
  have hb := b.isLt
  have ht := t.isLt
  let w : Fin 32 := ⟨(1024 * t.val + b.val) / 1600, by omega⟩
  let j : Fin 20 := ⟨(1024 * t.val + b.val) % 1600 / 80, by omega⟩
  let r : Fin 80 := ⟨(1024 * t.val + b.val) % 80, by omega⟩
  have hw : w.val = (1024 * t.val + b.val) / 1600 := rfl
  have hj : j.val = (1024 * t.val + b.val) % 1600 / 80 := rfl
  have hr : r.val = (1024 * t.val + b.val) % 80 := rfl
  have hsum : 1600 * w.val + 80 * j.val + r.val = 1024 * t.val + b.val := by omega
  unfold unrelay
  refine (transpose_apply _ _ _ (ix3 b t e) (ix3 (n0 := 50) (n1 := 1024) (n2 := 128) t b e) (fun c => by
    match c with
    | ⟨0, _⟩ => rfl
    | ⟨1, _⟩ => rfl
    | ⟨2, _⟩ => rfl)).trans ?_
  refine (shapeCast_apply _ _ (ix3 (n0 := 50) (n1 := 1024) (n2 := 128) t b e)
    (ix4 (n0 := 32) (n1 := 20) (n2 := 80) (n3 := 128) w j r e) ?_).trans ?_
  · rw [Shape.rowMajor_val_four, Shape.rowMajor_val_three]
    show ((w.val * 20 + j.val) * 80 + r.val) * 128 + e.val = (t.val * 1024 + b.val) * 128 + e.val
    omega
  · show emb (ix2 (n0 := 1000) (n1 := 128) (Cert.Spec.rowOf (relay tok (ix3 w j r))) e) = _
    rw [relay_apply tok w j r b t hsum]
    rfl

/-- The transposed logits keep their pattern: A at the programmed target of the position, B elsewhere. -/
theorem logitsOut_spec {α : Type} (A B : α) :
    logitsOut (fun i : S50x1000x1024.Idx => if (i 1).val = Cert.Spec.target (i 0).val then A else B)
      = fun i : S1024x50x1000.Idx => if (i 2).val = Cert.Spec.target (i 1).val then A else B := by
  funext i
  obtain ⟨b, t, v, rfl⟩ : ∃ (b : Fin 1024) (t : Fin 50) (v : Fin 1000), i = ix3 b t v := ⟨i 0, i 1, i 2, eq_ix3 i⟩
  unfold logitsOut
  refine (transpose_apply _ _ _ (ix3 b t v) (ix3 (n0 := 50) (n1 := 1000) (n2 := 1024) t v b) (fun c => by
    match c with
    | ⟨0, _⟩ => rfl
    | ⟨1, _⟩ => rfl
    | ⟨2, _⟩ => rfl)).trans ?_
  rfl

end Cert.Proof.KI

end
-- ==== Proof.KIMain.lean ====
/-
  @main on the TensorCore, and the program's run.

  The TensorCore re-lays the tokens (a transpose and a row-major cut), hands the SparseCore call the token rows, the
  result blocks and two read shares of the table, and takes them back with every block at the looked-up table rows;
  re-lays the result (a row-major reading and a transpose), which is then the lookup entry by entry; runs the logits
  kernel; and transposes its result, which is then the programmed logits entry by entry.
-/
import proofs.«211305_g76828374991638_cont_9to1_m_1055_18_alg».proof.Proof.KILaunch
import proofs.«211305_g76828374991638_cont_9to1_m_1055_18_alg».proof.Proof.KISplitArr
import proofs.«211305_g76828374991638_cont_9to1_m_1055_18_alg».proof.Proof.KIHostVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## One host operation from one array to another -/

omit [FloatOps F] in
theorem held_pair (d : Dev nD) (x' y' : DevRef τ sig) (hne : x' ≠ y') (W : Valuation τ sig (Elt F)) :
    (held (T d) {x', y'} W : sProp 𝕄) = iprop((((d, x') : Loc nD τ sig) ↦{fullShare} W x') ∗ (((d, y') : Loc nD τ sig) ↦{fullShare} W y')) := by
  unfold held
  rw [SparseCore.bigSep_insert' (by rw [Finset.mem_singleton]; exact hne), bigSep_singleton]

/-- The launch contents with two arrays replaced. -/
def val2 (d : Dev nD) (x' y' : DevRef τ sig) (fx : Buf (Elt F) ((d, x') : Loc nD τ sig)) (fy : Buf (Elt F) ((d, y') : Loc nD τ sig)) :
    Valuation τ sig (Elt F) :=
  Function.update (Function.update (fun b => m (d, b)) x' fx) y' fy

omit [FloatOps F] in
theorem val2_x (d : Dev nD) (x' y' : DevRef τ sig) (hne : x' ≠ y') (fx : Buf (Elt F) ((d, x') : Loc nD τ sig)) (fy : Buf (Elt F) ((d, y') : Loc nD τ sig)) :
    val2 m d x' y' fx fy x' = fx := by
  unfold val2; rw [Function.update_of_ne hne, Function.update_self]
omit [FloatOps F] in
theorem val2_y (d : Dev nD) (x' y' : DevRef τ sig) (fx : Buf (Elt F) ((d, x') : Loc nD τ sig)) (fy : Buf (Elt F) ((d, y') : Loc nD τ sig)) :
    val2 m d x' y' fx fy y' = fy := by
  unfold val2; rw [Function.update_self]

include m in
/-- A host operation that reads the array `x'` and writes the array `y'` with `g` of it, followed by nothing: `x'` is
    kept, `y'` ends at `g` of `x'`'s contents, named `fy'`. -/
theorem wp_host_step {op : HloOp τ sig (Elt F)} (d : Dev nD) (x' y' : DevRef τ sig) (hne : x' ≠ y')
    (hbufs : op.bufs = {x', y'}) (hwr : op.writes = {y'}) (hfr : op.fresh = ∅)
    (g : Buf (Elt F) ((d, x') : Loc nD τ sig) → Buf (Elt F) ((d, y') : Loc nD τ sig))
    (hres : ∀ W : Valuation τ sig (Elt F), op.result W y' = g (W x'))
    (fx : Buf (Elt F) ((d, x') : Loc nD τ sig)) (fy : Buf (Elt F) ((d, y') : Loc nD τ sig))
    (fy' : Buf (Elt F) ((d, y') : Loc nD τ sig)) (hfy : g fx = fy')
    {hp : (T d : Thread nD τ).2.kind.runsHlo = true} {Q : PUnit → sProp 𝕄} :
    iprop(boundary (T d : Thread nD τ) ∗ (((d, x') : Loc nD τ sig) ↦{fullShare} fx) ∗ (((d, y') : Loc nD τ sig) ↦{fullShare} fy))
      ⊢ iprop(((boundary (T d : Thread nD τ) ∗ (((d, x') : Loc nD τ sig) ↦{fullShare} fx) ∗ (((d, y') : Loc nD τ sig) ↦{fullShare} fy')) -∗ Q ⟨⟩)
          -∗ wp frame (wpE ((K (F := F)).defs (D (F := F))) 𝒱 (T d) none) Set.univ (hlo hp op (fun _ => .ret ⟨⟩)) Q) := by
  iintro ⟨Hb, Hx, Hy⟩ Hk
  iapply (wp_hlo_within 𝒱 (T d) none Set.univ (op := op) (S := {x', y'}) (hbufs ▸ Finset.Subset.refl _) (V := val2 m d x' y' fx fy) hfr) $$ [Hb Hx Hy]
  · isplitl [Hb]; · iexact Hb
    rw [held_pair d x' y' hne, val2_x m d x' y' hne, val2_y]
    isplitl [Hx]; · iexact Hx
    iexact Hy
  iintro ⟨Hb, Hh⟩
  rw [wp_ret]; imodintro
  iapply Hk
  isplitl [Hb]; · iexact Hb
  ihave Hh' := (Entails.of_eq (held_pair (F := F) d x' y' hne _)) $$ Hh
  icases Hh' with ⟨Hx, Hy⟩
  rw [op.result_of_not_mem _ (b := x') (by rw [hwr, Finset.mem_singleton]; exact hne), hres, val2_x m d x' y' hne, hfy]
  isplitl [Hx]; · iexact Hx
  iexact Hy

/-! ## The arrays of @main -/

abbrev a0Loc (d : Dev nD) : Loc nD τ sig := (SparseCore.T d).loc main_arg0
abbrev v0Loc (d : Dev nD) : Loc nD τ sig := (SparseCore.T d).loc main_v0
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-- The re-laid tokens the SparseCore call finds. -/
abbrev tkM : (d : Dev nD) → Buf (Elt F) (tokLoc d) := fun d => relay (m (a0Loc d))

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (embLoc d ↦{fullShare} W main_arg1) ∗ (v0Loc d ↦{fullShare} W main_v0)
      ∗ (tokLoc d ↦{fullShare} W main_v1) ∗ (outLoc d ↦{fullShare} W main_v2) ∗ (v3Loc d ↦{fullShare} W main_v3) ∗ (v4Loc d ↦{fullShare} W main_v4)
      ∗ (v5Loc d ↦{fullShare} W main_v5) ∗ (v6Loc d ↦{fullShare} W main_v6)) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The hand-over at the call -/

/-- The two SparseCores' shares of the arrays, regrouped: all the token rows, all the result blocks, the table's two read
    tokens. -/
theorem arr_eq (tk : (d : Dev nD) → Buf (Elt F) (tokLoc d)) (d : Dev nD) (g : Buf (Elt F) (outLoc d)) :
    (bigSep Finset.univ fun c : Fin ((K (F := F)).nCore 0) => iprop((bigSep Finset.univ fun i : Fin ((K (F := F)).nSub 0) => tileArr tk d (Lof c i) g)
        ∗ embLoc d ↦{embTok c.val} m (embLoc d)))
      = iprop(((tokLoc d ↦{fullShare} tk d) ∗ (outLoc d ↦{fullShare} g))
          ∗ bigSep Finset.univ fun c : Fin ((K (F := F)).nCore 0) => embLoc d ↦{embTok c.val} m (embLoc d)) := by
  have hT : (bigSep Finset.univ fun c : Fin ((K (F := F)).nCore 0) => bigSep Finset.univ fun i : Fin ((K (F := F)).nSub 0) => tileArr tk d (Lof c i) g)
      = iprop((tokLoc d ↦{fullShare} tk d) ∗ (outLoc d ↦{fullShare} g)) := by
    rw [tok_split (F := F) d (tk d), out_split (F := F) d g, ← bigSep_sep']
    refine bigSep_congr fun c _ => ?_
    rw [← bigSep_sep']
    rfl
  rw [bigSep_sep', hT]

theorem st_eq (tk : (d : Dev nD) → Buf (Elt F) (tokLoc d)) (d : Dev nD) :
    (bigSep Finset.univ fun c : Fin ((K (F := F)).nCore 0) => (P (F := F) m tk).st 0 d c)
      = iprop(((tokLoc d ↦{fullShare} tk d) ∗ (outLoc d ↦{fullShare} m (outLoc d)))
          ∗ bigSep Finset.univ fun c : Fin ((K (F := F)).nCore 0) => embLoc d ↦{embTok c.val} m (embLoc d)) :=
  arr_eq m tk d (m (outLoc d))

theorem dn_eq (tk : (d : Dev nD) → Buf (Elt F) (tokLoc d)) (d : Dev nD) :
    (bigSep Finset.univ fun c : Fin ((K (F := F)).nCore 0) => (P (F := F) m tk).dn 0 d c)
      = iprop(((tokLoc d ↦{fullShare} tk d) ∗ (outLoc d ↦{fullShare} outSpec m tk d))
          ∗ bigSep Finset.univ fun c : Fin ((K (F := F)).nCore 0) => embLoc d ↦{embTok c.val} m (embLoc d)) :=
  arr_eq m tk d (outSpec m tk d)

omit [FloatOps F] in
/-- The table's full share: a rest, and the two SparseCores' read tokens. -/
theorem emb_split (d : Dev nD) :
    (embLoc d ↦{fullShare} m (embLoc d) : sProp 𝕄)
      ⊣⊢ iprop((embLoc d ↦{Transfers.shareDrop fullShare 2} m (embLoc d))
          ∗ bigSep Finset.univ fun c : Fin ((K (F := F)).nCore 0) => embLoc d ↦{embTok c.val} m (embLoc d)) :=
  Transfers.pointsTo_toks (nD := nD) (τ := τ) (sig := sig) (Ix := HIx 1) (Val := Elt F) (Name := ℕ) (U := UU) (Lvl := ℕ)
    (ℓ := embLoc d) (S := Finset.univ) (f := m (embLoc d)) fullShare 2

/-! ## @main -/

/-- What @main leaves the claim: the arguments as launched, the lookup, the programmed logits. -/
abbrev FIN (d : Dev nD) : sProp 𝕄 :=
  iprop((a0Loc d ↦{fullShare} m (a0Loc d)) ∗ (embLoc d ↦{fullShare} m (embLoc d))
    ∗ (v4Loc d ↦{fullShare} (Cert.Spec.lookup (m (a0Loc d)) (m (embLoc d)) : Buf (Elt F) (v4Loc d)))
    ∗ (v6Loc d ↦{fullShare} (Cert.Spec.logits (F := F) : Buf (Elt F) (v6Loc d))))

set_option maxHeartbeats 4000000 in
theorem hmain (κ : GSem nD τ sig → ℕ) (d : Dev nD) :
    iprop((K (F := F)).ctx EH (P m (tkM m)) κ ∗ (K (F := F)).tcSt EH d 0 ∗ (K (F := F)).tcRes m ρ d ∗ GT (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4, Hv5, Hv6⟩, -, -⟩, HG⟩
  -- the tokens transposed
  iapply (wp_host_step m d (Proc.devRef .tc main_arg0) (Proc.devRef .tc main_v0) (by decide) rfl rfl rfl
      (fun t => transpose S50x1024 [1, 0] t Gen.transposes_S1024x50_S50x1024_1_0) (fun W => StableHlo.unary_result main_arg0 main_v0 _ _ _ W) _ _ _ rfl) $$ [Hb Ha0 Hv0]
  · isplitl [Hb]; · iexact Hb
    isplitl [Ha0]; · iexact Ha0
    iexact Hv0
  iintro ⟨Hb, Ha0, Hv0⟩
  -- and cut into the tiles' rows
  iapply (wp_host_step m d (Proc.devRef .tc main_v0) (Proc.devRef .tc main_v1) (by decide) rfl rfl rfl
      (fun t => shapeCast S32x20x80 t Gen.shapeCasts_S50x1024_S32x20x80) (fun W => StableHlo.reshape_result main_v0 main_v1 rfl _ _ _ W) _ _ (tkM m d) rfl) $$ [Hb Hv0 Hv1]
  · isplitl [Hb]; · iexact Hb
    isplitl [Hv0]; · iexact Hv0
    iexact Hv1
  iintro ⟨Hb, Hv0, Hv1⟩
  -- the SparseCore call
  ihave Hsp := ((emb_split m d).1) $$ Ha1
  icases Hsp with ⟨Hembr, Hembs⟩
  iapply ((K (F := F)).wp_run (D (F := F)) 𝒱 (EH := EH) (P := P m (tkM m)) κ d 0)
  isplitr; · iexact Hctx
  isplitl [Hst]; · iexact Hst
  isplitl [Hv1 Hv2 Hembs]
  · iapply (Entails.of_eq (st_eq m (tkM m) d).symm)
    isplitl [Hv1 Hv2]
    · isplitl [Hv1]; · iexact Hv1
      iexact Hv2
    iexact Hembs
  iintro ⟨Hst, Hdn⟩
  ihave Hdn' := (Entails.of_eq (dn_eq m (tkM m) d)) $$ Hdn
  icases Hdn' with ⟨⟨Hv1, Hv2⟩, Hembs⟩
  ihave Ha1 := ((emb_split m d).2) $$ [Hembr Hembs]
  · isplitl [Hembr]; · iexact Hembr
    iexact Hembs
  -- the result read in row-major order
  iapply (wp_host_step m d (Proc.devRef .tc main_v2) (Proc.devRef .tc main_v3) (by decide) rfl rfl rfl
      (fun t => shapeCast S50x1024x128 t Gen.shapeCasts_S32x20x80x128_S50x1024x128) (fun W => StableHlo.reshape_result main_v2 main_v3 rfl _ _ _ W) _ _ _ rfl) $$ [Hb Hv2 Hv3]
  · isplitl [Hb]; · iexact Hb
    isplitl [Hv2]; · iexact Hv2
    iexact Hv3
  iintro ⟨Hb, Hv2, Hv3⟩
  -- and transposed: the lookup
  iapply (wp_host_step m d (Proc.devRef .tc main_v3) (Proc.devRef .tc main_v4) (by decide) rfl rfl rfl
      (fun t => transpose S1024x50x128 [1, 0, 2] t Gen.transposes_S50x1024x128_S1024x50x128_1_0_2) (fun W => StableHlo.unary_result main_v3 main_v4 _ _ _ W) _ _
      (Cert.Spec.lookup (m (a0Loc d)) (m (embLoc d))) (unrelay_lookup (m (a0Loc d)) (m (embLoc d)))) $$ [Hb Hv3 Hv4]
  · isplitl [Hb]; · iexact Hb
    isplitl [Hv3]; · iexact Hv3
    iexact Hv4
  iintro ⟨Hb, Hv3, Hv4⟩
  -- the logits kernel
  iapply (wp_logits_call (P m (tkM m)) κ d _ _) $$ [Hst HG Hb Hv5]
  · isplitr; · iexact Hctx
    isplitl [Hst]; · iexact Hst
    isplitl [HG]; · iexact HG
    isplitl [Hb]; · iexact Hb
    iexact Hv5
  iintro ⟨Hst, Hb, Hv5⟩
  -- and its result transposed: the programmed logits
  iapply (wp_host_step m d (Proc.devRef .tc main_v5) (Proc.devRef .tc main_v6) (by decide) rfl rfl rfl
      (fun t => transpose S1024x50x1000 [2, 0, 1] t Gen.transposes_S50x1000x1024_S1024x50x1000_2_0_1) (fun W => StableHlo.unary_result main_v5 main_v6 _ _ _ W) _ _
      (Cert.Spec.logits (F := F)) (logitsOut_spec _ _)) $$ [Hb Hv5 Hv6]
  · isplitl [Hb]; · iexact Hb
    isplitl [Hv5]; · iexact Hv5
    iexact Hv6
  iintro ⟨Hb, Hv5, Hv6⟩
  isplitl [Hst]; · iexact Hst
  isplitl [Ha0]; · iexact Ha0
  isplitl [Ha1]; · iexact Ha1
  isplitl [Hv4]; · iexact Hv4
  iexact Hv6

/-! ## The final memory, the run -/

def fq (d : Dev nD) (s' : Phys nD τ sig (Elt F)) : Prop :=
  s'.mem.mem (v4Loc d) = Cert.Spec.lookup (m (a0Loc d)) (m (embLoc d)) ∧ s'.mem.mem (v6Loc d) = Cert.Spec.logits (F := F)
    ∧ s'.mem.mem (a0Loc d) = m (a0Loc d) ∧ s'.mem.mem (embLoc d) = m (embLoc d)

theorem hfin (d : Dev nD) (s' : Phys nD τ sig (Elt F)) : iprop(FIN m d ∗ SI s') ⊢ (⌜fq m d s'⌝ : sProp 𝕄) := by
  iintro ⟨⟨Ha0, Ha1, Hv4, Hv6⟩, HSI⟩
  icombine HSI Ha0 gives %h0
  icombine HSI Ha1 gives %h1
  icombine HSI Hv4 gives %h4
  icombine HSI Hv6 gives %h6
  ipureintro
  exact ⟨funext fun i => h4 i (Finset.mem_univ i), funext fun i => h6 i (Finset.mem_univ i),
    funext fun i => h0 i (Finset.mem_univ i), funext fun i => h1 i (Finset.mem_univ i)⟩

/-- The program's post: on every device the two results are the lookup and the programmed logits of the launch memory's
    arguments, and the arguments are as launched. -/
def QC : PUnit × MemSt nD τ sig (Elt F) → Prop := fun r => ∀ c : Dev nD,
  r.2.mem (v4Loc c) = Cert.Spec.lookup (m (a0Loc c)) (m (embLoc c)) ∧ r.2.mem (v6Loc c) = Cert.Spec.logits (F := F)
    ∧ r.2.mem (a0Loc c) = m (a0Loc c) ∧ r.2.mem (embLoc c) = m (embLoc c)

/-- Every weakly fair execution of the device's threads terminates, nothing faulting, with that post — provided every
    token word names a row of the table. -/
theorem run_main [∀ e, Nonempty (Elt F e)] (htok : ∀ (d : Dev nD) (p : S1024x50.Idx), ((m (a0Loc d)) p).toNat < 1000) :
    θ_run (Cert.KernelIdeal.defs (F := F)) (Cert.KernelIdeal.threads (F := F)) ⟨m, fun _ => 0, ρ⟩ (QC m) :=
  have htk : TokOK (tkM m) := fun d i => relay_lt (m (a0Loc d)) (htok d) i
  SparseCore.Cfg.θ_run_sc (K := K (F := F)) (D := D (F := F)) (𝒱 := 𝒱) (EH := EH) (P := P m (tkM m)) facts v₀
    (fun q hq => match q with | 0 => nomatch hq)
    (fun q _ => match q with | 0 => tileObl m (tkM m) facts htk)
    (fun q _ => match q with | 0 => vecSplit m (tkM m))
    m ρ main (fun d => GT (F := F) d) (FIN m) (u₀ (F := F)) (hu₀ m (tkM m)) (hmain m ρ) (fq m) (hfin m) (QC m) (fun _ h => h)

end Cert.Proof.KI

end
-- ==== Proof.KBCommon.lean ====
/-
  The kernel's program as the SparseCore launch theorem sees it, and the resources its proof is written over.

  The program: on the TensorCore, the tokens transposed and re-laid as 32 rows of 20 chunks of 80; one SparseCore call
  on both SparseCores, sixteen tiles each, tile (c, s) working row 2 s + c; the result re-laid and transposed; a
  TensorCore kernel that writes the logits position by position; a last transpose.

  What a tile does: tile 0 of each SparseCore copies the whole embedding table into the SparseCore's shared memory;
  every tile fetches its row of token words; all sixteen meet at the subcore barrier; then, twenty times, a tile
  gathers the eighty table rows its chunk of words names out of the shared memory and writes them to its block of the
  result.

  The ghost state: the launch handshakes' rounds, the barrier cells' rounds (a library of their own), the rounds of the
  TensorCore kernel's staging cells, and the transfers' counters.
-/
import proofs.«211305_g76828374991638_cont_9to1_m_1055_18_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«211305_g76828374991638_cont_9to1_m_1055_18_alg».proof.Proof.Gen.Kernel
import proofs.«211305_g76828374991638_cont_9to1_m_1055_18_alg».proof.Proof.Gen.Kernel.Skeleton
import proofs.«211305_g76828374991638_cont_9to1_m_1055_18_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

/-- The handshakes' rounds: the left factor. -/
abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore kernel's staging cells' rounds. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

/-- The re-laid tokens, the table and the SparseCore call's result, as locations of device `d`. -/
abbrev tokLoc (d : Dev nD) : Loc nD τ sig := (SparseCore.T d).loc main_v1
abbrev embLoc (d : Dev nD) : Loc nD τ sig := (SparseCore.T d).loc main_arg1
abbrev outLoc (d : Dev nD) : Loc nD τ sig := (SparseCore.T d).loc main_v2
/-- SparseCore `c`'s shared copy of the table. -/
abbrev shRef (c : Fin τ.nSC) : DevRef τ sig := ⟨.shared, ⟨0, by decide⟩, c⟩
abbrev shLoc (d : Dev nD) (c : Fin τ.nSC) : Loc nD τ sig := (d, shRef c)

/-- The row of tile `(c, s)`: `2 s + c`. -/
def wid (c : Fin 2) (s : Fin 16) : Fin 32 := ⟨2 * s.val + c.val, by omega⟩

theorem wid_injective : Function.Injective (fun cs : Fin 2 × Fin 16 => wid cs.1 cs.2) := by
  rintro ⟨c, s⟩ ⟨c', s'⟩ h
  have h' : 2 * s.val + c.val = 2 * s'.val + c'.val := congrArg Fin.val h
  have hc : c.val = c'.val := by omega
  have hs : s.val = s'.val := by omega
  exact Prod.ext (Fin.ext hc) (Fin.ext hs)

theorem wid_surjective (w : Fin 32) : ∃ c s, wid c s = w :=
  ⟨⟨w.val % 2, Nat.mod_lt _ (by decide)⟩, ⟨w.val / 2, by omega⟩, Fin.ext (by show 2 * (w.val / 2) + w.val % 2 = w.val; omega)⟩

end Cert.Proof.KB

end
-- ==== Proof.KBBarrier.lean ====
/-
  The subcore barrier of the gather kernel, as cells of a rounds library.

  Each tile has a barrier semaphore; arriving, a tile sends one unit to every tile of its SparseCore (its own
  included), and then waits for sixteen units on its own. So each tile's cell has one round of sixteen unit duties,
  one per tile of the SparseCore, named by the tile's number.

  What crosses the barrier: tile 0 has copied the embedding table into the SparseCore's shared memory and waited for
  the copy before it arrives. Its duty in tile j's round therefore hands over a READ SHARE of the shared memory at the
  table's contents — the j-th of sixteen tokens split off the full share —; the other tiles' duties hand over
  nothing. A tile that has left the barrier holds its token: it may read the table there, and nobody may write it.
-/
import proofs.«211305_g76828374991638_cont_9to1_m_1055_18_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

theorem nSub_eq : τ.nSub = 16 := rfl
theorem nSC_eq : τ.nSC = 2 := rfl
theorem bound_zero : grid0.bound 0 = 2 := rfl
theorem bound_one : grid0.bound 1 = 16 := rfl

/-- The table as a SparseCore's shared memory holds it once tile 0 has copied it: the launch memory's table. -/
abbrev embSh (d : Dev nD) (c : Fin τ.nSC) : Buf (Elt F) (shLoc d c) := m (embLoc d)

/-- The read token of the shared table that tile `j` holds after the barrier: the `j`-th of sixteen. -/
abbrev shTok (j : ℕ) : PosShare TreeShare := Transfers.shareTokN fullShare j
/-- What tile 0 keeps of the full share after splitting the sixteen tokens off. -/
abbrev shRest : PosShare TreeShare := Transfers.shareDrop fullShare 16

variable [FloatOps F]

/-- Tile `(c, j)`'s barrier semaphore on device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

/-- Whether a cell is some tile's barrier semaphore. -/
def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What the duty of tile number `n` hands over in the round of the cell `g`: tile 0's, the cell's tile's read token of
    the shared table; any other tile's, nothing. -/
def bPay (g : GSem nD τ sig) (n : ℕ) : sProp 𝕄 :=
  match g with
  | ((d, .scVector c j), _) => if n = 0 then iprop(shLoc d c ↦{shTok j.val} embSh m d c) else iprop(emp)
  | _ => iprop(emp)

/-- The barrier cells' schedule: one round each, sixteen unit duties, tile 0's carrying the read token. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) :
    (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl
theorem bRd_payload_zero (d : Dev nD) (c : Fin τ.nSC) (j : Fin τ.nSub) :
    (bRd (F := F) m).payload (bcell d c j) 0 0 = iprop(shLoc d c ↦{shTok j.val} embSh m d c) := by
  show bPay m (bcell d c j) 0 = _; unfold bPay; exact if_pos rfl
theorem bRd_payload_pos (d : Dev nD) (c : Fin τ.nSC) (j : Fin τ.nSub) {n : ℕ} (hn : n ≠ 0) :
    (bRd (F := F) m).payload (bcell d c j) 0 n = iprop(emp) := by
  show bPay m (bcell d c j) n = _; unfold bPay; exact if_neg hn

/-- What the launch has a tile of SparseCore `c` owe for the barrier: one unit on every tile's cell, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals tile `(c, i)` for the barrier: every cell's invariant of its SparseCore, its duty token in
    every tile's round and that each has reached the round, its own position at the round's origin, and the credit
    for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KB

end
-- ==== Proof.KBPay.lean ====
/-
  What the SparseCore call's handshakes carry, tile by tile.

  A tile at grid coordinates L = (c, s) works row w = 2 s + c of the re-laid tokens [32, 20, 80] and of the result
  [32, 20, 80, 128]: it is handed its row of token words (read only), the twenty blocks of its row of the result, and
  — tile 0 only — a read share of the embedding table and the SparseCore's shared memory outright. It hands back the
  token row, the blocks at the looked-up table rows, its read token of the shared memory at the table's contents, and
  — tile 0 — the table's share and the rest of the shared memory's share.

  The result of the call, entry (w, j, r, e): the table at the row that token word (w, j, r) names, column e.
-/
import proofs.«211305_g76828374991638_cont_9to1_m_1055_18_alg».proof.Proof.KBBarrier

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.Kernel.main_v1_scv : Memref Cert.Kernel.sig Kind.scVector Space.hbm Cert.Kernel.S32x20x80 EltTy.i32)
local notation "outV" => (Memref.whole Cert.Kernel.main_v2_scv : Memref Cert.Kernel.sig Kind.scVector Space.hbm Cert.Kernel.S32x20x80x128 EltTy.f32)
local notation "sI" => (Memref.whole Cert.Kernel.cc0_scratch0 : Memref Cert.Kernel.sig Kind.scVector Space.vmem Cert.Kernel.S20x80 EltTy.i32)

/-! ## Grid coordinates, and a tile's memrefs in the program's spelling -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The row of tile `L`: `2 s + c`. -/
def rowL (L : grid0.Coords) : ℕ := 2 * (L 1).val + (L 0).val

theorem rowL_lt (L : grid0.Coords) : rowL L < 32 := by
  have h0 : (L 0).val < 2 := (L 0).isLt
  have h1 : (L 1).val < 16 := (L 1).isLt
  unfold rowL; omega

/-- The tile's row of token words, as the kernel slices it. -/
abbrev tokRowK (L : grid0.Coords) : Memref sig .scVector .hbm S20x80 .i32 :=
  ((tokV).slice (Rect.unit (s := S32x20x80) (k0_off1 L) S1x20x80.size (k0_off1_inb L)) (fun _ => rfl)).squeeze S20x80 squeezes_S1x20x80_S20x80
/-- The tile's block `k` of the result, as the kernel slices it. -/
abbrev outBlkK (L : grid0.Coords) (k : Fin k0_t1_loop.trips) : Memref sig .scVector .hbm S80x128 .f32 :=
  ((outV).slice (Rect.unit (s := S32x20x80x128) (k0_off3 L k) S1x1x80x128.size (k0_off3_inb L k)) (fun _ => rfl)).squeeze S80x128 squeezes_S1x1x80x128_S80x128
/-- Chunk `k` of the fetched token words, as the kernel slices the index scratch. -/
abbrev idxRowK (k : Fin k0_t1_loop.trips) : Memref sig .scVector .vmem S80 .i32 :=
  ((sI).slice (Rect.unit (s := S20x80) (k0_off2 k) S1x80.size (k0_off2_inb k)) (fun _ => rfl)).squeeze S80 squeezes_S1x80_S80

theorem trips_eq : k0_t1_loop.trips = 20 := by decide

/-- The token row's elements: the indices whose first coordinate is the tile's row. -/
theorem mem_tokSet (L : grid0.Coords) (i : S32x20x80.Idx) : i ∈ (tokRowK L).view.set ↔ (i 0).val = rowL L := by
  show i ∈ (((View.whole main_v1_scv).slice (Rect.unit (s := S32x20x80) (k0_off1 L) S1x20x80.size (k0_off1_inb L))).reshape S20x80 squeezes_S1x20x80_S20x80.numel_eq).set ↔ _
  rw [View.set_reshape, View.set_slice_whole, Rect.mem_set_unit, k0_off1_eq]
  have b1 : (i 1).val < 20 := (i 1).isLt
  have b2 : (i 2).val < 80 := (i 2).isLt
  unfold rowL
  constructor
  · intro h
    have h0 := h 0
    simp only [Matrix.cons_val_zero] at h0
    have e : S1x20x80.size 0 = 1 := rfl
    omega
  · intro h a
    match a with
    | ⟨0, _⟩ => exact ⟨by show 2 * (L 1).val + (L 0).val ≤ (i 0).val; omega, by show (i 0).val < 2 * (L 1).val + (L 0).val + 1; omega⟩
    | ⟨1, _⟩ => exact ⟨Nat.zero_le _, by show (i 1).val < 0 + 20; omega⟩
    | ⟨2, _⟩ => exact ⟨Nat.zero_le _, by show (i 2).val < 0 + 80; omega⟩

/-- A result block's elements: first coordinate the tile's row, second the chunk. -/
theorem mem_outSet (L : grid0.Coords) (k : Fin k0_t1_loop.trips) (i : S32x20x80x128.Idx) :
    i ∈ (outBlkK L k).view.set ↔ (i 0).val = rowL L ∧ (i 1).val = k.val := by
  show i ∈ (((View.whole main_v2_scv).slice (Rect.unit (s := S32x20x80x128) (k0_off3 L k) S1x1x80x128.size (k0_off3_inb L k))).reshape S80x128 squeezes_S1x1x80x128_S80x128.numel_eq).set ↔ _
  rw [View.set_reshape, View.set_slice_whole, Rect.mem_set_unit, k0_off3_eq]
  have b2 : (i 2).val < 80 := (i 2).isLt
  have b3 : (i 3).val < 128 := (i 3).isLt
  unfold rowL
  constructor
  · intro h
    have h0 := h 0
    have h1 := h 1
    simp only [Matrix.cons_val_zero, Matrix.cons_val_one] at h0 h1
    have e0 : S1x1x80x128.size 0 = 1 := rfl
    have e1 : S1x1x80x128.size 1 = 1 := rfl
    omega
  · rintro ⟨h0, h1⟩ a
    match a with
    | ⟨0, _⟩ => exact ⟨by show 2 * (L 1).val + (L 0).val ≤ (i 0).val; omega, by show (i 0).val < 2 * (L 1).val + (L 0).val + 1; omega⟩
    | ⟨1, _⟩ => exact ⟨by show k.val ≤ (i 1).val; omega, by show (i 1).val < k.val + 1; omega⟩
    | ⟨2, _⟩ => exact ⟨Nat.zero_le _, by show (i 2).val < 0 + 80; omega⟩
    | ⟨3, _⟩ => exact ⟨Nat.zero_le _, by show (i 3).val < 0 + 128; omega⟩

/-! ## The call's result, and the launch memory's data -/

variable (m : (ℓ : Loc nD τ sig) → Buf (Elt F) ℓ)
-- the re-laid tokens as the call finds them (the TensorCore's two host operations wrote them)
variable (tk : (d : Dev nD) → Buf (Elt F) (tokLoc d))

/-- Entry (w, j, r, e) of the call's result: the table at the row token word (w, j, r) names, column e. -/
def outSpec (d : Dev nD) : Buf (Elt F) (outLoc d) := fun i =>
  m (embLoc d) (ValueIdx.ix2 (n0 := 1000) (n1 := 128)
    (Cert.Spec.rowOf (tk d (ValueIdx.ix3 (n0 := 32) (n1 := 20) (n2 := 80) ⟨(i 0).val, (i 0).isLt⟩ ⟨(i 1).val, (i 1).isLt⟩ ⟨(i 2).val, (i 2).isLt⟩)))
    ⟨(i 3).val, (i 3).isLt⟩)

/-- Every token word names a row of the table. -/
def TokOK : Prop := ∀ (d : Dev nD) (i : S32x20x80.Idx), (tk d i).toNat < 1000

variable [FloatOps F]

/-! ## What a tile is handed and hands back -/

/-- The tile's row of token words and its twenty result blocks, the blocks at the contents `g`. -/
def tileArr (d : Dev nD) (L : grid0.Coords) (g : Buf (Elt F) (outLoc d)) : sProp 𝕄 :=
  iprop((tokLoc d ↦[(tokRowK L).view.set]{fullShare} tk d)
    ∗ bigSep Finset.univ fun k : Fin k0_t1_loop.trips => outLoc d ↦[(outBlkK L k).view.set]{fullShare} g)

/-- SparseCore `c`'s read share of the table: the `c`-th of two tokens. -/
abbrev embTok (c : ℕ) : PosShare TreeShare := Transfers.shareTokN fullShare c

/-- Tile 0's extra at its start: the table's read share and the shared memory outright. -/
def lead₀ (d : Dev nD) (c : Fin τ.nSC) : sProp 𝕄 :=
  iprop((embLoc d ↦{embTok c.val} m (embLoc d)) ∗ ∃ f, shLoc d c ↦{fullShare} f)
/-- Tile 0's extra at its end: the table's read share and what it kept of the shared memory's. -/
def lead₁ (d : Dev nD) (c : Fin τ.nSC) : sProp 𝕄 :=
  iprop((embLoc d ↦{embTok c.val} m (embLoc d)) ∗ shLoc d c ↦{shRest} embSh m d c)

/-- The grid coordinates of task `i` of SparseCore `c` of the call. -/
def Lof (c : Fin ((K (F := F)).nCore 0)) (i : Fin ((K (F := F)).nSub 0)) : grid0.Coords := coordsV ⟨c.val, c.isLt⟩ ⟨i.val, i.isLt⟩

def goV (d : Dev nD) (c : Fin ((K (F := F)).nCore 0)) (i : Fin ((K (F := F)).nSub 0)) : sProp 𝕄 :=
  iprop(tileArr tk d (Lof c i) (m (outLoc d)) ∗ (if i.val = 0 then lead₀ m d ((K (F := F)).core 0 c) else iprop(emp)))
def tdV (d : Dev nD) (c : Fin ((K (F := F)).nCore 0)) (i : Fin ((K (F := F)).nSub 0)) : sProp 𝕄 :=
  iprop(tileArr tk d (Lof c i) (outSpec m tk d) ∗ (shLoc d ((K (F := F)).core 0 c) ↦{shTok i.val} embSh m d ((K (F := F)).core 0 c))
    ∗ (if i.val = 0 then lead₁ m d ((K (F := F)).core 0 c) else iprop(emp)))
def stV (d : Dev nD) (c : Fin ((K (F := F)).nCore 0)) : sProp 𝕄 :=
  iprop((bigSep Finset.univ fun i : Fin ((K (F := F)).nSub 0) => tileArr tk d (Lof c i) (m (outLoc d)))
    ∗ embLoc d ↦{embTok c.val} m (embLoc d))
def dnV (d : Dev nD) (c : Fin ((K (F := F)).nCore 0)) : sProp 𝕄 :=
  iprop((bigSep Finset.univ fun i : Fin ((K (F := F)).nSub 0) => tileArr tk d (Lof c i) (outSpec m tk d))
    ∗ embLoc d ↦{embTok c.val} m (embLoc d))

/-- The call's payloads; each tile's proof consumes its barrier kit, and each tile owes its sixteen arrivals. -/
def P : (K (F := F)).Pay (nD := nD) (Val := Elt F) (Name := ℕ) (U := UU) where
  st := fun q d c => match q with | 0 => stV m tk d c
  dn := fun q d c => match q with | 0 => dnV m tk d c
  go := fun q d c i => match q with | 0 => goV m tk d c i
  td := fun q d c i => match q with | 0 => tdV m tk d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m tk).IsStorable where
  st q d c := match q with | 0 => by show BI.Storable upEmb (stV m tk d c); unfold stV tileArr; infer_instance
  dn q d c := match q with | 0 => by show BI.Storable upEmb (dnV m tk d c); unfold dnV tileArr; infer_instance
  go q d c i := match q with | 0 => by show BI.Storable upEmb (goV m tk d c i); unfold goV tileArr lead₀; split <;> infer_instance
  td q d c i := match q with | 0 => by show BI.Storable upEmb (tdV m tk d c i); unfold tdV tileArr lead₁; split <;> infer_instance

end Cert.Proof.KB

end
-- ==== Proof.KBTileVal.lean ====
/-
  What one trip of a tile's loop leaves in block k of its row of the result.

  The index scratch holds the tile's row of token words; the gather's payload at (r, e) is the shared table — the
  launch memory's table — at the row that word (k, r) names and column e; the row scratch is written whole with that
  payload and copied whole to the block. The block's element (w, k, r, e) is therefore the table at row
  tokens[w, k, r], column e: the call's result there.
-/
import proofs.«211305_g76828374991638_cont_9to1_m_1055_18_alg».proof.Proof.KBPay
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.Kernel.main_v1_scv : Memref Cert.Kernel.sig Kind.scVector Space.hbm Cert.Kernel.S32x20x80 EltTy.i32)
local notation "embV" => (Memref.whole Cert.Kernel.main_arg1_scv : Memref Cert.Kernel.sig Kind.scVector Space.hbm Cert.Kernel.S1000x128 EltTy.f32)
local notation "outV" => (Memref.whole Cert.Kernel.main_v2_scv : Memref Cert.Kernel.sig Kind.scVector Space.hbm Cert.Kernel.S32x20x80x128 EltTy.f32)
local notation "sI" => (Memref.whole Cert.Kernel.cc0_scratch0 : Memref Cert.Kernel.sig Kind.scVector Space.vmem Cert.Kernel.S20x80 EltTy.i32)
local notation "sR" => (Memref.whole Cert.Kernel.cc0_scratch1 : Memref Cert.Kernel.sig Kind.scVector Space.vmem Cert.Kernel.S80x128 EltTy.f32)
local notation "shV" => (Memref.whole Cert.Kernel.cc0_scratch2 : Memref Cert.Kernel.sig Kind.scVector Space.shared Cert.Kernel.S1000x128 EltTy.f32)

variable (m : (ℓ : Loc nD τ sig) → Buf (Elt F) ℓ) (tk : (d : Dev nD) → Buf (Elt F) (tokLoc d))
variable (d : Dev nD) (L : grid0.Coords)

/-- The tile's thread. -/
abbrev thrL (d : Dev nD) (L : grid0.Coords) : Thread nD τ := V d (cV L) (jV L)

/-- The tile's row of token words, as its fetch reads it off the re-laid tokens. -/
abbrev tokRowOf : S20x80.Idx → Elt F .i32 := ReadAs.same.apply (View.read (Elt F) (tokRowK L).view (tk d))

/-- The index scratch after the fetch, whatever it held before: the tile's row of token words. -/
abbrev fIdx (f1 : Buf (Elt F) ((thrL d L).loc cc0_scratch0)) : Buf (Elt F) ((thrL d L).loc cc0_scratch0) :=
  View.write (Elt F) (sI).view f1 (tokRowOf tk d L) Finset.univ

theorem fIdx_eq (f1 : Buf (Elt F) ((thrL d L).loc cc0_scratch0)) : fIdx tk d L f1 = tokRowOf tk d L :=
  View.write_whole_univ _ _ _

/-- Every word of a chunk names a row of the table. -/
theorem idx_inb (htk : TokOK tk) (f1 : Buf (Elt F) ((thrL d L).loc cc0_scratch0)) (k : Fin k0_t1_loop.trips) :
    ∀ x, ((idxRowK k).view.read (Elt F) (fIdx tk d L f1) x).toNat < S1000x128.size gathers_S1000x128_S80x128.axis := by
  intro x
  rw [fIdx_eq, View.read_apply]
  exact htk d _

open Idealize.ShloMosaic.ValueIdx

/-- The token row's placement: (p, q) of the row sits at (w, p, q) of the tokens. -/
theorem tokRowK_emb (L : grid0.Coords) (p : Fin 20) (q : Fin 80) :
    (tokRowK L).view.emb (ix2 p q) = ix3 (n0 := 32) (n1 := 20) (n2 := 80) ⟨rowL L, rowL_lt L⟩ p q := by
  show ((View.whole main_v1_scv).slice (Rect.unit (s := S32x20x80) (k0_off1 L) S1x20x80.size (k0_off1_inb L))).emb
      (Shape.reshapeEquiv squeezes_S1x20x80_S20x80.numel_eq (ix2 p q)) = _
  rw [reshapeEquiv_ix2_1ab]
  funext a
  apply Fin.ext
  match a with
  | ⟨0, _⟩ =>
    show (k0_off1 L) 0 + 1 * 0 = rowL L
    rw [k0_off1_eq]
    show 2 * (L 1).val + (L 0).val + 1 * 0 = rowL L
    unfold rowL; omega
  | ⟨1, _⟩ =>
    show (k0_off1 L) 1 + 1 * p.val = p.val
    rw [k0_off1_eq]
    show 0 + 1 * p.val = p.val
    omega
  | ⟨2, _⟩ =>
    show (k0_off1 L) 2 + 1 * q.val = q.val
    rw [k0_off1_eq]
    show 0 + 1 * q.val = q.val
    omega

theorem trip_lt (k : Fin k0_t1_loop.trips) : k.val < 20 := trips_eq ▸ k.isLt

/-- An index `x` matched with shape `[1, a]` is `(0, x)`. -/
theorem reshapeEquiv_ix1_1a {a : ℕ} (h : (⟨1, ![a]⟩ : Shape).numel = (⟨2, ![1, a]⟩ : Shape).numel)
    (x : Fin a) : Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    simp only [Nat.zero_mul, Nat.zero_add])

/-- The index chunk's placement: x of chunk k sits at (k, x) of the index scratch. -/
theorem idxRowK_emb (k : Fin k0_t1_loop.trips) (x : Fin 80) :
    (idxRowK k).view.emb (ix1 x) = ix2 (n0 := 20) (n1 := 80) ⟨k.val, trip_lt k⟩ x := by
  show ((View.whole cc0_scratch0).slice (Rect.unit (s := S20x80) (k0_off2 k) S1x80.size (k0_off2_inb k))).emb
      (Shape.reshapeEquiv squeezes_S1x80_S80.numel_eq (ix1 x)) = _
  rw [reshapeEquiv_ix1_1a]
  funext a
  apply Fin.ext
  match a with
  | ⟨0, _⟩ =>
    show (k0_off2 k) 0 + 1 * 0 = k.val
    rw [k0_off2_eq]
    show k.val + 1 * 0 = k.val
    omega
  | ⟨1, _⟩ =>
    show (k0_off2 k) 1 + 1 * x.val = x.val
    rw [k0_off2_eq]
    show 0 + 1 * x.val = x.val
    omega

/-- The gather's source view — the whole shared table sliced by the whole-shape rectangle at offsets (0, 0) — places
    every index at itself. -/
theorem shSrc_emb (x : S1000x128.Idx) :
    ((shV).slice (Rect.unit (s := S1000x128) ![0, 0] S1000x128.size inb_S1000x128_S1000x128_0_0) (fun _ => rfl)).view.emb x = x := by
  funext a
  apply Fin.ext
  match a with
  | ⟨0, _⟩ =>
    show 0 + 1 * (x 0).val = (x 0).val
    omega
  | ⟨1, _⟩ =>
    show 0 + 1 * (x 1).val = (x 1).val
    omega

theorem S80_numel : S80.numel = 80 := by decide

/-- The rank-1 shape's row-major position is the coordinate, so the index at position j is (j). -/
theorem rowMajor_symm_S80 (j : Fin S80.numel) : S80.rowMajor.symm j = ix1 (n := 80) ⟨j.val, S80_numel ▸ j.isLt⟩ :=
  (Equiv.symm_apply_eq _).2 (Fin.ext (by rw [Shape.rowMajor_val_one]))

/-- A result block's placement: (r, e) of block k sits at (w, k, r, e) of the result. -/
theorem outBlkK_emb (L : grid0.Coords) (k : Fin k0_t1_loop.trips) (r : Fin 80) (e : Fin 128) :
    (outBlkK L k).view.emb (ix2 r e) = ix4 (n0 := 32) (n1 := 20) (n2 := 80) (n3 := 128) ⟨rowL L, rowL_lt L⟩ ⟨k.val, trip_lt k⟩ r e := by
  show ((View.whole main_v2_scv).slice (Rect.unit (s := S32x20x80x128) (k0_off3 L k) S1x1x80x128.size (k0_off3_inb L k))).emb
      (Shape.reshapeEquiv squeezes_S1x1x80x128_S80x128.numel_eq (ix2 r e)) = _
  rw [reshapeEquiv_ix2_11ab]
  funext a
  apply Fin.ext
  match a with
  | ⟨0, _⟩ =>
    show (k0_off3 L k) 0 + 1 * 0 = rowL L
    rw [k0_off3_eq]
    show 2 * (L 1).val + (L 0).val + 1 * 0 = rowL L
    unfold rowL; omega
  | ⟨1, _⟩ =>
    show (k0_off3 L k) 1 + 1 * 0 = k.val
    rw [k0_off3_eq]
    show k.val + 1 * 0 = k.val
    omega
  | ⟨2, _⟩ =>
    show (k0_off3 L k) 2 + 1 * r.val = r.val
    rw [k0_off3_eq]
    show 0 + 1 * r.val = r.val
    omega
  | ⟨3, _⟩ =>
    show (k0_off3 L k) 3 + 1 * e.val = e.val
    rw [k0_off3_eq]
    show 0 + 1 * e.val = e.val
    omega

/-- Entry n of chunk k's offset list names the table row of token word (w, k, n). -/
theorem rows_val (f1 : Buf (Elt F) ((thrL d L).loc cc0_scratch0)) (k : Fin k0_t1_loop.trips)
    (hin : ∀ x, ((idxRowK k).view.read (Elt F) (fIdx tk d L f1) x).toNat < S1000x128.size gathers_S1000x128_S80x128.axis)
    (n : Fin 80) :
    (SparseCore.rows (View.read (Elt F) (idxRowK k).view (fIdx tk d L f1)) rfl hin n).val
      = (tk d (ix3 (n0 := 32) (n1 := 20) (n2 := 80) ⟨rowL L, rowL_lt L⟩ ⟨k.val, trip_lt k⟩ n)).toNat := by
  unfold SparseCore.rows
  show (View.read (Elt F) (idxRowK k).view (fIdx tk d L f1) (S80.rowMajor.symm _)).toNat = _
  rw [rowMajor_symm_S80, fIdx_eq, View.read_apply]
  show (tk d ((tokRowK L).view.emb ((idxRowK k).view.emb (ix1 n)))).toNat = _
  rw [idxRowK_emb, tokRowK_emb]

/-- The gather's payload at (r, e): the launch memory's table at the row token word (w, k, r) names, column e. -/
theorem payload_val (htk : TokOK tk) (f1 : Buf (Elt F) ((thrL d L).loc cc0_scratch0)) (k : Fin k0_t1_loop.trips)
    (hin : ∀ x, ((idxRowK k).view.read (Elt F) (fIdx tk d L f1) x).toNat < S1000x128.size gathers_S1000x128_S80x128.axis)
    (r : Fin 80) (e : Fin 128) :
    SparseCore.gatherPayload gathers_S1000x128_S80x128
        (View.read (Elt F) ((shV).slice (Rect.unit (s := S1000x128) ![0, 0] S1000x128.size inb_S1000x128_S1000x128_0_0) (fun _ => rfl)).view (embSh m d (cV L)))
        (SparseCore.rows (View.read (Elt F) (idxRowK k).view (fIdx tk d L f1)) rfl hin) (ix2 r e)
      = m (embLoc d) (ix2 (n0 := 1000) (n1 := 128)
          ⟨(tk d (ix3 (n0 := 32) (n1 := 20) (n2 := 80) ⟨rowL L, rowL_lt L⟩ ⟨k.val, trip_lt k⟩ r)).toNat, htk d _⟩ e) := by
  unfold SparseCore.gatherPayload
  rw [View.read_apply, shSrc_emb]
  show m (embLoc d) _ = _
  congr 1
  funext a
  apply Fin.ext
  match a with
  | ⟨0, _⟩ =>
    show (gathers_S1000x128_S80x128.idx _ (ix2 r e) gathers_S1000x128_S80x128.axis).val = _
    rw [Shape.Gathers.idx_axis]
    exact rows_val tk d L f1 k hin r
  | ⟨1, h1⟩ =>
    exact Shape.Gathers.idx_of_ne gathers_S1000x128_S80x128 _ (ix2 r e) ⟨1, h1⟩ Nat.one_ne_zero

/-- What one whole-shape write through a view leaves under the view's own index. -/
theorem writes_whole_emb {sig : RefSig} {κ : Kind} {sp : Space} {s : Shape} {e : EltTy} {Val : EltTy → Type}
    (v : View sig κ sp s e) (f : v.ty.Contents Val) (w : (Rect.whole s).shape.Idx → Val e) (x : s.Idx) :
    v.writes Val f [⟨Rect.whole s, w⟩] (v.emb x) = _root_.cast (congrArg Val v.elt_eq.symm) (w x) := by
  have h := View.write_emb_of_mem (v := v.slice (Rect.whole s)) f w (M := Finset.univ) (x := x) (Finset.mem_univ x)
  rw [View.emb_slice, Function.Embedding.trans_apply, Rect.emb_whole_apply] at h
  exact h

/-- A view written whole reads back the payload. -/
theorem read_writes_whole {sig : RefSig} {κ : Kind} {sp : Space} {s : Shape} {e : EltTy} {Val : EltTy → Type}
    (v : View sig κ sp s e) (f : v.ty.Contents Val) (w : (Rect.whole s).shape.Idx → Val e) (x : s.Idx) :
    v.read Val (v.writes Val f [⟨Rect.whole s, w⟩]) x = w x := by
  have h := View.read_writes_cons_emb v f (Rect.whole s) w [] x
  rwa [Rect.emb_whole_apply] at h

/-- Block `k` as the trip leaves it — the gather's payload written to the row scratch, read back and written to the
    block — is the call's result on the block's elements. -/
theorem out_val (htk : TokOK tk) (f1 : Buf (Elt F) ((thrL d L).loc cc0_scratch0)) (g2 : Buf (Elt F) ((thrL d L).loc cc0_scratch1))
    (k : Fin k0_t1_loop.trips)
    (hin : ∀ x, ((idxRowK k).view.read (Elt F) (fIdx tk d L f1) x).toNat < S1000x128.size gathers_S1000x128_S80x128.axis) :
    ∀ i ∈ (outBlkK L k).view.set,
      ((outBlkK L k).view.writes (Elt F) (m (outLoc d))
        [⟨Rect.whole S80x128, ReadAs.same.apply (View.read (Elt F) (sR).view ((sR).view.writes (Elt F) g2
          [⟨Rect.whole cc0_scratch1.ty.shape,
            SparseCore.gatherPayload gathers_S1000x128_S80x128
              (View.read (Elt F) ((shV).slice (Rect.unit (s := S1000x128) ![0, 0] S1000x128.size inb_S1000x128_S1000x128_0_0) (fun _ => rfl)).view (embSh m d (cV L)))
              (SparseCore.rows (View.read (Elt F) (idxRowK k).view (fIdx tk d L f1)) rfl hin)⟩]))⟩]) i
      = outSpec m tk d i := by
  intro i hi
  obtain ⟨y, -, rfl⟩ := Finset.mem_map.mp hi
  obtain ⟨r, e, rfl⟩ : ∃ (r : Fin 80) (e : Fin 128), y = ix2 r e := ⟨y 0, y 1, eq_ix2 y⟩
  refine (writes_whole_emb _ _ _ _).trans ?_
  refine (read_writes_whole (sR).view g2 _ (ix2 r e)).trans ?_
  refine (payload_val m tk d L htk f1 k hin r e).trans ?_
  rw [outBlkK_emb]
  show _ = m (embLoc d) (ix2 (n0 := 1000) (n1 := 128)
    (Cert.Spec.rowOf (tk d (ix3 (n0 := 32) (n1 := 20) (n2 := 80) ⟨rowL L, rowL_lt L⟩ ⟨k.val, trip_lt k⟩ r))) e)
  refine congrArg (m (embLoc d)) ?_
  funext a
  apply Fin.ext
  match a with
  | ⟨0, _⟩ => exact (Cert.Spec.rowOf_val (htk d _)).symm
  | ⟨1, _⟩ => rfl

end Cert.Proof.KB

end
-- ==== Proof.KBTile.lean ====
/-
  One tile's task, from the barrier to its end.

  Before the barrier the tile has fetched its row of token words into its index scratch. At the barrier it pays its
  duty of every tile's round — tile 0's duties each carry a read token of the shared table — and, leaving, takes
  the read token tile 0 handed it. Then twenty times: the eighty words of chunk k name eighty rows of the table (each
  word below 1000), the indirect gather brings those rows from the shared memory into the row scratch, and the row
  scratch is written to block k of the tile's row of the result; so block k ends at the looked-up rows, and the loop's
  invariant is "the blocks before k are done".
-/
import proofs.«211305_g76828374991638_cont_9to1_m_1055_18_alg».proof.Proof.KBTileVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.Kernel.main_v1_scv : Memref Cert.Kernel.sig Kind.scVector Space.hbm Cert.Kernel.S32x20x80 EltTy.i32)
local notation "embV" => (Memref.whole Cert.Kernel.main_arg1_scv : Memref Cert.Kernel.sig Kind.scVector Space.hbm Cert.Kernel.S1000x128 EltTy.f32)
local notation "outV" => (Memref.whole Cert.Kernel.main_v2_scv : Memref Cert.Kernel.sig Kind.scVector Space.hbm Cert.Kernel.S32x20x80x128 EltTy.f32)
local notation "sI" => (Memref.whole Cert.Kernel.cc0_scratch0 : Memref Cert.Kernel.sig Kind.scVector Space.vmem Cert.Kernel.S20x80 EltTy.i32)
local notation "sR" => (Memref.whole Cert.Kernel.cc0_scratch1 : Memref Cert.Kernel.sig Kind.scVector Space.vmem Cert.Kernel.S80x128 EltTy.f32)
local notation "shV" => (Memref.whole Cert.Kernel.cc0_scratch2 : Memref Cert.Kernel.sig Kind.scVector Space.shared Cert.Kernel.S1000x128 EltTy.f32)

variable (m : (ℓ : Loc nD τ sig) → Buf (Elt F) ℓ) (tk : (d : Dev nD) → Buf (Elt F) (tokLoc d))
variable (d : Dev nD) (L : grid0.Coords)

variable [FloatOps F]

/-- What the barrier hands over for tile `L` in the round of tile `j` of its SparseCore, with the duty's token and the
    round reached. -/
abbrev arrive (d : Dev nD) (L : grid0.Coords) (j : Fin (grid0.bound 1)) : sProp 𝕄 :=
  iprop(dutyTok EB (bcell d (cV L) (j.castLE hsub0)) 0 (jV L).val
    ∗ (bRd (F := F) m).payload (bcell d (cV L) (j.castLE hsub0)) 0 (jV L).val ∗ reached EB (bcell d (cV L) (j.castLE hsub0)) 0)

/-- What a tile takes out of its own round when it leaves the barrier: tile 0's duty carried the tile's read token of the
    shared table. -/
theorem barrier_take (d : Dev nD) (L : grid0.Coords) :
    (bigSep ((bRd (F := F) m).duties (bcell d (cV L) (jV L)) 0 \ ∅) fun n => (bRd (F := F) m).payload (bcell d (cV L) (jV L)) 0 n : sProp 𝕄)
      ⊢ shLoc d (cV L) ↦{shTok (jV L).val} embSh m d (cV L) := by
  rw [Finset.sdiff_empty, bRd_duties₀ m d (cV L) (jV L),
    SparseCore.bigSep_erase' (Finset.mem_image_of_mem Fin.val (Finset.mem_univ (⟨0, by decide⟩ : Fin τ.nSub)))]
  exact sep_elim_left.trans (Entails.of_eq (bRd_payload_zero m d (cV L) (jV L)))

/-- The tile's result blocks with the first `n` at the looked-up rows and the others as the launch left them. -/
abbrev blocksAt (d : Dev nD) (L : grid0.Coords) (n : ℕ) : sProp 𝕄 :=
  bigSep Finset.univ fun k : Fin k0_t1_loop.trips =>
    outLoc d ↦[(outBlkK L k).view.set]{fullShare} (if k.val < n then outSpec m tk d else m (outLoc d))

/-- Block `k` out of the family before trip `k`: still as the launch left it. -/
theorem blocks_split (k : Fin k0_t1_loop.trips) :
    blocksAt m tk d L k.val = iprop((outLoc d ↦[(outBlkK L k).view.set]{fullShare} m (outLoc d))
      ∗ bigSep (Finset.univ.erase k) fun j : Fin k0_t1_loop.trips =>
          outLoc d ↦[(outBlkK L j).view.set]{fullShare} (if j.val < k.val then outSpec m tk d else m (outLoc d))) := by
  unfold blocksAt
  rw [SparseCore.bigSep_erase' (Finset.mem_univ k), if_neg (lt_irrefl _)]

/-- Block `k` back into the family after trip `k`: at the looked-up rows. -/
theorem blocks_join (k : Fin k0_t1_loop.trips) :
    iprop((outLoc d ↦[(outBlkK L k).view.set]{fullShare} outSpec m tk d)
      ∗ bigSep (Finset.univ.erase k) fun j : Fin k0_t1_loop.trips =>
          outLoc d ↦[(outBlkK L j).view.set]{fullShare} (if j.val < k.val then outSpec m tk d else m (outLoc d)))
      = blocksAt m tk d L (k.val + 1) := by
  unfold blocksAt
  rw [SparseCore.bigSep_erase' (Finset.mem_univ k), if_pos (Nat.lt_succ_self _)]
  congr 1
  refine bigSep_congr fun j hj => ?_
  have hne : j.val ≠ k.val := fun e => (Finset.mem_erase.mp hj).1 (Fin.ext e)
  by_cases h : j.val < k.val
  · rw [if_pos h, if_pos (Nat.lt_succ_of_lt h)]
  · rw [if_neg h, if_neg (by omega)]

/-- The loop's invariant before trip `n`: the read token of the shared table, the fetched token words, the row scratch
    at some contents, the blocks before `n` done, both semaphores at zero, and the tile owing `O`. -/
def inv (O : CellTallies nD τ sig (HIx 1)) (W : Waits sig (HIx 1)) (f1 : Buf (Elt F) ((thrL d L).loc cc0_scratch0))
    (n : ℕ) (_ : PUnit) : sProp 𝕄 :=
  iprop(Transfers.MayWaits (thrL d L) (none : HIx 1) O
    ∗ ((shV).view.loc (thrL d L) ↦{shTok (jV L).val} embSh m d (cV L))
    ∗ ((sI).view.loc (thrL d L) ↦{fullShare} fIdx tk d L f1)
    ∗ (∃ f2, (sR).view.loc (thrL d L) ↦{fullShare} f2)
    ∗ blocksAt m tk d L n
    ∗ semVal (thrL d L, SemLoc.dma cc0_scratch3.sem) 0
    ∗ semVal (thrL d L, SemLoc.dma cc0_scoped2.sem) 0
    ∗ ∃ W', ⌜∀ p ∈ W', p ∈ W ∨ p.2 = none ∨ p.2 = some (0 : Fin 1)⌝ ∗ owes (thrL d L) O W')

set_option maxHeartbeats 4000000 in
/-- From the barrier to the task's end, for any continuation's post `Q`. -/
theorem tile_rest (htk : TokOK tk) (O : CellTallies nD τ sig (HIx 1)) (W : Waits sig (HIx 1)) (hO : ∀ g, O g none = 0)
    (hOlev : ∀ g ι, 0 < O g ι → 8 * (0 : Fin 1).val + 6 ≤ (K (F := F)).lev g ι)
    (κ : GSem nD τ sig → ℕ) (f1 : Buf (Elt F) ((thrL d L).loc cc0_scratch0)) (Q : PUnit → sProp 𝕄) :
    iprop(levAts (K (F := F)).L (K (F := F)).lev
        ∗ (bigSep Finset.univ fun j : Fin (grid0.bound 1) => cellInv EB (bRd (F := F) m) (κ (bcell d (cV L) (j.castLE hsub0))) (bcell d (cV L) (j.castLE hsub0)))
        ∗ (bigSep Finset.univ fun j : Fin (grid0.bound 1) => arrive m d L j)
        ∗ atPos EB (bcell d (cV L) (jV L)) 0 ∅ 0
        ∗ cred (tallyAt (bcell d (cV L) (jV L)) (some 0) (grid0.bound 1))
        ∗ blocksAt m tk d L 0
        ∗ ((thrL d L).loc cc0_scratch0 ↦{fullShare} fIdx tk d L f1)
        ∗ (∃ f2, (thrL d L).loc cc0_scratch1 ↦{fullShare} f2)
        ∗ semVal (thrL d L, SemLoc.dma cc0_scratch3.sem) 0
        ∗ semVal (thrL d L, SemLoc.dma cc0_scoped2.sem) 0
        ∗ owes (thrL d L) (O + oxV d (cV L)) W
        ∗ (iprop(blocksAt m tk d L k0_t1_loop.trips
              ∗ (shLoc d (cV L) ↦{shTok (jV L).val} embSh m d (cV L))
              ∗ ((thrL d L).loc cc0_scratch0 ↦{fullShare} fIdx tk d L f1)
              ∗ (∃ f2, (thrL d L).loc cc0_scratch1 ↦{fullShare} f2)
              ∗ semVal (thrL d L, SemLoc.dma cc0_scratch3.sem) 0
              ∗ semVal (thrL d L, SemLoc.dma cc0_scoped2.sem) 0
              ∗ ∃ W', ⌜∀ p ∈ W', p ∈ W ∨ p.2 = none ∨ p.2 = some (0 : Fin 1)⌝ ∗ owes (thrL d L) O W') -∗ Q ⟨⟩))
      ⊢ wp frame (wpE (defs₀ (F := F)) 𝒱₀ (thrL d L) none) Set.univ
          (do
            SparseCore.subcoreBarrier sc_bar0 (grid0.bound 1) hsub0
            Scf.Loop.for k0_t1_loop k0_t1_ok ⟨⟩ (k0_t1_body L tokV (Memref.isWhole_whole _) embV (Memref.isWhole_whole _) outV (Memref.isWhole_whole _) sI (Memref.isWhole_whole _) sR (Memref.isWhole_whole _) shV (Memref.isWhole_whole _) cc0_scratch3 cc0_scoped0 cc0_scoped1 cc0_scoped2)
            pure ⟨⟩) Q := by
  iintro ⟨#Hlv, #Hinv, Htoks, Hat, Hcred, Hblk, HsI, ⟨%f2, HsR⟩, Hs3, Hs2, HO, HQ⟩
  ihave Hmw := (show levAts (K (F := F)).L (K (F := F)).lev ⊢ Transfers.MayWaits (thrL d L) (default : HIx 1) O from
    (K (F := F)).mayWaits_none (thr := thrL d L) hO) $$ Hlv
  have eI : ((thrL d L).loc cc0_scratch0 ↦{fullShare} fIdx tk d L f1 : sProp 𝕄) = ((sI).view.loc (thrL d L) ↦{fullShare} fIdx tk d L f1) := rfl
  have eR : ((thrL d L).loc cc0_scratch1 ↦{fullShare} f2 : sProp 𝕄) = ((sR).view.loc (thrL d L) ↦{fullShare} f2) := rfl
  ihave HsI' := (Entails.of_eq eI) $$ HsI
  ihave HsR' := (Entails.of_eq eR) $$ HsR
  -- the barrier: the tile pays its duty of every round and waits for its own
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := thrL d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, -, -, Hpay⟩
  -- what crossed the barrier: tile 0's duty carried the read token
  ihave Hsh := (barrier_take m d L) $$ Hpay
  have eS : (shLoc d (cV L) ↦{shTok (jV L).val} embSh m d (cV L) : sProp 𝕄) = ((shV).view.loc (thrL d L) ↦{shTok (jV L).val} embSh m d (cV L)) := rfl
  ihave Hsh' := (Entails.of_eq eS) $$ Hsh
  sl_for (inv m tk d L O W f1) $$ [Hmw Hsh' HsI' HsR' Hblk Hs3 Hs2 HO]
  case region =>
    intro k _
    unfold inv
    iintro ⟨Hmw, Hsh, HsI, ⟨%g2, HsR⟩, Hblk, Hs3, Hs2, %W', %hW', HO⟩
    have hin := idx_inb tk d L htk f1 k
    ihave Hb := (Entails.of_eq (blocks_split m tk d L k)) $$ Hblk
    icases Hb with ⟨Hk, Hrest⟩
    have eK : (outLoc d ↦[(outBlkK L k).view.set]{fullShare} m (outLoc d) : sProp 𝕄)
        = ((outBlkK L k).view.loc (thrL d L) ↦[(outBlkK L k).view.set]{fullShare} m (outLoc d)) := rfl
    ihave Hk' := (Entails.of_eq eK) $$ Hk
    sl_exec
    ihave Hk'' := (Entails.of_eq (pointsTo_congr (out_val m tk d L htk f1 g2 k hin))) $$ Hk'
    sl_step
    isplitl [Hmw]; · iexact Hmw
    isplitl [Hsh]; · iexact Hsh
    isplitl [HsI]; · iexact HsI
    isplitl [HsR]; · iexists _; iexact HsR
    isplitl [Hk'' Hrest]
    · iapply (Entails.of_eq (blocks_join m tk d L k))
      isplitl [Hk'']; · iexact Hk''
      iexact Hrest
    isplitl [Hs3]; · iexact Hs3
    isplitl [Hs2]; · iexact Hs2
    iexists _; isplitr
    swap; · iexact HO
    ipureintro; intro p hp
    rcases Finset.mem_insert.mp hp with hp | hp; · exact .inr (.inl (by rw [hp]; rfl))
    rcases Finset.mem_insert.mp hp with hp | hp; · exact .inr (.inl (by rw [hp]; rfl))
    exact hW' p hp
  · unfold inv
    isplitl [Hmw]; · iexact Hmw
    isplitl [Hsh']; · iexact Hsh'
    isplitl [HsI']; · iexact HsI'
    isplitl [HsR']; · iexists _; iexact HsR'
    isplitl [Hblk]; · iexact Hblk
    isplitl [Hs3]; · iexact Hs3
    isplitl [Hs2]; · iexact Hs2
    iexists _; isplitr
    swap; · iexact HO
    ipureintro; intro p hp
    rcases Finset.mem_insert.mp hp with hp | hp; · exact .inr (.inr (by rw [hp]))
    exact .inl hp
  iintro %_ HI
  unfold inv
  icases HI with ⟨-, Hsh, HsI, HsR, Hblk, Hs3, Hs2, HW⟩
  sl_exec
  sl_step
  iapply HQ
  isplitl [Hblk]; · iexact Hblk
  isplitl [Hsh]; · iexact Hsh
  isplitl [HsI]; · iexact HsI
  isplitl [HsR]; · iexact HsR
  isplitl [Hs3]; · iexact Hs3
  isplitl [Hs2]; · iexact Hs2
  iexact HW

end Cert.Proof.KB

end
-- ==== Proof.KBTileBody.lean ====
/-
  One tile's whole task, and the launch theorem's obligation for the gather kernel.

  Tile 0 of a SparseCore first copies the embedding table into the shared memory and waits for the copy; every tile
  fetches its row of token words. Tile 0 then splits the shared memory's full share into sixteen read tokens and what
  is left, and its arrival at the barrier hands each tile its token; the other tiles arrive handing over nothing. From
  the barrier on, the task is `tile_rest`.
-/
import proofs.«211305_g76828374991638_cont_9to1_m_1055_18_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.Kernel.main_v1_scv : Memref Cert.Kernel.sig Kind.scVector Space.hbm Cert.Kernel.S32x20x80 EltTy.i32)
local notation "embV" => (Memref.whole Cert.Kernel.main_arg1_scv : Memref Cert.Kernel.sig Kind.scVector Space.hbm Cert.Kernel.S1000x128 EltTy.f32)
local notation "outV" => (Memref.whole Cert.Kernel.main_v2_scv : Memref Cert.Kernel.sig Kind.scVector Space.hbm Cert.Kernel.S32x20x80x128 EltTy.f32)
local notation "sI" => (Memref.whole Cert.Kernel.cc0_scratch0 : Memref Cert.Kernel.sig Kind.scVector Space.vmem Cert.Kernel.S20x80 EltTy.i32)
local notation "sR" => (Memref.whole Cert.Kernel.cc0_scratch1 : Memref Cert.Kernel.sig Kind.scVector Space.vmem Cert.Kernel.S80x128 EltTy.f32)
local notation "shV" => (Memref.whole Cert.Kernel.cc0_scratch2 : Memref Cert.Kernel.sig Kind.scVector Space.shared Cert.Kernel.S1000x128 EltTy.f32)

variable (m : (ℓ : Loc nD τ sig) → Buf (Elt F) ℓ) (tk : (d : Dev nD) → Buf (Elt F) (tokLoc d))
variable (d : Dev nD) (L : grid0.Coords)
variable [FloatOps F]

/-! ## The tile's own semaphores and buffers -/

abbrev c3cell (d : Dev nD) (L : grid0.Coords) : GSem nD τ sig := (thrL d L, .dma cc0_scratch3.sem)
abbrev c0cell (d : Dev nD) (L : grid0.Coords) : GSem nD τ sig := (thrL d L, .dma cc0_scoped0.sem)
abbrev c1cell (d : Dev nD) (L : grid0.Coords) : GSem nD τ sig := (thrL d L, .dma cc0_scoped1.sem)
abbrev c2cell (d : Dev nD) (L : grid0.Coords) : GSem nD τ sig := (thrL d L, .dma cc0_scoped2.sem)

omit [FloatOps F] in
/-- The tile's four DMA semaphores among its own, each at zero, and the rest. -/
theorem ownSems0_V :
    (ownSems0 (thrL d L) : sProp 𝕄)
      = iprop(semVal (c3cell d L) 0 ∗ semVal (c0cell d L) 0 ∗ semVal (c1cell d L) 0 ∗ semVal (c2cell d L) 0
          ∗ bigSep (((((ownCells (thrL d L)).erase (c3cell d L)).erase (c0cell d L)).erase (c1cell d L)).erase (c2cell d L)) fun g => semVal g 0) := by
  unfold SparseCore.Cfg.ownSems0
  have h3 : c3cell d L ∈ ownCells (thrL d L) := (mem_ownCells (g := c3cell d L)).mpr ⟨rfl, by
    show (SemLoc.dma cc0_scratch3.sem : SemLoc sig).isScoped .scVector = true; decide⟩
  have h0 : c0cell d L ∈ (ownCells (thrL d L)).erase (c3cell d L) := Finset.mem_erase.mpr ⟨by simp [c0cell, c3cell]; decide,
    (mem_ownCells (g := c0cell d L)).mpr ⟨rfl, by show (SemLoc.dma cc0_scoped0.sem : SemLoc sig).isScoped .scVector = true; decide⟩⟩
  have h1 : c1cell d L ∈ ((ownCells (thrL d L)).erase (c3cell d L)).erase (c0cell d L) :=
    Finset.mem_erase.mpr ⟨by simp [c1cell, c0cell]; decide, Finset.mem_erase.mpr ⟨by simp [c1cell, c3cell]; decide,
      (mem_ownCells (g := c1cell d L)).mpr ⟨rfl, by show (SemLoc.dma cc0_scoped1.sem : SemLoc sig).isScoped .scVector = true; decide⟩⟩⟩
  have h2 : c2cell d L ∈ (((ownCells (thrL d L)).erase (c3cell d L)).erase (c0cell d L)).erase (c1cell d L) :=
    Finset.mem_erase.mpr ⟨by simp [c2cell, c1cell]; decide, Finset.mem_erase.mpr ⟨by simp [c2cell, c0cell]; decide, Finset.mem_erase.mpr ⟨by simp [c2cell, c3cell]; decide,
      (mem_ownCells (g := c2cell d L)).mpr ⟨rfl, by show (SemLoc.dma cc0_scoped2.sem : SemLoc sig).isScoped .scVector = true; decide⟩⟩⟩⟩
  rw [SparseCore.bigSep_erase' h3, SparseCore.bigSep_erase' h0, SparseCore.bigSep_erase' h1, SparseCore.bigSep_erase' h2]

abbrev r0 (L : grid0.Coords) : DevRef τ sig := (Proc.scVector (cV L) (jV L)).devRef cc0_scratch0
abbrev r1 (L : grid0.Coords) : DevRef τ sig := (Proc.scVector (cV L) (jV L)).devRef cc0_scratch1

omit [FloatOps F] in
/-- The tile's two scratch buffers among its own, each at some contents, and the rest. -/
theorem ownBufs_V :
    (ownBufs (thrL d L) : sProp 𝕄)
      = iprop((∃ f, (thrL d L).loc cc0_scratch0 ↦{fullShare} f) ∗ (∃ f, (thrL d L).loc cc0_scratch1 ↦{fullShare} f)
          ∗ bigSep (((ownRefs (τ := τ) (.scVector (cV L) (jV L))).erase (r0 L)).erase (r1 L))
              fun b => iprop(∃ f, ((d, b) : Loc nD τ sig) ↦{fullShare} f)) := by
  unfold SparseCore.Cfg.ownBufs
  have h0 : r0 L ∈ ownRefs (τ := τ) (sig := sig) (.scVector (cV L) (jV L)) := SparseCore.Cfg.mem_ownRefs_of_owner (p := Proc.scVector (cV L) (jV L)) (b := r0 L) rfl
  have h1 : r1 L ∈ (ownRefs (τ := τ) (sig := sig) (.scVector (cV L) (jV L))).erase (r0 L) :=
    Finset.mem_erase.mpr ⟨by simp [r0, r1], SparseCore.Cfg.mem_ownRefs_of_owner (p := Proc.scVector (cV L) (jV L)) (b := r1 L) rfl⟩
  rw [SparseCore.bigSep_erase' h0, SparseCore.bigSep_erase' h1]

/-! ## The blocks family at the loop's ends, and what a tile presents at the barrier -/

/-- Before the first trip no block is done. -/
theorem blocks_none :
    blocksAt m tk d L 0 = bigSep Finset.univ fun k : Fin k0_t1_loop.trips => outLoc d ↦[(outBlkK L k).view.set]{fullShare} m (outLoc d) := by
  unfold blocksAt; exact bigSep_congr fun k _ => by rw [if_neg (Nat.not_lt_zero _)]

/-- After the last trip every block is done. -/
theorem blocks_done :
    blocksAt m tk d L k0_t1_loop.trips = bigSep Finset.univ fun k : Fin k0_t1_loop.trips => outLoc d ↦[(outBlkK L k).view.set]{fullShare} outSpec m tk d := by
  unfold blocksAt; exact bigSep_congr fun k _ => by rw [if_pos k.isLt]

/-- A tile other than tile 0 arrives handing over nothing. -/
theorem arrive_plain (hs : (jV L).val ≠ 0) :
    iprop((bigSep Finset.univ fun j : Fin (grid0.bound 1) => dutyTok EB (bcell d (cV L) (j.castLE hsub0)) 0 (jV L).val)
        ∗ (bigSep Finset.univ fun j : Fin (grid0.bound 1) => reached EB (bcell d (cV L) (j.castLE hsub0)) 0))
      ⊢ (bigSep Finset.univ fun j : Fin (grid0.bound 1) => arrive m d L j : sProp 𝕄) := by
  rw [← bigSep_sep']
  refine bigSep_mono fun j _ => ?_
  show _ ⊢ iprop(_ ∗ (bRd (F := F) m).payload (bcell d (cV L) (j.castLE hsub0)) 0 (jV L).val ∗ _)
  rw [bRd_payload_pos m d (cV L) (j.castLE hsub0) hs]
  iintro ⟨A, B⟩
  isplitl [A]; · iexact A
  isplitr; · iempintro
  iexact B

/-- Tile 0 arrives handing every tile of its SparseCore its read token of the shared table. -/
theorem arrive_lead (hs : (jV L).val = 0) :
    iprop((bigSep Finset.univ fun j : Fin (grid0.bound 1) => dutyTok EB (bcell d (cV L) (j.castLE hsub0)) 0 (jV L).val)
        ∗ (bigSep Finset.univ fun j : Fin (grid0.bound 1) => reached EB (bcell d (cV L) (j.castLE hsub0)) 0)
        ∗ (bigSep Finset.univ fun j : Fin (grid0.bound 1) => shLoc d (cV L) ↦{shTok j.val} embSh m d (cV L)))
      ⊢ (bigSep Finset.univ fun j : Fin (grid0.bound 1) => arrive m d L j : sProp 𝕄) := by
  rw [← bigSep_sep', ← bigSep_sep']
  refine bigSep_mono fun j _ => ?_
  show _ ⊢ iprop(_ ∗ (bRd (F := F) m).payload (bcell d (cV L) (j.castLE hsub0)) 0 (jV L).val ∗ _)
  rw [hs, bRd_payload_zero m d (cV L) (j.castLE hsub0)]
  iintro ⟨A, B, C⟩
  isplitl [A]; · iexact A
  isplitl [C]; · iexact C
  iexact B

/-! ## The task -/

omit [FloatOps F] in
/-- Off tile 0 the kernel's first branch is not taken. -/
theorem cond_ne : ∀ v : Fin 16, v.val ≠ 0 →
    ¬ (Scalar.cmpi .ne (Scalar.extui (Scalar.cmpi .eq (BitVec.ofNat 32 v.val) 0#32)) 0#32 = 1#1) := by decide

set_option maxHeartbeats 4000000 in
/-- The task of the tile at grid coordinates `L` of device `d`. -/
theorem tile_body (hF : (K (F := F)).Facts) (htk : TokOK tk) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileArr tk d L (m (outLoc d)) ∗ (if (jV L).val = 0 then lead₀ m d (cV L) else iprop(emp)))
        ∗ scopedBufs (thrL d L) ∗ scopedSems0 (thrL d L) ∗ owes (thrL d L) (O + oxV d (cV L)) W)
      ⊢ wp frame (wpE (defs₀ (F := F)) 𝒱₀ (thrL d L) none) Set.univ
          (cc0_gather L tokV (Memref.isWhole_whole _) embV (Memref.isWhole_whole _) outV (Memref.isWhole_whole _) sI (Memref.isWhole_whole _) sR (Memref.isWhole_whole _) shV (Memref.isWhole_whole _) cc0_scratch3 cc0_scoped0 cc0_scoped1 cc0_scoped2)
          fun _ => iprop((tileArr tk d L (outSpec m tk d) ∗ (shLoc d (cV L) ↦{shTok (jV L).val} embSh m d (cV L))
              ∗ (if (jV L).val = 0 then lead₁ m d (cV L) else iprop(emp)))
            ∗ scopedBufs (thrL d L) ∗ scopedSems0 (thrL d L)
            ∗ ∃ W', ⌜∀ p ∈ W', p ∈ W ∨ p.2 = none ∨ p.2 = some (0 : Fin 1)⌝ ∗ owes (thrL d L) O W') := by
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  unfold bkit tileArr
  have hO' : ∀ g, (O + oxV d (cV L)) g none = 0 := fun g => by rw [Pi.add_apply, Finsupp.add_apply, hO g, oxV_none]
  by_cases hs : (jV L).val = 0
  · -- tile 0: the table's copy first
    have k0_h1 : Scalar.cmpi .ne (Scalar.extui (Scalar.cmpi .eq (BitVec.ofNat 32 (L 1).val) 0#32)) 0#32 = 1#1 := by
      rw [show (L 1).val = 0 from hs]; decide
    rw [if_pos hs, if_pos hs]; unfold lead₀ lead₁
    iintro ⟨#Hlv, ⟨⟨%κ, #Hinv⟩, Htoks, #Hreach, Hat, Hcred⟩, ⟨⟨Htok, Hblk⟩, ⟨Hemb, %fs, Hsh⟩⟩, ⟨⟨%f1, HsI⟩, ⟨%f2, HsR⟩, Hbufs⟩, ⟨Hs3, Hs0, Hs1, Hs2, Hsems⟩, HO⟩
    ihave Hmw1 := (show levAts (K (F := F)).L (K (F := F)).lev ⊢ Transfers.MayWaits (thrL d L) (default : HIx 1) (O + oxV d (cV L)) from
      (K (F := F)).mayWaits_none (thr := thrL d L) hO') $$ Hlv
    have e1 : (tokLoc d ↦[(tokRowK L).view.set]{fullShare} tk d : sProp 𝕄) = ((tokRowK L).view.loc (thrL d L) ↦[(tokRowK L).view.set]{fullShare} tk d) := rfl
    have e2 : (embLoc d ↦{embTok (cV L).val} m (embLoc d) : sProp 𝕄) = ((embV).view.loc (thrL d L) ↦{embTok (cV L).val} m (embLoc d)) := rfl
    have e3 : (shLoc d (cV L) ↦{fullShare} fs : sProp 𝕄) = ((shV).view.loc (thrL d L) ↦{fullShare} fs) := rfl
    have e4 : ((thrL d L).loc cc0_scratch0 ↦{fullShare} f1 : sProp 𝕄) = ((sI).view.loc (thrL d L) ↦{fullShare} f1) := rfl
    have e5 : ((thrL d L).loc cc0_scratch1 ↦{fullShare} f2 : sProp 𝕄) = ((sR).view.loc (thrL d L) ↦{fullShare} f2) := rfl
    ihave Htok' := (Entails.of_eq e1) $$ Htok
    ihave Hemb' := (Entails.of_eq e2) $$ Hemb
    ihave Hsh' := (Entails.of_eq e3) $$ Hsh
    ihave HsI' := (Entails.of_eq e4) $$ HsI
    ihave HsR' := (Entails.of_eq e5) $$ HsR
    sl_exec
    -- the shared memory holds the table; its full share is sixteen read tokens and a rest
    have eW : View.write (Elt F) (shV).view fs (tile_body.sl.dma0 m d) Finset.univ = embSh m d (cV L) :=
      View.write_whole_univ _ _ _
    ihave Hsh2 := (Entails.of_eq (pointsTo_congr (ℓ := (shV).view.loc (thrL d L)) (I := Finset.univ) (q := fullShare) (fun i _ => congrFun eW i))) $$ Hsh'
    have e3' : (((shV).view.loc (thrL d L)) ↦{fullShare} embSh m d (cV L) : sProp 𝕄) = (shLoc d (cV L) ↦{fullShare} embSh m d (cV L)) := rfl
    ihave Hsh3 := (Entails.of_eq e3') $$ Hsh2
    ihave Hparts := (Transfers.pointsTo_toks_split (ℓ := shLoc d (cV L)) (S := Finset.univ) (f := embSh m d (cV L)) fullShare 16) $$ Hsh3
    icases Hparts with ⟨Hrest, Htokens⟩
    iapply (tile_rest m tk d L htk O _ hO hOlev κ f1 _)
    isplitr; · iexact Hlv
    isplitr; · iexact Hinv
    isplitl [Htoks Htokens]
    · iapply (arrive_lead m d L hs)
      isplitl [Htoks]; · iexact Htoks
      isplitr; · iexact Hreach
      iexact Htokens
    isplitl [Hat]; · iexact Hat
    isplitl [Hcred]; · iexact Hcred
    isplitl [Hblk]; · iapply (Entails.of_eq (blocks_none m tk d L).symm); iexact Hblk
    isplitl [HsI']; · iexact HsI'
    isplitl [HsR']; · iexists _; iexact HsR'
    isplitl [Hs3]; · iexact Hs3
    isplitl [Hs2]; · iexact Hs2
    isplitl [HO]; · iexact HO
    iintro ⟨Hblk, Hsh, HsI, HsR, Hs3, Hs2, %W', %hW', HO⟩
    isplitl [Htok' Hblk Hsh Hemb' Hrest]
    · isplitl [Htok' Hblk]
      · isplitl [Htok']; · iexact Htok'
        iapply (Entails.of_eq (blocks_done m tk d L)); iexact Hblk
      isplitl [Hsh]; · iexact Hsh
      isplitl [Hemb']; · iexact Hemb'
      iexact Hrest
    isplitl [HsI HsR Hbufs]
    · isplitl [HsI]; · iexists _; iexact HsI
      isplitl [HsR]; · iexact HsR
      iexact Hbufs
    isplitl [Hs3 Hs0 Hs1 Hs2 Hsems]
    · isplitl [Hs3]; · iexact Hs3
      isplitl [Hs0]; · iexact Hs0
      isplitl [Hs1]; · iexact Hs1
      isplitl [Hs2]; · iexact Hs2
      iexact Hsems
    iexists W'; isplitr
    swap; · iexact HO
    ipureintro; intro p hp
    rcases hW' p hp with h | h | h
    · rcases Finset.mem_insert.mp h with h | h; · exact .inr (.inl (by rw [h]; rfl))
      rcases Finset.mem_insert.mp h with h | h; · exact .inr (.inl (by rw [h]; rfl))
      exact .inl h
    · exact .inr (.inl h)
    · exact .inr (.inr h)
  · -- the other tiles
    have k0_h1 : ¬ (Scalar.cmpi .ne (Scalar.extui (Scalar.cmpi .eq (BitVec.ofNat 32 (L 1).val) 0#32)) 0#32 = 1#1) := cond_ne (L 1) hs
    rw [if_neg hs, if_neg hs]
    iintro ⟨#Hlv, ⟨⟨%κ, #Hinv⟩, Htoks, #Hreach, Hat, Hcred⟩, ⟨⟨Htok, Hblk⟩, -⟩, ⟨⟨%f1, HsI⟩, ⟨%f2, HsR⟩, Hbufs⟩, ⟨Hs3, Hs0, Hs1, Hs2, Hsems⟩, HO⟩
    ihave Hmw1 := (show levAts (K (F := F)).L (K (F := F)).lev ⊢ Transfers.MayWaits (thrL d L) (default : HIx 1) (O + oxV d (cV L)) from
      (K (F := F)).mayWaits_none (thr := thrL d L) hO') $$ Hlv
    have e1 : (tokLoc d ↦[(tokRowK L).view.set]{fullShare} tk d : sProp 𝕄) = ((tokRowK L).view.loc (thrL d L) ↦[(tokRowK L).view.set]{fullShare} tk d) := rfl
    have e4 : ((thrL d L).loc cc0_scratch0 ↦{fullShare} f1 : sProp 𝕄) = ((sI).view.loc (thrL d L) ↦{fullShare} f1) := rfl
    have e5 : ((thrL d L).loc cc0_scratch1 ↦{fullShare} f2 : sProp 𝕄) = ((sR).view.loc (thrL d L) ↦{fullShare} f2) := rfl
    ihave Htok' := (Entails.of_eq e1) $$ Htok
    ihave HsI' := (Entails.of_eq e4) $$ HsI
    ihave HsR' := (Entails.of_eq e5) $$ HsR
    sl_exec
    iapply (tile_rest m tk d L htk O _ hO hOlev κ f1 _)
    isplitr; · iexact Hlv
    isplitr; · iexact Hinv
    isplitl [Htoks]
    · iapply (arrive_plain m d L hs)
      isplitl [Htoks]; · iexact Htoks
      iexact Hreach
    isplitl [Hat]; · iexact Hat
    isplitl [Hcred]; · iexact Hcred
    isplitl [Hblk]; · iapply (Entails.of_eq (blocks_none m tk d L).symm); iexact Hblk
    isplitl [HsI']; · iexact HsI'
    isplitl [HsR']; · iexists _; iexact HsR'
    isplitl [Hs3]; · iexact Hs3
    isplitl [Hs2]; · iexact Hs2
    isplitl [HO]; · iexact HO
    iintro ⟨Hblk, Hsh, HsI, HsR, Hs3, Hs2, %W', %hW', HO⟩
    isplitl [Htok' Hblk Hsh]
    · isplitl [Htok' Hblk]
      · isplitl [Htok']; · iexact Htok'
        iapply (Entails.of_eq (blocks_done m tk d L)); iexact Hblk
      isplitl [Hsh]; · iexact Hsh
      iempintro
    isplitl [HsI HsR Hbufs]
    · isplitl [HsI]; · iexists _; iexact HsI
      isplitl [HsR]; · iexact HsR
      iexact Hbufs
    isplitl [Hs3 Hs0 Hs1 Hs2 Hsems]
    · isplitl [Hs3]; · iexact Hs3
      isplitl [Hs0]; · iexact Hs0
      isplitl [Hs1]; · iexact Hs1
      isplitl [Hs2]; · iexact Hs2
      iexact Hsems
    iexists W'; isplitr
    swap; · iexact HO
    ipureintro; intro p hp
    rcases hW' p hp with h | h | h
    · rcases Finset.mem_insert.mp h with h | h; · exact .inr (.inl (by rw [h]; rfl))
      exact .inl h
    · exact .inr (.inl h)
    · exact .inr (.inr h)

end Cert.Proof.KB

end
-- ==== Proof.KBObl.lean ====
/-
  The launch theorem's two obligations for the gather kernel: the task of each tile, and how a SparseCore's operands
  split among its sixteen tasks and come back.

  A SparseCore is handed the token rows and result blocks of its sixteen tiles, a read share of the table, and holds
  its own shared memory. Tile 0's task takes the table's share and the shared memory; each task returns a read token of
  the shared memory and tile 0 what it kept: the sixteen tokens and the rest are the full share again.
-/
import proofs.«211305_g76828374991638_cont_9to1_m_1055_18_alg».proof.Proof.KBTileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tokV" => (Memref.whole Cert.Kernel.main_v1_scv : Memref Cert.Kernel.sig Kind.scVector Space.hbm Cert.Kernel.S32x20x80 EltTy.i32)
local notation "embV" => (Memref.whole Cert.Kernel.main_arg1_scv : Memref Cert.Kernel.sig Kind.scVector Space.hbm Cert.Kernel.S1000x128 EltTy.f32)
local notation "outV" => (Memref.whole Cert.Kernel.main_v2_scv : Memref Cert.Kernel.sig Kind.scVector Space.hbm Cert.Kernel.S32x20x80x128 EltTy.f32)
local notation "sI" => (Memref.whole Cert.Kernel.cc0_scratch0 : Memref Cert.Kernel.sig Kind.scVector Space.vmem Cert.Kernel.S20x80 EltTy.i32)
local notation "sR" => (Memref.whole Cert.Kernel.cc0_scratch1 : Memref Cert.Kernel.sig Kind.scVector Space.vmem Cert.Kernel.S80x128 EltTy.f32)
local notation "shV" => (Memref.whole Cert.Kernel.cc0_scratch2 : Memref Cert.Kernel.sig Kind.scVector Space.shared Cert.Kernel.S1000x128 EltTy.f32)

variable (m : (ℓ : Loc nD τ sig) → Buf (Elt F) ℓ) (tk : (d : Dev nD) → Buf (Elt F) (tokLoc d))
variable [FloatOps F]

/-! ## The task, as the launch theorem states it -/

theorem defs₀_vector (c : Fin τ.nSC) (s : Fin τ.nSub) :
    defs₀ (F := F) (.scVector c s) 0 ()
      = SparseCore.onTile hcore0 hsub0 (fun c s => cc0_gather (coordsV c s)
          tokV (Memref.isWhole_whole _) embV (Memref.isWhole_whole _) outV (Memref.isWhole_whole _) sI (Memref.isWhole_whole _) sR (Memref.isWhole_whole _) shV (Memref.isWhole_whole _)
          cc0_scratch3 cc0_scoped0 cc0_scoped1 cc0_scoped2) ⟨⟩ c s := rfl

set_option maxRecDepth 16384 in
theorem tileObl (hF : (K (F := F)).Facts) (htk : TokOK tk) : (K (F := F)).TileObl (D (F := F)) 𝒱 (P m tk) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m tk d (coordsV ⟨_, hci.1⟩ ⟨_, hci.2⟩) hF htk O W hO hOlev

/-! ## The split -/

/-- Task 0 of a SparseCore. -/
def task0 : Fin ((K (F := F)).nSub 0) := Fin.cast (nSub_zero (F := F)).symm (0 : Fin 16)

omit [FloatOps F] in
/-- A family that is `A` at task 0 and nothing elsewhere is `A`. -/
theorem lead_eq (A : sProp 𝕄) :
    (bigSep Finset.univ fun i : Fin ((K (F := F)).nSub 0) => if i.val = 0 then A else iprop(emp)) = iprop(A ∗ emp) := by
  have h : (bigSep (Finset.univ.erase (task0 (F := F))) fun i : Fin ((K (F := F)).nSub 0) => if i.val = 0 then A else iprop(emp))
      = bigSep (Finset.univ.erase (task0 (F := F))) fun _ => (iprop(emp) : sProp 𝕄) :=
    bigSep_congr fun i hi => if_neg fun h => (Finset.mem_erase.mp hi).1 (Fin.ext h)
  rw [SparseCore.bigSep_erase' (Finset.mem_univ (task0 (F := F))), if_pos (show (task0 (F := F)).val = 0 from rfl), h]
  exact congrArg (fun X : sProp 𝕄 => iprop(A ∗ X)) (bigSep_emp_const _)

theorem go_eq (d : Dev nD) (c : Fin ((K (F := F)).nCore 0)) :
    (bigSep Finset.univ fun i : Fin ((K (F := F)).nSub 0) => goV m tk d c i)
      = iprop((bigSep Finset.univ fun i : Fin ((K (F := F)).nSub 0) => tileArr tk d (Lof c i) (m (outLoc d))) ∗ (lead₀ m d ((K (F := F)).core 0 c) ∗ emp)) := by
  unfold goV; rw [bigSep_sep', lead_eq]

theorem td_eq (d : Dev nD) (c : Fin ((K (F := F)).nCore 0)) :
    (bigSep Finset.univ fun i : Fin ((K (F := F)).nSub 0) => tdV m tk d c i)
      = iprop((bigSep Finset.univ fun i : Fin ((K (F := F)).nSub 0) => tileArr tk d (Lof c i) (outSpec m tk d))
          ∗ (bigSep Finset.univ fun i : Fin ((K (F := F)).nSub 0) => shLoc d ((K (F := F)).core 0 c) ↦{shTok i.val} embSh m d ((K (F := F)).core 0 c))
          ∗ (lead₁ m d ((K (F := F)).core 0 c) ∗ emp)) := by
  unfold tdV; rw [bigSep_sep', bigSep_sep', lead_eq]

omit [FloatOps F] in
/-- The sequencer's own buffers: its SparseCore's shared memory at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m tk) 0 := by
  intro d c
  show iprop(stV m tk d c ∗ ownBufs (S d ((K (F := F)).core 0 c))) ⊢ |={Set.univ}=> iprop((bigSep Finset.univ fun i => goV m tk d c i)
      ∗ ((bigSep Finset.univ fun i => tdV m tk d c i) -∗ iprop(dnV m tk d c ∗ ownBufs (S d ((K (F := F)).core 0 c)))))
  rw [ownBufs_S, go_eq, td_eq]
  unfold stV dnV lead₀ lead₁
  iintro ⟨⟨Harr, Hemb⟩, ⟨%fs, Hsh⟩, Hrest⟩
  imodintro
  isplitl [Harr Hemb Hsh]
  · isplitl [Harr]; · iexact Harr
    isplitl [Hemb Hsh]
    · isplitl [Hemb]; · iexact Hemb
      iexists fs; iexact Hsh
    iempintro
  iintro ⟨Harr, Htoks, ⟨Hemb, Hshr⟩, -⟩
  isplitl [Harr Hemb]
  · isplitl [Harr]; · iexact Harr
    iexact Hemb
  isplitl [Htoks Hshr]
  · iexists (embSh m d ((K (F := F)).core 0 c))
    iapply (Transfers.pointsTo_toks_join (ℓ := shLoc d ((K (F := F)).core 0 c)) (S := Finset.univ) (f := embSh m d ((K (F := F)).core 0 c)) fullShare 16)
    isplitl [Hshr]; · iexact Hshr
    iexact Htoks
  iexact Hrest

end Cert.Proof.KB

end
-- ==== Proof.KBLogitsBody.lean ====
/-
  The TensorCore kernel's body at one grid point.

  The kernel writes the logits position by position: at point t its window is the plane of position t, one block of
  1000 rows of 1024 lanes staged in vector memory. The body fills the whole block with the word of −10⁹ and then stores
  the word of 1 on one row, the row an integer chain picks from t mod 8. Here: the two stores read back as ONE function
  of the block's index, whatever the buffer held before; and the body's run, at a symbolic point on a symbolic staging
  buffer, from the buffer held whole at any contents to the buffer held at that function.
-/
import proofs.«211305_g76828374991638_cont_9to1_m_1055_18_alg».proof.Proof.KBCommon

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The block a point leaves in its staging buffer

Point `i` first fills the whole staging block with the word of −10⁹ and then overwrites one row, the row
`k1_off1 i 1`, with the word of 1. Read back, the two stores are one function of the block's index. -/

/-- What point `i` leaves: 1 on the row the point selects, −10⁹ on every other row. -/
def blockT (i : grid1.Coords) : S1x1000x1024.Idx → Elt F .f32 :=
  fun y => if (y 1).val = k1_off1 i 1 then FloatOps.ofBits .f32 0x3F800000#32 else FloatOps.ofBits .f32 0xCE6E6B28#32

/-- The selected row's rectangle is exactly the indices on that row: the other two offsets are zero and the
    rectangle spans the last axis. -/
theorem mem_row (i : grid1.Coords) (y : S1x1000x1024.Idx) :
    y ∈ (Rect.unit (s := S1x1000x1024) (k1_off1 i) S1x1x1024.size (k1_off1_inb i)).set ↔ (y 1).val = k1_off1 i 1 := by
  rw [Rect.mem_set_unit]
  have h0 : k1_off1 i 0 = 0 := by rw [k1_off1_eq]; rfl
  have h2 : k1_off1 i 2 = 0 := by rw [k1_off1_eq]; rfl
  constructor
  · intro h
    have h1 : k1_off1 i 1 ≤ (y 1).val ∧ (y 1).val < k1_off1 i 1 + 1 := h 1
    omega
  · intro h a
    have hy0 : (y 0).val < 1 := (y 0).isLt
    have hy2 : (y 2).val < 1024 := (y 2).isLt
    match a with
    | ⟨0, _⟩ => show k1_off1 i 0 ≤ (y 0).val ∧ (y 0).val < k1_off1 i 0 + 1; omega
    | ⟨1, _⟩ => show k1_off1 i 1 ≤ (y 1).val ∧ (y 1).val < k1_off1 i 1 + 1; omega
    | ⟨2, _⟩ => show k1_off1 i 2 ≤ (y 2).val ∧ (y 2).val < k1_off1 i 2 + 1024; omega

/-- The first store's rectangle is the whole block. -/
theorem mem_all (y : S1x1000x1024.Idx) :
    y ∈ (Rect.unit (s := S1x1000x1024) ![0, 0, 0] S1x1000x1024.size inb_S1x1000x1024_S1x1000x1024_0_0_0).set := by
  rw [Rect.mem_set_unit]
  intro a
  have hy0 : (y 0).val < 1 := (y 0).isLt
  have hy1 : (y 1).val < 1000 := (y 1).isLt
  have hy2 : (y 2).val < 1024 := (y 2).isLt
  match a with
  | ⟨0, _⟩ => show 0 ≤ (y 0).val ∧ (y 0).val < 0 + 1; omega
  | ⟨1, _⟩ => show 0 ≤ (y 1).val ∧ (y 1).val < 0 + 1000; omega
  | ⟨2, _⟩ => show 0 ≤ (y 2).val ∧ (y 2).val < 0 + 1024; omega

/-- The two stores, read back through the staging memref, are `blockT`: whatever the buffer held before. -/
theorem read_writes_block (i : grid1.Coords) {κ : Kind} {sp : Space} {sg : RefSig} (v : View sg κ sp S1x1000x1024 .f32) (f0 : v.ty.Contents (Elt F)) :
    v.read (Elt F) (v.writes (Elt F) f0
      [⟨Rect.unit (s := S1x1000x1024) (k1_off1 i) S1x1x1024.size (k1_off1_inb i), k1_pay2 (F := F)⟩,
       ⟨Rect.unit (s := S1x1000x1024) ![0, 0, 0] S1x1000x1024.size inb_S1x1000x1024_S1x1000x1024_0_0_0, k1_pay1 (F := F)⟩]) = blockT i := by
  funext y
  by_cases hy : y ∈ (Rect.unit (s := S1x1000x1024) (k1_off1 i) S1x1x1024.size (k1_off1_inb i)).set
  · have hrow := (mem_row i y).mp hy
    obtain ⟨x, rfl⟩ : ∃ x, (Rect.unit (s := S1x1000x1024) (k1_off1 i) S1x1x1024.size (k1_off1_inb i)).emb x = y := (Rect.unit (s := S1x1000x1024) (k1_off1 i) S1x1x1024.size (k1_off1_inb i)).exists_idx_of_mem hy
    rw [View.read_writes_cons_emb]
    unfold blockT; rw [if_pos hrow]; rfl
  · have hrow : ¬ (y 1).val = k1_off1 i 1 := fun h => hy ((mem_row i y).mpr h)
    rw [View.writes_cons, View.read_slice_write_of_not_mem _ _ _ _ (by rw [Rect.map_emb_univ]; exact hy)]
    obtain ⟨x, rfl⟩ : ∃ x, (Rect.unit (s := S1x1000x1024) ![0, 0, 0] S1x1000x1024.size inb_S1x1000x1024_S1x1000x1024_0_0_0).emb x = y := (Rect.unit (s := S1x1000x1024) ![0, 0, 0] S1x1000x1024.size inb_S1x1000x1024_S1x1000x1024_0_0_0).exists_idx_of_mem (mem_all y)
    rw [View.read_writes_cons_emb]
    unfold blockT; rw [if_neg hrow]; rfl

/-! ## The body at a symbolic point, on a symbolic staging buffer -/

/-- From the staging buffer held whole at any contents, the body at point `i` runs to its return leaving the buffer at
    `blockT i`. -/
theorem bodyRun (c : Dev nD) (i : grid1.Coords) (M0 : Memref sig .tc .vmem S1x1000x1024 .f32) (h0 : M0.IsWhole)
    (X : S1x1000x1024.Idx → Elt F .f32) (Q : PUnit → sProp 𝕄) :
    iprop(owns (c : Thread nD τ) M0 fullShare X ∗ (owns (c : Thread nD τ) M0 fullShare (blockT (F := F) i) -∗ Q ⟨⟩))
    ⊢ wp frame (wpE (defs₀ (F := F)) 𝒱₀ c none) Set.univ (cc1__logits_body i M0 h0) Q := by
  unfold owns
  rw [h0.set_eq_univ]
  iintro ⟨⟨%f0, -, H0⟩, Hk⟩
  sl_unfold [cc1__logits_body]
  sl_exec
  sl_step
  iapply Hk
  iexists _
  isplitr; swap; · iexact H0
  ipureintro
  exact read_writes_block i M0.view f0

end Cert.Proof.KB

end
-- ==== Proof.KBLogitsDat.lean ====
/-
  The TensorCore kernel's region: the pipeline's proof data (what each point leaves in its staging buffer, nothing kept
  between points, nothing owed), the body obligation at every point, and the region's record: what the region is
  entered with (the array whole at any contents, the core owing nothing), what it leaves (the array at what the
  write-backs make of it, the core owing nothing), and the entailments between.
-/
import proofs.«211305_g76828374991638_cont_9to1_m_1055_18_alg».proof.Proof.KBLogitsBody
import proofs.«211305_g76828374991638_cont_9to1_m_1055_18_alg».proof.Proof.Gen.Kernel.Launch
import proofs.«211305_g76828374991638_cont_9to1_m_1055_18_alg».proof.Proof.Gen.Kernel.Points
import Idealize.ShloMosaic.Lib.Pipeline.Regions

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The pipeline's proof data

One window, written back at every point. What a point leaves in its staging buffer is `blockT` at the point's
coordinates; the body keeps nothing between points beyond the scoped buffers no window stages (there are none);
the core owes nothing; the pairs its waits have recorded stay at level 8 or below, the level its handshake state
after the one SparseCore call bounds them by (a staging cell's own wait is recorded at index `none`, level 0). -/

/-- The prefetched tables' admissible contents: no table. -/
abbrev adm : (p : Fin 1) → (pcfgs (F := F) p).Adm := fun p => (cfgs p).toPCfg_adm

/-- The recorded pairs the region may meet and leave: those at level 8 or below. -/
def recB (d : Dev nD) : Set (SemLoc sig × HIx 1) := {p | (K (F := F)).lev ((T d : Thread nD τ), p.1) p.2 ≤ 8}

/-- What the body may use and need not describe: the scoped buffers no window stages. -/
abbrev ΦR (d : Dev nD) : sProp 𝕄 := Pipeline.scopedRest (Ix := HIx 1) (Name := ℕ) (U := UU) (Lvl := ℕ) (Val := Elt F) spec1 d

/-- The proof data on device `d`, from the array's contents `f5 d` at the region's entry. -/
def dats (f5 : (d : Dev nD) → Buf (Elt F) ((T d : Thread nD τ).loc main_v5)) (_ : Fin 1) (d : Dev nD) :
    Dat τ (Elt F) (HIx 1) ℕ UU ℕ cfg1 d where
  A w := match w with | ⟨0, _⟩ => f5 d
  after w t := match w with | ⟨0, _⟩ => blockT (F := F) (grid1.coords t)
  Φ _ := ΦR (F := F) d
  q _ := fullShare
  owed _ := 0
  recorded _ := recB (F := F) d

variable (f5 : (d : Dev nD) → Buf (Elt F) ((T d : Thread nD τ).loc main_v5))

/-- The library's body obligation: the staging buffer taken out, the body's run applied, the post reassembled. -/
theorem body_obligation (d : Dev nD) : BodyObligation (dats f5 0 d) (defs₀ (F := F)) 𝒱₀ (none : HIx 1) Set.univ := fun t => by
  rw [bigSep_W1, bigSep_W1]
  rw [show (dats f5 0 d).Φ t.castSucc = ΦR (F := F) d from rfl, show (dats f5 0 d).Φ t.succ = ΦR (F := F) d from rfl]
  iintro ⟨HΦ, HO, ⟨%d0, H0⟩⟩
  iapply (bodyRun (F := F) d (grid1.coords t) (win1_0.stage (cfg1.slots t 0)) (hstage1_0 ((cfg1.slots t 0).cast nbuf1_0)) _ _)
  isplitl [H0]; · iexact H0
  iintro H0
  isplitl [HΦ]; · iexact HΦ
  isplitl [HO]; · iexact HO
  iexact H0

/-! ## The region -/

/-- What the region is entered with and left with beside the array: the core owing nothing, its recorded pairs at
    level 8 or below. -/
abbrev owes8 (d : Dev nD) : sProp 𝕄 :=
  iprop(∃ W, ⌜(K (F := F)).WBelow (T d) W (8 * 1)⌝ ∗ owes (T d : Thread nD τ) (0 : CellTallies nD τ sig (HIx 1)) W)

/-- The array after the run, as the library computes it. -/
def finalA (d : Dev nD) : Buf (Elt F) ((T d : Thread nD τ).loc main_v5) := (dats f5 0 d).arrAt 0 cfg1.N

set_option backward.isDefEq.respectTransparency.types false in
/-- THE REGION: the launch kit's layout, no semaphore of the kernel's own, the body obligation; entered with the array
    at `f5` and the core owing nothing, left with the array at its final contents and the core owing nothing. -/
def reg : Pipeline.RegionSeg (pcfgs (F := F)) adm (dats f5) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation f5 c).loose
  hwaits := Pipeline.hwaits_of_owed_zero _ _ _ _ (K (F := F)).L (K (F := F)).lev 0 fun _ _ => rfl
  pre c := iprop(((T c : Thread nD τ).loc main_v5 ↦{fullShare} f5 c) ∗ owes8 (F := F) c)
  post c := iprop(((T c : Thread nD τ).loc main_v5 ↦{fullShare} finalA f5 c) ∗ owes8 (F := F) c)
  X _ := iprop(emp)
  Y _ := iprop(emp)
  Z _ := iprop(emp)
  hentry c := by
    rw [Pipeline.arrays_eq (Pipeline.pin (pcfgs (F := F)) adm) (dats f5) 0 c launch1.arr_whole ((dats f5 0 c).share_full fun _ => rfl), bigSep_W1]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl <;> iempintro
  hin c := by
    rw [show (dats f5 0 c).Φ 0 = ΦR (F := F) c from rfl]
    iintro ⟨-, -, Hr⟩
    iexact Hr
  hout c := by
    rw [Pipeline.ownSems0_none, show (dats f5 0 c).Φ (Fin.last cfg1.N) = ΦR (F := F) c from rfl]
    iintro Hr
    isplitr; · iempintro
    isplitr; · iempintro
    iexact Hr
  hexit c := by
    rw [Pipeline.arrays_eq (Pipeline.pin (pcfgs (F := F)) adm) (dats f5) 0 c launch1.arr_whole ((dats f5 0 c).share_full fun _ => rfl), bigSep_W1]
    iintro ⟨Ha, HO, -, -⟩
    imodintro
    isplitl [Ha]; · iexact Ha
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Cert.Proof.KB

end
-- ==== Proof.KBLogitsValue.lean ====
/-
  The array the TensorCore kernel's region leaves: the programmed logits in the kernel's own layout (position, row,
  batch lane), read off the fifty write-backs.
-/
import proofs.«211305_g76828374991638_cont_9to1_m_1055_18_alg».proof.Proof.KBLogitsDat
import Idealize.ShloMosaic.Lib.Pipeline.Value

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The array after the region

Point `t` writes back block `t` of the array: the plane `i 0 = t`. The block it leaves is 1 on the row the point
selects and −10⁹ elsewhere, and the row point `t` selects is the programmed target of `t`; the fifty planes cover
the array. -/

/-- The programmed logits as the TensorCore kernel lays them out: entry (t, v, b) is 1 where `v` is the target of
    position `t`, −10⁹ elsewhere. -/
def logitsT (d : Dev nD) : Buf (Elt F) ((T d : Thread nD τ).loc main_v5) :=
  fun (i : S50x1000x1024.Idx) => if (i 1).val = Cert.Spec.target (i 0).val then FloatOps.ofBits .f32 0x3F800000#32 else FloatOps.ofBits .f32 0xCE6E6B28#32

/-- The row a point selects is the programmed target of the point: decided over the fifty points. -/
theorem row_eq_target : ∀ t : Fin cfg1.N, k1_off1 (grid1.coords t) 1 = Cert.Spec.target t.val :=
  (by decide +kernel : ∀ t : Fin grid1.N, k1_off1 (grid1.coords t) 1 = Cert.Spec.target t.val)

/-- The window's block index at point `t` is `(t, 0, 0)`: decided over the grid. -/
theorem idx_facts : ∀ t : Fin cfg1.N, win1_0.index t (0 : Fin 3) = t.val ∧ win1_0.index t (1 : Fin 3) = 0 ∧ win1_0.index t (2 : Fin 3) = 0 :=
  (by decide +kernel : ∀ t : Fin grid1.N, _)

variable (f5 : (d : Dev nD) → Buf (Elt F) ((T d : Thread nD τ).loc main_v5))

/-- What point `t` writes back is block `t` of the programmed logits. -/
theorem flushed_eq (d : Dev nD) (t : Fin cfg1.N) :
    (dats f5 0 d).flushed 0 t = ((cfg1.win 0).blk t).view.read (Elt F) (logitsT (F := F) d) := by
  show (cfg1.win 0).cut (grid1.coords t) ((dats f5 0 d).after 0 t) = _
  obtain ⟨e0, e1, e2⟩ := idx_facts t
  funext y
  show blockT (F := F) (grid1.coords t) y = logitsT (F := F) d (((cfg1.win 0).blk t).view.emb y)
  have hy0 : (y 0).val < 1 := (y 0).isLt
  have h0 : ((((cfg1.win 0).blk t).view.emb y) 0).val = t.val := by
    show win1_0.index t (0 : Fin 3) * 1 + 1 * (y 0).val = t.val; omega
  have h1 : ((((cfg1.win 0).blk t).view.emb y) 1).val = (y 1).val := by
    show win1_0.index t (1 : Fin 3) * 1000 + 1 * (y 1).val = (y 1).val; omega
  unfold blockT logitsT
  exact if_congr (by rw [h0, h1, row_eq_target t]) rfl rfl

/-- An index of the array is in point `t`'s block iff each coordinate is in the block's range on its axis. -/
theorem mem_blk (t : Fin cfg1.N) (i : S50x1000x1024.Idx) :
    i ∈ ((cfg1.win 0).blk t).view.set ↔ ∀ a : Fin 3, win1_0.index t a * S1x1000x1024.size a ≤ (i a).val ∧ (i a).val < win1_0.index t a * S1x1000x1024.size a + S1x1000x1024.size a := by
  show i ∈ ((View.whole main_v5).slice (win1_0.rect t)).set ↔ _
  rw [View.set_slice_whole, Rect.mem_set_unit]
  exact Iff.rfl

/-- Every index of the array is in the block of the point its first coordinate names. -/
theorem cover (i : S50x1000x1024.Idx) : ∃ t : Fin cfg1.N, (cfg1.win 0).flush t = true ∧ i ∈ ((cfg1.win 0).blk t).view.set := by
  have hi0 : (i 0).val < 50 := (i 0).isLt
  have hi1 : (i 1).val < 1000 := (i 1).isLt
  have hi2 : (i 2).val < 1024 := (i 2).isLt
  have hN : (i 0).val < cfg1.N := by rw [show cfg1.N = 50 from N_1]; exact hi0
  refine ⟨⟨(i 0).val, hN⟩, flush1_0 _, ?_⟩
  obtain ⟨e0, e1, e2⟩ := idx_facts ⟨(i 0).val, hN⟩
  rw [mem_blk]
  intro a
  match a with
  | ⟨0, _⟩ => show win1_0.index ⟨(i 0).val, hN⟩ (0 : Fin 3) * 1 ≤ (i 0).val ∧ (i 0).val < win1_0.index ⟨(i 0).val, hN⟩ (0 : Fin 3) * 1 + 1; rw [e0]; show (i 0).val * 1 ≤ (i 0).val ∧ (i 0).val < (i 0).val * 1 + 1; omega
  | ⟨1, _⟩ => show win1_0.index ⟨(i 0).val, hN⟩ (1 : Fin 3) * 1000 ≤ (i 1).val ∧ (i 1).val < win1_0.index ⟨(i 0).val, hN⟩ (1 : Fin 3) * 1000 + 1000; omega
  | ⟨2, _⟩ => show win1_0.index ⟨(i 0).val, hN⟩ (2 : Fin 3) * 1024 ≤ (i 2).val ∧ (i 2).val < win1_0.index ⟨(i 0).val, hN⟩ (2 : Fin 3) * 1024 + 1024; omega

/-- THE ARRAY after the region: the programmed logits, whatever it held at the entry. -/
theorem finalA_eq (d : Dev nD) : finalA f5 d = logitsT (F := F) d :=
  (dats f5 0 d).arrAt_eq_of_cover 0 (logitsT (F := F) d) (fun t _ => flushed_eq f5 d t) cover

end Cert.Proof.KB

end
-- ==== Proof.KBLogits.lean ====
/-
  The TensorCore kernel's region as @main runs it after the SparseCore call: the staging cells' share of the launch's
  ghost state, and the custom call's rule under the launch's table — from the TensorCore's handshake state after the
  call, the region boundary and the array whole at any contents, to the same state, the boundary, and the array at the
  programmed logits.
-/
import proofs.«211305_g76828374991638_cont_9to1_m_1055_18_alg».proof.Proof.KBLogitsValue

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The launch's ghost state for the staging cells, and the region under the program's own table -/

/-- The staging cells' launch element: the rounds library's at the two staging cells and the pipeline's transfers. -/
def uP₀ : UP := initOf (Pipeline.cells (nD := nD) (τ := τ) cfgs cellOf_inj) (Pipeline.launchToks (nD := nD) (τ := τ) cfgs cellOf_inj)

/-- What the region needs of the launch's ghost state on device `d`: the staging cells' ghost state and the duty tokens
    of the pipeline's transfers. -/
def GT (d : Dev nD) : sProp 𝕄 :=
  iprop(Pipeline.cellsGhost cfgs (EP (F := F)) 0 d ∗ Pipeline.toksInit cfgs (EP (F := F)) 0 d)

/-- The launch element funds every device's share. -/
theorem fundT : (BI.own (EP (F := F) uP₀) : sProp 𝕄) ⊢ |==> bigSep Finset.univ fun d : Dev nD => GT (F := F) d := by
  have h := Pipeline.fund_ghost (nD := nD) (τ := τ) cfgs (EP (F := F)) cellOf_inj
  unfold GT uP₀
  simp only [bigSep_W1] at h ⊢
  exact h

variable (f5 : (d : Dev nD) → Buf (Elt F) ((T d : Thread nD τ).loc main_v5))

set_option backward.isDefEq.respectTransparency.types false in
/-- THE REGION in @main, under the launch's table, the array's entry contents given on every device: from the persistent
    context (whose level facts the region's waits consult), the TensorCore's handshake state after the one SparseCore
    call (it owes nothing then), the staging cells' ghost state, the region boundary and the array whole at any
    contents, the custom call runs and hands the continuation the same handshake state, the boundary, and the array at
    the programmed logits. The region is entered under the program's own table (the pipeline library's region rule)
    and lifted to the launch's table, in which the custom call of the inner label is that label's lift. -/
theorem wp_logits_call_fam (P : (K (F := F)).Pay (nD := nD) (Val := Elt F) (Name := ℕ) (U := UU)) (κ : GSem nD τ sig → ℕ) (d : Dev nD)
    (Φ : PUnit → sProp 𝕄) :
    iprop((K (F := F)).ctx EH P κ ∗ (K (F := F)).tcSt EH d 1 ∗ GT (F := F) d ∗ boundary (T d : Thread nD τ) ∗ ((T d : Thread nD τ).loc main_v5 ↦{fullShare} f5 d))
      ⊢ iprop((iprop((K (F := F)).tcSt EH d 1 ∗ boundary (T d : Thread nD τ) ∗ ((T d : Thread nD τ).loc main_v5 ↦{fullShare} logitsT (F := F) d)) -∗ Φ ⟨⟩)
          -∗ wp frame (wpE ((K (F := F)).defs (D (F := F))) 𝒱 (T d) none) Set.univ (Prog.lift (.customCall (SparseCore.inner (Pipeline.entry 0)) ())) Φ) := by
  rw [← finalA_eq f5 d]
  unfold GT SparseCore.Cfg.tcSt
  rw [(K (F := F)).Otc_end d (le_refl 1)]
  iintro ⟨#Hctx, ⟨⟨%W, %hW, HO⟩, Hpos, Hreach, Hstarts, Hcalls⟩, ⟨Hg, Ht⟩, Hb, H5⟩ Hk
  ihave Hlev := (SparseCore.Cfg.ctx_levAts (K := K (F := F)) (EH := EH) (P := P) κ) $$ Hctx
  iapply ((K (F := F)).wp_liftProg (D (F := F)) 𝒱 (T d) Set.univ none (.op (.customCall (Pipeline.entry 0) ()) .ret) _)
  iapply (Pipeline.RegionSeg.wp (pcfgs (F := F)) adm (dats f5) (none : HIx 1) cellOf_inj (EP (F := F)) defs₀ 𝒱₀ (K (F := F)).L (K (F := F)).lev (reg f5) d none (fun u hu => nomatch hu) .ret _)
  rw [show (reg f5).post d = iprop(((T d : Thread nD τ).loc main_v5 ↦{fullShare} finalA f5 d) ∗ owes8 (F := F) d) from rfl,
    show (reg f5).pre d = iprop(((T d : Thread nD τ).loc main_v5 ↦{fullShare} f5 d) ∗ owes8 (F := F) d) from rfl]
  isplitl [Hk Hpos Hreach Hstarts Hcalls]
  · iintro ⟨Hb, H5, HO⟩
    rw [wp_ret]; imodintro
    iapply Hk
    isplitl [HO Hpos Hreach Hstarts Hcalls]
    · isplitl [HO]; · iexact HO
      isplitl [Hpos]; · iexact Hpos
      isplitl [Hreach]; · iexact Hreach
      isplitl [Hstarts]; · iexact Hstarts
      iexact Hcalls
    isplitl [Hb]; · iexact Hb
    iexact H5
  isplitl [Hb]; · iexact Hb
  isplitl [H5 HO]
  · isplitl [H5]; · iexact H5
    iexists W; isplitr; · ipureintro; exact hW
    iexact HO
  isplitr; · iexact Hlev
  isplitl [Hg]; · iexact Hg
  iexact Ht

/-- The same with the rest of @main as a continuation `k`. -/
theorem wp_logits_fam (P : (K (F := F)).Pay (nD := nD) (Val := Elt F) (Name := ℕ) (U := UU)) (κ : GSem nD τ sig → ℕ) (d : Dev nD)
    {α : Type} (k : PUnit → Prog (TpuEff nD τ sig (Elt F) (SparseCore.Sig (ΛP (F := F)) 1) .tc) α) (Q : α → sProp 𝕄) :
    iprop((K (F := F)).ctx EH P κ ∗ (K (F := F)).tcSt EH d 1 ∗ GT (F := F) d ∗ boundary (T d : Thread nD τ) ∗ ((T d : Thread nD τ).loc main_v5 ↦{fullShare} f5 d))
      ⊢ iprop((iprop((K (F := F)).tcSt EH d 1 ∗ boundary (T d : Thread nD τ) ∗ ((T d : Thread nD τ).loc main_v5 ↦{fullShare} logitsT (F := F) d))
              -∗ wp frame (wpE ((K (F := F)).defs (D (F := F))) 𝒱 (T d) none) Set.univ (k ⟨⟩) Q)
          -∗ wp frame (wpE ((K (F := F)).defs (D (F := F))) 𝒱 (T d) none) Set.univ (Prog.lift (.customCall (SparseCore.inner (Pipeline.entry 0)) ()) >>= k) Q) := by
  rw [wp_bind]
  exact wp_logits_call_fam f5 P κ d fun a => wp frame (wpE ((K (F := F)).defs (D (F := F))) 𝒱 (T d) none) Set.univ (k a) Q

/-! ## The one-device form -/

omit [FloatOps F] in
/-- There is one device: contents given at `d` are contents given everywhere. -/
def famOf (d : Dev nD) (f : Buf (Elt F) ((T d : Thread nD τ).loc main_v5)) : (c : Dev nD) → Buf (Elt F) ((T c : Thread nD τ).loc main_v5) :=
  fun c => (Subsingleton.elim d c : d = c) ▸ f

omit [FloatOps F] in
theorem famOf_self (d : Dev nD) (f : Buf (Elt F) ((T d : Thread nD τ).loc main_v5)) : famOf d f d = f := rfl

/-- The call alone, the array's entry contents given on the one device `d`. -/
theorem wp_logits_call (P : (K (F := F)).Pay (nD := nD) (Val := Elt F) (Name := ℕ) (U := UU)) (κ : GSem nD τ sig → ℕ) (d : Dev nD)
    (f5 : Buf (Elt F) ((T d : Thread nD τ).loc main_v5)) (Φ : PUnit → sProp 𝕄) :
    iprop((K (F := F)).ctx EH P κ ∗ (K (F := F)).tcSt EH d 1 ∗ GT (F := F) d ∗ boundary (T d : Thread nD τ) ∗ ((T d : Thread nD τ).loc main_v5 ↦{fullShare} f5))
      ⊢ iprop((iprop((K (F := F)).tcSt EH d 1 ∗ boundary (T d : Thread nD τ) ∗ ((T d : Thread nD τ).loc main_v5 ↦{fullShare} logitsT (F := F) d)) -∗ Φ ⟨⟩)
          -∗ wp frame (wpE ((K (F := F)).defs (D (F := F))) 𝒱 (T d) none) Set.univ (Prog.lift (.customCall (SparseCore.inner (Pipeline.entry 0)) ())) Φ) := by
  have h := wp_logits_call_fam (famOf d f5) P κ d Φ
  rw [famOf_self] at h
  exact h

/-- `wp_logits_fam` with the array's entry contents given on the one device `d`. -/
theorem wp_logits (P : (K (F := F)).Pay (nD := nD) (Val := Elt F) (Name := ℕ) (U := UU)) (κ : GSem nD τ sig → ℕ) (d : Dev nD)
    (f5 : Buf (Elt F) ((T d : Thread nD τ).loc main_v5))
    {α : Type} (k : PUnit → Prog (TpuEff nD τ sig (Elt F) (SparseCore.Sig (ΛP (F := F)) 1) .tc) α) (Q : α → sProp 𝕄) :
    iprop((K (F := F)).ctx EH P κ ∗ (K (F := F)).tcSt EH d 1 ∗ GT (F := F) d ∗ boundary (T d : Thread nD τ) ∗ ((T d : Thread nD τ).loc main_v5 ↦{fullShare} f5))
      ⊢ iprop((iprop((K (F := F)).tcSt EH d 1 ∗ boundary (T d : Thread nD τ) ∗ ((T d : Thread nD τ).loc main_v5 ↦{fullShare} logitsT (F := F) d))
              -∗ wp frame (wpE ((K (F := F)).defs (D (F := F))) 𝒱 (T d) none) Set.univ (k ⟨⟩) Q)
          -∗ wp frame (wpE ((K (F := F)).defs (D (F := F))) 𝒱 (T d) none) Set.univ (Prog.lift (.customCall (SparseCore.inner (Pipeline.entry 0)) ()) >>= k) Q) := by
  have h := wp_logits_fam (famOf d f5) P κ d k Q
  rw [famOf_self] at h
  exact h

end Cert.Proof.KB

end
-- ==== Proof.KBLaunch.lean ====
/-
  The launch element of the ghost state, and what the launch hands each proof.

  Three rounds libraries start here: the launch handshakes' (the launch theorem's own), the barrier cells' — one cell per
  tile, one token per pair of tiles of a SparseCore —, and the TensorCore kernel's staging cells'. From the barrier
  library's launch element, the free semaphores at zero and the credit for the arrivals every tile owes, each tile is
  dealt its kit: every cell's invariant of its SparseCore, its sixteen duty tokens, its own position, and the credit
  for the sixteen units of its own round (the sixteen tiles each owe one unit on it).
-/
import proofs.«211305_g76828374991638_cont_9to1_m_1055_18_alg».proof.Proof.KBObl
import proofs.«211305_g76828374991638_cont_9to1_m_1055_18_alg».proof.Proof.KBLogits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (tk : (d : Dev nD) → Buf (Elt F) (tokLoc d))
variable [FloatOps F]

/-! ## The barrier cells and their tokens -/

abbrev DCI : Type := Dev nD × Fin τ.nSC × Fin τ.nSub
abbrev bcell₃ (x : DCI) : GSem nD τ sig := bcell x.1 x.2.1 x.2.2

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)

def u₀ : UU := (initOf (K (F := F)).hsCells (K (F := F)).hsToks, (initOf bCells bToks, (uP₀, (1 : Counters))))

omit [FloatOps F] in
/-- The launch element splits into the three libraries' elements. -/
theorem ownU_split (a : UH) (b : UB) (p : UP) :
    (ownU ((a, (b, (p, (1 : Counters)))) : UU) : sProp 𝕄) ⊢ iprop(BI.own (EH a) ∗ BI.own (EB b) ∗ BI.own (EP p)) := by
  refine (ownU_pair a (b, (p, (1 : Counters)))).trans (sep_mono .rfl ?_)
  refine (own_pair_emb (embR : Emb (UB × (UP × Counters)) (MT nD τ sig (HIx 1) (Elt F) ℕ UU ℕ)) b (p, (1 : Counters))).trans (sep_mono .rfl ?_)
  exact (own_pair_emb ((Emb.inr : Emb (UP × Counters) (UB × (UP × Counters))).trans (embR : Emb (UB × (UP × Counters)) (MT nD τ sig (HIx 1) (Elt F) ℕ UU ℕ)))
    p (1 : Counters)).trans sep_elim_left

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeSems0 : sProp 𝕄) ⊢ bigSep bCells fun g => semVal g 0 := by
  rw [bCells_eq]
  unfold SparseCore.Cfg.freeSems0
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_of_isEmpty, tallyAt_zero]
  | n + 1 => by rw [Fin.sum_univ_castSucc, sum_tallyAt_one g ι n, tallyAt_add]

/-- The credit for the tiles' arrivals, regrouped: each tile the sixteen units of its own cell. -/
theorem creds_b : ((P (F := F) m tk).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m tk).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m tk).oxFrom 0 (V d c i) = oxV d c := fun i => by
    rw [show (0 : ℕ) = (0 : Fin 1).val from rfl, (P m tk).oxFrom_step, (P m tk).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

/-! ## Each tile its kit -/

theorem Px_T (d : Dev nD) : (bigSep Finset.univ fun q : Fin 1 => (P (F := F) m tk).x q (SparseCore.T d)) = iprop(emp) :=
  bigSep_univ_of_subsingleton (0 : Fin 1)
theorem Px_S (d : Dev nD) (c : Fin τ.nSC) : (bigSep Finset.univ fun q : Fin 1 => (P (F := F) m tk).x q (S d c)) = iprop(emp) :=
  bigSep_univ_of_subsingleton (0 : Fin 1)
theorem Px_V (d : Dev nD) (c : Fin τ.nSC) (i : Fin τ.nSub) :
    (bigSep Finset.univ fun q : Fin 1 => (P (F := F) m tk).x q (V d c i)) = bkit m d c i :=
  bigSep_univ_of_subsingleton (0 : Fin 1)

omit [FloatOps F] in
theorem bigSep_emp' {I : Type} (s : Finset I) : (bigSep s fun _ => iprop(emp)) = (iprop(emp) : sProp 𝕄) := bigSep_emp_const s

/-- What every tile is handed alike (persistent): every barrier cell's invariant, and that each has reached its round. -/
abbrev common (κ : GSem nD τ sig → ℕ) : sProp 𝕄 :=
  iprop((bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev own₁ (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (κ : GSem nD τ sig → ℕ) (dci : DCI) : iprop(common (F := F) m κ ∗ own₁ dci) ⊢ (bkit (F := F) m dci.1 dci.2.1 dci.2.2 : sProp 𝕄) := by
  obtain ⟨d, c, i⟩ := dci
  unfold bkit
  iintro ⟨⟨#Hinv, #Hr⟩, Hat, Htok, Hcred⟩
  isplitr
  · iexists κ
    iapply (bigSep_intro_persistent (S := (Finset.univ : Finset (Fin (grid0.bound 1)))) fun j _ =>
      (bigSep_elim (Φ := fun x : DCI => (cellInv EB (bRd (F := F) m) (κ (bcell₃ x)) (bcell₃ x) : sProp 𝕄)) (i := (d, c, Fin.castLE hsub0 j)) (Finset.mem_univ _)))
    iexact Hinv
  isplitl [Htok]; · iexact Htok
  isplitr
  · iapply (bigSep_intro_persistent (S := (Finset.univ : Finset (Fin (grid0.bound 1)))) fun j _ =>
      (bigSep_elim (Φ := fun x : DCI => (reached EB (bcell₃ x) 0 : sProp 𝕄)) (i := (d, c, Fin.castLE hsub0 j)) (Finset.mem_univ _)))
    iexact Hr
  isplitl [Hat]; · iexact Hat
  iexact Hcred

/-- Each tile its kit. -/
theorem kits_deal (κ : GSem nD τ sig → ℕ) :
    iprop(common (F := F) m κ ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m tk).x q thr : sProp 𝕄) := by
  rw [SparseCore.Cfg.bigSep_threads (fun thr : Thread nD τ => bigSep Finset.univ fun q : Fin 1 => (P m tk).x q thr)]
  simp only [Px_T, Px_S, Px_V, bigSep_emp']
  iintro ⟨#Hsh, Hat, Htok, Hcred⟩
  isplitr; · iempintro
  isplitr; · iempintro
  iapply (bigSep_with_persistent (R := common (F := F) m κ) (Φ := own₁ (F := F)) fun dci _ => kit_intro (F := F) m κ dci)
  isplitr; · iexact Hsh
  unfold own₁
  rw [bigSep_sep', bigSep_sep']
  isplitl [Hat]; · iexact Hat
  isplitl [Htok]; · iexact Htok
  iexact Hcred

/-- The barrier library's launch element, respelt per tile: the cells' round states, that each has reached its round,
    the tiles' positions and tokens. -/
theorem fund_b : (BI.own (EB (initOf bCells bToks)) : sProp 𝕄)
    ⊢ |==> iprop((bigSep bCells fun g => roundState EB (bRd (F := F) m) g 0)
        ∗ (bigSep Finset.univ fun x : DCI => reached EB (bcell₃ x) 0)
        ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)) := by
  refine (Rounds.fund EB (bRd (F := F) m) bCells bToks).trans (BI.bupd_mono ?_)
  rw [bCells_eq (F := F) (fun g => reached EB g 0), bCells_eq (F := F) (fun g => atPos EB g 0 ∅ 0), toks_eq]
  exact BI.Entails.refl _

/-- The barrier cells' invariants, allocated at once, respelt per tile. -/
theorem invs_b' : iprop((bigSep bCells fun g => (semVal g 0 : sProp 𝕄)) ∗ bigSep bCells fun g => roundState EB (bRd (F := F) m) g 0)
    ⊢ |={Set.univ}=> iprop(∃ κ : GSem nD τ sig → ℕ, bigSep Finset.univ fun x : DCI => cellInv EB (bRd (F := F) m) (κ (bcell₃ x)) (bcell₃ x)) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ
  iapply (Entails.of_eq (bCells_eq (F := F) fun g => cellInv EB (bRd (F := F) m) (κ g) g).symm)
  iexact Hinv

/-- Each tile its kit, under whatever names the invariants were allocated. -/
theorem deal_all :
    iprop(((∃ κ : GSem nD τ sig → ℕ, bigSep Finset.univ fun x : DCI => cellInv EB (bRd (F := F) m) (κ (bcell₃ x)) (bcell₃ x))
          ∗ bigSep Finset.univ fun x : DCI => reached EB (bcell₃ x) 0)
        ∗ ((bigSep Finset.univ fun x : DCI => atPos EB (bcell₃ x) 0 ∅ 0)
          ∗ (bigSep Finset.univ fun dci : DCI => bigSep Finset.univ fun j : Fin (grid0.bound 1) => dutyTok EB (bcell dci.1 dci.2.1 (j.castLE hsub0)) 0 dci.2.2.val)
          ∗ (bigSep Finset.univ fun dci : DCI => cred (tallyAt (bcell₃ dci) (some 0) (grid0.bound 1)))))
      ⊢ (bigSep Finset.univ fun thr : Thread nD τ => bigSep Finset.univ fun q : Fin 1 => (P (F := F) m tk).x q thr : sProp 𝕄) := by
  iintro ⟨⟨⟨%κ, Hinv⟩, Hr⟩, Hat, Htok, Hcred⟩
  iapply (kits_deal m tk κ)
  isplitl [Hinv Hr]
  · isplitl [Hinv]; · iexact Hinv
    iexact Hr
  isplitl [Hat]; · iexact Hat
  isplitl [Htok]; · iexact Htok
  iexact Hcred

omit [FloatOps F] in
/-- The launch element composed, over propositions: the element splits three ways; the barrier library's part funds the
    cells' states `S`, that each has reached its round (`R`), positions `A` and tokens `Tk`; the TensorCore kernel's part
    funds `Gs`; the free semaphores give the cells' counters `Sm`, which with `S` allocate the invariants; the credit
    regroups; and all of it deals every thread's start `X`. -/
theorem launch_elem3 {U HH HA HPp S R A Tk Fr Sm Cr Cd Gs X : sProp 𝕄} {ι : Type} {Inv : ι → sProp 𝕄}
    [BI.Persistent R] [∀ κ, BI.Persistent (Inv κ)]
    (split : U ⊢ iprop(HH ∗ HA ∗ HPp)) (fund : HA ⊢ |==> iprop(S ∗ R ∗ A ∗ Tk)) (fundP : HPp ⊢ |==> Gs) (sems : Fr ⊢ Sm)
    (invs : iprop(Sm ∗ S) ⊢ |={Set.univ}=> iprop(∃ κ, Inv κ)) (creds : Cr ⊢ Cd)
    (deal : iprop(((∃ κ, Inv κ) ∗ R) ∗ (A ∗ Tk ∗ Cd)) ⊢ X) :
    iprop(U ∗ Cr ∗ Fr) ⊢ |={Set.univ}=> iprop(HH ∗ Gs ∗ X) := by
  iintro ⟨Hu, Hcred, Hfree⟩
  ihave H := split $$ Hu
  icases H with ⟨HH, HA, HP⟩
  imod fund $$ HA with ⟨Hst, #Hr, Hat, Htok⟩
  imod fundP $$ HP with HG
  ihave Hsems := sems $$ Hfree
  imod invs $$ [Hsems Hst] with ⟨%κ, #Hinv⟩
  · isplitl [Hsems] <;> iassumption
  ihave Hcred' := creds $$ Hcred
  imodintro
  isplitl [HH]; · iexact HH
  isplitl [HG]; · iexact HG
  iapply deal
  isplitr
  · isplitl; · iexists κ; iexact Hinv
    iexact Hr
  isplitl [Hat]; · iexact Hat
  isplitl [Htok]; · iexact Htok
  iexact Hcred'

/-- The launch element: the handshakes' rounds to the launch theorem, the TensorCore kernel's cells to @main's proof, and
    each tile its barrier kit. -/
theorem hu₀ : iprop(ownU (u₀ (F := F)) ∗ (P (F := F) m tk).oxCred ∗ (K (F := F)).freeSems0)
    ⊢ |={Set.univ}=> iprop(BI.own (EH (initOf (K (F := F)).hsCells (K (F := F)).hsToks)) ∗ (bigSep Finset.univ fun d : Dev nD => GT (F := F) d)
        ∗ (bigSep Finset.univ fun thr : Thread nD τ => bigSep Finset.univ fun q : Fin 1 => (P m tk).x q thr) : sProp 𝕄) :=
  launch_elem3 (ownU_split _ _ _) (fund_b m) (fundT (F := F)) (sems_b (F := F)) (invs_b' m) (creds_b m tk) (deal_all m tk)

end Cert.Proof.KB

end
-- ==== Proof.KBSplitArr.lean ====
/-
  The re-laid tokens and the call's result, cut into the tiles' pieces.

  The token rows of the 32 tiles — the indices whose first coordinate is the tile's row 2 s + c — partition the index
  set of the re-laid tokens, (c, s) ranging over the two SparseCores and their sixteen tiles; the result blocks — first
  coordinate the tile's row, second the chunk — partition the result's, (c, s, k) ranging over tiles and the twenty
  chunks. So a whole array held at any contents is the separating conjunction of its pieces held at the same contents.
-/
import proofs.«211305_g76828374991638_cont_9to1_m_1055_18_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The row of the tile with task number i on SparseCore c: 2 i + c. -/
theorem rowL_Lof (c : Fin ((K (F := F)).nCore 0)) (i : Fin ((K (F := F)).nSub 0)) :
    rowL (Lof (F := F) c i) = 2 * i.val + c.val := rfl

/-- Two different tiles' token rows share no element: the row determines the tile. -/
theorem tok_disj (p p' : Fin ((K (F := F)).nCore 0) × Fin ((K (F := F)).nSub 0)) (h : p ≠ p') :
    Disjoint (tokRowK (Lof (F := F) p.1 p.2)).view.set (tokRowK (Lof (F := F) p'.1 p'.2)).view.set := by
  refine Finset.disjoint_left.mpr fun j hj hj' => h ?_
  rw [mem_tokSet, rowL_Lof] at hj hj'
  have c2 : p.1.val < 2 := p.1.isLt
  have c2' : p'.1.val < 2 := p'.1.isLt
  exact Prod.ext (Fin.ext (by omega)) (Fin.ext (by omega))

/-- The token rows cover the re-laid tokens: row w belongs to tile (w mod 2, w div 2). -/
theorem tok_cover (d : Dev nD) :
    (Finset.univ : Finset (Fin ((K (F := F)).nCore 0) × Fin ((K (F := F)).nSub 0))).biUnion
        (fun p => (tokRowK (Lof (F := F) p.1 p.2)).view.set)
      = (Finset.univ : Finset (Idx (tokLoc d))) := by
  refine Finset.eq_univ_iff_forall.mpr fun j => ?_
  have b0 : (j 0).val < 32 := (j 0).isLt
  refine Finset.mem_biUnion.mpr ⟨(⟨(j 0).val % 2, Nat.mod_lt _ (by decide)⟩, ⟨(j 0).val / 2, by show (j 0).val / 2 < 16; omega⟩), Finset.mem_univ _, ?_⟩
  rw [mem_tokSet, rowL_Lof]
  show (j 0).val = 2 * ((j 0).val / 2) + (j 0).val % 2
  omega

/-- The re-laid tokens whole are the thirty-two token rows. -/
theorem tok_split (d : Dev nD) (f : Buf (Elt F) (tokLoc d)) :
    (tokLoc d ↦{fullShare} f : sProp 𝕄)
      = bigSep Finset.univ fun c : Fin ((K (F := F)).nCore 0) => bigSep Finset.univ fun i : Fin ((K (F := F)).nSub 0) =>
          tokLoc d ↦[(tokRowK (Lof (F := F) c i)).view.set]{fullShare} f := by
  have h1 : (tokLoc d ↦[(Finset.univ : Finset (Fin ((K (F := F)).nCore 0) × Fin ((K (F := F)).nSub 0))).biUnion
        (fun p => (tokRowK (Lof (F := F) p.1 p.2)).view.set)]{fullShare} f : sProp 𝕄) = _ :=
    pointsTo_biUnion _ _ fun p _ p' _ h => tok_disj p p' h
  rw [tok_cover d, bigSep_univ_prod] at h1
  exact h1

/-- Two different (tile, chunk) pairs' result blocks share no element: row and chunk determine the pair. -/
theorem out_disj (p p' : Fin ((K (F := F)).nCore 0) × Fin ((K (F := F)).nSub 0) × Fin k0_t1_loop.trips) (h : p ≠ p') :
    Disjoint (outBlkK (Lof (F := F) p.1 p.2.1) p.2.2).view.set (outBlkK (Lof (F := F) p'.1 p'.2.1) p'.2.2).view.set := by
  refine Finset.disjoint_left.mpr fun j hj hj' => h ?_
  rw [mem_outSet, rowL_Lof] at hj hj'
  have c2 : p.1.val < 2 := p.1.isLt
  have c2' : p'.1.val < 2 := p'.1.isLt
  exact Prod.ext (Fin.ext (by omega)) (Prod.ext (Fin.ext (by omega)) (Fin.ext (by omega)))

/-- The result blocks cover the result: entry (w, j, ·, ·) belongs to block j of tile (w mod 2, w div 2). -/
theorem out_cover (d : Dev nD) :
    (Finset.univ : Finset (Fin ((K (F := F)).nCore 0) × Fin ((K (F := F)).nSub 0) × Fin k0_t1_loop.trips)).biUnion
        (fun p => (outBlkK (Lof (F := F) p.1 p.2.1) p.2.2).view.set)
      = (Finset.univ : Finset (Idx (outLoc d))) := by
  refine Finset.eq_univ_iff_forall.mpr fun j => ?_
  have b0 : (j 0).val < 32 := (j 0).isLt
  have b1 : (j 1).val < 20 := (j 1).isLt
  refine Finset.mem_biUnion.mpr ⟨(⟨(j 0).val % 2, Nat.mod_lt _ (by decide)⟩, ⟨(j 0).val / 2, by show (j 0).val / 2 < 16; omega⟩,
    ⟨(j 1).val, by rw [trips_eq]; exact b1⟩), Finset.mem_univ _, ?_⟩
  rw [mem_outSet, rowL_Lof]
  show (j 0).val = 2 * ((j 0).val / 2) + (j 0).val % 2 ∧ (j 1).val = (j 1).val
  omega

/-- The call's result whole is the thirty-two tiles' twenty blocks each. -/
theorem out_split (d : Dev nD) (f : Buf (Elt F) (outLoc d)) :
    (outLoc d ↦{fullShare} f : sProp 𝕄)
      = bigSep Finset.univ fun c : Fin ((K (F := F)).nCore 0) => bigSep Finset.univ fun i : Fin ((K (F := F)).nSub 0) =>
          bigSep Finset.univ fun k : Fin k0_t1_loop.trips => outLoc d ↦[(outBlkK (Lof (F := F) c i) k).view.set]{fullShare} f := by
  have h1 : (outLoc d ↦[(Finset.univ : Finset (Fin ((K (F := F)).nCore 0) × Fin ((K (F := F)).nSub 0) × Fin k0_t1_loop.trips)).biUnion
        (fun p => (outBlkK (Lof (F := F) p.1 p.2.1) p.2.2).view.set)]{fullShare} f : sProp 𝕄) = _ :=
    pointsTo_biUnion _ _ fun p _ p' _ h => out_disj p p' h
  rw [out_cover d] at h1
  simp only [bigSep_univ_prod] at h1
  exact h1

end Cert.Proof.KB

end
-- ==== Proof.KBHost.lean ====
/-
  The TensorCore's host operations around the SparseCore call, as plain functions.

  Before the call the tokens [1024, 50] are transposed to [50, 1024] and cut, in row-major order, into 32 rows of 20
  chunks of 80: entry (w, j, r) of the re-laid tokens is token (b, t) with 1600 w + 80 j + r = 1024 t + b. After the call the
  result [32, 20, 80, 128] is read in row-major order as [50, 1024, 128] and transposed to [1024, 50, 128]; the logits
  [50, 1000, 1024] are transposed to [1024, 50, 1000].
-/
import proofs.«211305_g76828374991638_cont_9to1_m_1055_18_alg».proof.Proof.KBCommon

noncomputable section

namespace Cert.Proof.KB

open Cert.Kernel Cert.Kernel.Gen
open Idealize.ShloMosaic

/-- The tokens re-laid: transposed, then cut into 32 rows of 20 chunks of 80. -/
def relay {α : Type} (tok : S1024x50.Idx → α) : S32x20x80.Idx → α :=
  shapeCast S32x20x80 (transpose S50x1024 [1, 0] tok Gen.transposes_S1024x50_S50x1024_1_0) Gen.shapeCasts_S50x1024_S32x20x80

/-- The call's result read as [50, 1024, 128] and transposed to [1024, 50, 128]. -/
def unrelay {α : Type} (o : S32x20x80x128.Idx → α) : S1024x50x128.Idx → α :=
  transpose S1024x50x128 [1, 0, 2] (shapeCast S50x1024x128 o Gen.shapeCasts_S32x20x80x128_S50x1024x128) Gen.transposes_S50x1024x128_S1024x50x128_1_0_2

/-- The logits transposed to [1024, 50, 1000]. -/
def logitsOut {α : Type} (l : S50x1000x1024.Idx → α) : S1024x50x1000.Idx → α :=
  transpose S1024x50x1000 [2, 0, 1] l Gen.transposes_S50x1000x1024_S1024x50x1000_2_0_1

end Cert.Proof.KB

end
-- ==== Proof.KBHostVal.lean ====
/-
  The TensorCore's host operations around the SparseCore call, read at an index.

  The re-laid tokens at (w, j, r) are the token at (b, t) whenever 1600 w + 80 j + r = 1024 t + b: the cut into 32 rows
  of 20 chunks of 80 keeps the row-major position of the transposed array. Read back the same way, a result whose
  entry (w, j, r, e) is the table at the row the re-laid token at (w, j, r) names and column e is the lookup of the
  tokens in the table. The transposed logits keep their pattern: 1 at the programmed target of the position.
-/
import proofs.«211305_g76828374991638_cont_9to1_m_1055_18_alg».proof.Proof.KBHost
import proofs.«211305_g76828374991638_cont_9to1_m_1055_18_alg».proof.Proof.Spec
import Idealize.ShloMosaic.Lib.Pipeline.Value
import Idealize.ShloMosaic.Lib.ValueIdx

noncomputable section

namespace Cert.Proof.KB

open Cert.Kernel Cert.Kernel.Gen
open Idealize.ShloMosaic Idealize.ShloMosaic.ValueIdx

/-- The re-laid tokens at (w, j, r): the token at the (b, t) with the same row-major position in the transposed
    array. -/
theorem relay_apply {α : Type} (tok : S1024x50.Idx → α) (w : Fin 32) (j : Fin 20) (r : Fin 80) (b : Fin 1024) (t : Fin 50)
    (h : 1600 * w.val + 80 * j.val + r.val = 1024 * t.val + b.val) :
    relay tok (ix3 w j r) = tok (ix2 b t) := by
  unfold relay
  refine (shapeCast_apply _ _ (ix3 w j r) (ix2 (n0 := 50) (n1 := 1024) t b) ?_).trans ?_
  · rw [Shape.rowMajor_val_two, Shape.rowMajor_val_three]
    show t.val * 1024 + b.val = (w.val * 20 + j.val) * 80 + r.val
    omega
  · exact transpose_apply _ _ _ _ (ix2 (n0 := 1024) (n1 := 50) b t) (fun c => by
      match c with
      | ⟨0, _⟩ => rfl
      | ⟨1, _⟩ => rfl)

/-- Every re-laid token is one of the tokens: a bound on all of them is a bound on the re-laid ones. -/
theorem relay_lt (tok : S1024x50.Idx → BitVec 32) (h : ∀ p, (tok p).toNat < 1000) : ∀ i, (relay tok i).toNat < 1000 := by
  intro i
  unfold relay shapeCast transpose
  exact h _

/-- A result whose entry (w, j, r, e) is the table at the row the re-laid token at (w, j, r) names, column e, read back
    as [50, 1024, 128] and transposed, is the lookup. -/
theorem unrelay_lookup {α : Type} (tok : S1024x50.Idx → BitVec 32) (emb : S1000x128.Idx → α) :
    unrelay (fun i : S32x20x80x128.Idx => emb (ix2 (n0 := 1000) (n1 := 128) (Cert.Spec.rowOf (relay tok (ix3 (n0 := 32) (n1 := 20) (n2 := 80) ⟨(i 0).val, (i 0).isLt⟩ ⟨(i 1).val, (i 1).isLt⟩ ⟨(i 2).val, (i 2).isLt⟩))) ⟨(i 3).val, (i 3).isLt⟩))
      = Cert.Spec.lookup tok emb := by
  funext i
  obtain ⟨b, t, e, rfl⟩ : ∃ (b : Fin 1024) (t : Fin 50) (e : Fin 128), i = ix3 b t e := ⟨i 0, i 1, i 2, eq_ix3 i⟩
  have hb := b.isLt
  have ht := t.isLt
  let w : Fin 32 := ⟨(1024 * t.val + b.val) / 1600, by omega⟩
  let j : Fin 20 := ⟨(1024 * t.val + b.val) % 1600 / 80, by omega⟩
  let r : Fin 80 := ⟨(1024 * t.val + b.val) % 80, by omega⟩
  have hw : w.val = (1024 * t.val + b.val) / 1600 := rfl
  have hj : j.val = (1024 * t.val + b.val) % 1600 / 80 := rfl
  have hr : r.val = (1024 * t.val + b.val) % 80 := rfl
  have hsum : 1600 * w.val + 80 * j.val + r.val = 1024 * t.val + b.val := by omega
  unfold unrelay
  refine (transpose_apply _ _ _ (ix3 b t e) (ix3 (n0 := 50) (n1 := 1024) (n2 := 128) t b e) (fun c => by
    match c with
    | ⟨0, _⟩ => rfl
    | ⟨1, _⟩ => rfl
    | ⟨2, _⟩ => rfl)).trans ?_
  refine (shapeCast_apply _ _ (ix3 (n0 := 50) (n1 := 1024) (n2 := 128) t b e)
    (ix4 (n0 := 32) (n1 := 20) (n2 := 80) (n3 := 128) w j r e) ?_).trans ?_
  · rw [Shape.rowMajor_val_four, Shape.rowMajor_val_three]
    show ((w.val * 20 + j.val) * 80 + r.val) * 128 + e.val = (t.val * 1024 + b.val) * 128 + e.val
    omega
  · show emb (ix2 (n0 := 1000) (n1 := 128) (Cert.Spec.rowOf (relay tok (ix3 w j r))) e) = _
    rw [relay_apply tok w j r b t hsum]
    rfl

/-- The transposed logits keep their pattern: A at the programmed target of the position, B elsewhere. -/
theorem logitsOut_spec {α : Type} (A B : α) :
    logitsOut (fun i : S50x1000x1024.Idx => if (i 1).val = Cert.Spec.target (i 0).val then A else B)
      = fun i : S1024x50x1000.Idx => if (i 2).val = Cert.Spec.target (i 1).val then A else B := by
  funext i
  obtain ⟨b, t, v, rfl⟩ : ∃ (b : Fin 1024) (t : Fin 50) (v : Fin 1000), i = ix3 b t v := ⟨i 0, i 1, i 2, eq_ix3 i⟩
  unfold logitsOut
  refine (transpose_apply _ _ _ (ix3 b t v) (ix3 (n0 := 50) (n1 := 1000) (n2 := 1024) t v b) (fun c => by
    match c with
    | ⟨0, _⟩ => rfl
    | ⟨1, _⟩ => rfl
    | ⟨2, _⟩ => rfl)).trans ?_
  rfl

end Cert.Proof.KB

end
-- ==== Proof.KBMain.lean ====
/-
  @main on the TensorCore, and the program's run.

  The TensorCore re-lays the tokens (a transpose and a row-major cut), hands the SparseCore call the token rows, the
  result blocks and two read shares of the table, and takes them back with every block at the looked-up table rows;
  re-lays the result (a row-major reading and a transpose), which is then the lookup entry by entry; runs the logits
  kernel; and transposes its result, which is then the programmed logits entry by entry.
-/
import proofs.«211305_g76828374991638_cont_9to1_m_1055_18_alg».proof.Proof.KBLaunch
import proofs.«211305_g76828374991638_cont_9to1_m_1055_18_alg».proof.Proof.KBSplitArr
import proofs.«211305_g76828374991638_cont_9to1_m_1055_18_alg».proof.Proof.KBHostVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## One host operation from one array to another -/

omit [FloatOps F] in
theorem held_pair (d : Dev nD) (x' y' : DevRef τ sig) (hne : x' ≠ y') (W : Valuation τ sig (Elt F)) :
    (held (T d) {x', y'} W : sProp 𝕄) = iprop((((d, x') : Loc nD τ sig) ↦{fullShare} W x') ∗ (((d, y') : Loc nD τ sig) ↦{fullShare} W y')) := by
  unfold held
  rw [SparseCore.bigSep_insert' (by rw [Finset.mem_singleton]; exact hne), bigSep_singleton]

/-- The launch contents with two arrays replaced. -/
def val2 (d : Dev nD) (x' y' : DevRef τ sig) (fx : Buf (Elt F) ((d, x') : Loc nD τ sig)) (fy : Buf (Elt F) ((d, y') : Loc nD τ sig)) :
    Valuation τ sig (Elt F) :=
  Function.update (Function.update (fun b => m (d, b)) x' fx) y' fy

omit [FloatOps F] in
theorem val2_x (d : Dev nD) (x' y' : DevRef τ sig) (hne : x' ≠ y') (fx : Buf (Elt F) ((d, x') : Loc nD τ sig)) (fy : Buf (Elt F) ((d, y') : Loc nD τ sig)) :
    val2 m d x' y' fx fy x' = fx := by
  unfold val2; rw [Function.update_of_ne hne, Function.update_self]
omit [FloatOps F] in
theorem val2_y (d : Dev nD) (x' y' : DevRef τ sig) (fx : Buf (Elt F) ((d, x') : Loc nD τ sig)) (fy : Buf (Elt F) ((d, y') : Loc nD τ sig)) :
    val2 m d x' y' fx fy y' = fy := by
  unfold val2; rw [Function.update_self]

include m in
/-- A host operation that reads the array `x'` and writes the array `y'` with `g` of it, followed by nothing: `x'` is
    kept, `y'` ends at `g` of `x'`'s contents, named `fy'`. -/
theorem wp_host_step {op : HloOp τ sig (Elt F)} (d : Dev nD) (x' y' : DevRef τ sig) (hne : x' ≠ y')
    (hbufs : op.bufs = {x', y'}) (hwr : op.writes = {y'}) (hfr : op.fresh = ∅)
    (g : Buf (Elt F) ((d, x') : Loc nD τ sig) → Buf (Elt F) ((d, y') : Loc nD τ sig))
    (hres : ∀ W : Valuation τ sig (Elt F), op.result W y' = g (W x'))
    (fx : Buf (Elt F) ((d, x') : Loc nD τ sig)) (fy : Buf (Elt F) ((d, y') : Loc nD τ sig))
    (fy' : Buf (Elt F) ((d, y') : Loc nD τ sig)) (hfy : g fx = fy')
    {hp : (T d : Thread nD τ).2.kind.runsHlo = true} {Q : PUnit → sProp 𝕄} :
    iprop(boundary (T d : Thread nD τ) ∗ (((d, x') : Loc nD τ sig) ↦{fullShare} fx) ∗ (((d, y') : Loc nD τ sig) ↦{fullShare} fy))
      ⊢ iprop(((boundary (T d : Thread nD τ) ∗ (((d, x') : Loc nD τ sig) ↦{fullShare} fx) ∗ (((d, y') : Loc nD τ sig) ↦{fullShare} fy')) -∗ Q ⟨⟩)
          -∗ wp frame (wpE ((K (F := F)).defs (D (F := F))) 𝒱 (T d) none) Set.univ (hlo hp op (fun _ => .ret ⟨⟩)) Q) := by
  iintro ⟨Hb, Hx, Hy⟩ Hk
  iapply (wp_hlo_within 𝒱 (T d) none Set.univ (op := op) (S := {x', y'}) (hbufs ▸ Finset.Subset.refl _) (V := val2 m d x' y' fx fy) hfr) $$ [Hb Hx Hy]
  · isplitl [Hb]; · iexact Hb
    rw [held_pair d x' y' hne, val2_x m d x' y' hne, val2_y]
    isplitl [Hx]; · iexact Hx
    iexact Hy
  iintro ⟨Hb, Hh⟩
  rw [wp_ret]; imodintro
  iapply Hk
  isplitl [Hb]; · iexact Hb
  ihave Hh' := (Entails.of_eq (held_pair (F := F) d x' y' hne _)) $$ Hh
  icases Hh' with ⟨Hx, Hy⟩
  rw [op.result_of_not_mem _ (b := x') (by rw [hwr, Finset.mem_singleton]; exact hne), hres, val2_x m d x' y' hne, hfy]
  isplitl [Hx]; · iexact Hx
  iexact Hy

/-! ## The arrays of @main -/

abbrev a0Loc (d : Dev nD) : Loc nD τ sig := (SparseCore.T d).loc main_arg0
abbrev v0Loc (d : Dev nD) : Loc nD τ sig := (SparseCore.T d).loc main_v0
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-- The re-laid tokens the SparseCore call finds. -/
abbrev tkM : (d : Dev nD) → Buf (Elt F) (tokLoc d) := fun d => relay (m (a0Loc d))

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (embLoc d ↦{fullShare} W main_arg1) ∗ (v0Loc d ↦{fullShare} W main_v0)
      ∗ (tokLoc d ↦{fullShare} W main_v1) ∗ (outLoc d ↦{fullShare} W main_v2) ∗ (v3Loc d ↦{fullShare} W main_v3) ∗ (v4Loc d ↦{fullShare} W main_v4)
      ∗ (v5Loc d ↦{fullShare} W main_v5) ∗ (v6Loc d ↦{fullShare} W main_v6)) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The hand-over at the call -/

/-- The two SparseCores' shares of the arrays, regrouped: all the token rows, all the result blocks, the table's two read
    tokens. -/
theorem arr_eq (tk : (d : Dev nD) → Buf (Elt F) (tokLoc d)) (d : Dev nD) (g : Buf (Elt F) (outLoc d)) :
    (bigSep Finset.univ fun c : Fin ((K (F := F)).nCore 0) => iprop((bigSep Finset.univ fun i : Fin ((K (F := F)).nSub 0) => tileArr tk d (Lof c i) g)
        ∗ embLoc d ↦{embTok c.val} m (embLoc d)))
      = iprop(((tokLoc d ↦{fullShare} tk d) ∗ (outLoc d ↦{fullShare} g))
          ∗ bigSep Finset.univ fun c : Fin ((K (F := F)).nCore 0) => embLoc d ↦{embTok c.val} m (embLoc d)) := by
  have hT : (bigSep Finset.univ fun c : Fin ((K (F := F)).nCore 0) => bigSep Finset.univ fun i : Fin ((K (F := F)).nSub 0) => tileArr tk d (Lof c i) g)
      = iprop((tokLoc d ↦{fullShare} tk d) ∗ (outLoc d ↦{fullShare} g)) := by
    rw [tok_split (F := F) d (tk d), out_split (F := F) d g, ← bigSep_sep']
    refine bigSep_congr fun c _ => ?_
    rw [← bigSep_sep']
    rfl
  rw [bigSep_sep', hT]

theorem st_eq (tk : (d : Dev nD) → Buf (Elt F) (tokLoc d)) (d : Dev nD) :
    (bigSep Finset.univ fun c : Fin ((K (F := F)).nCore 0) => (P (F := F) m tk).st 0 d c)
      = iprop(((tokLoc d ↦{fullShare} tk d) ∗ (outLoc d ↦{fullShare} m (outLoc d)))
          ∗ bigSep Finset.univ fun c : Fin ((K (F := F)).nCore 0) => embLoc d ↦{embTok c.val} m (embLoc d)) :=
  arr_eq m tk d (m (outLoc d))

theorem dn_eq (tk : (d : Dev nD) → Buf (Elt F) (tokLoc d)) (d : Dev nD) :
    (bigSep Finset.univ fun c : Fin ((K (F := F)).nCore 0) => (P (F := F) m tk).dn 0 d c)
      = iprop(((tokLoc d ↦{fullShare} tk d) ∗ (outLoc d ↦{fullShare} outSpec m tk d))
          ∗ bigSep Finset.univ fun c : Fin ((K (F := F)).nCore 0) => embLoc d ↦{embTok c.val} m (embLoc d)) :=
  arr_eq m tk d (outSpec m tk d)

omit [FloatOps F] in
/-- The table's full share: a rest, and the two SparseCores' read tokens. -/
theorem emb_split (d : Dev nD) :
    (embLoc d ↦{fullShare} m (embLoc d) : sProp 𝕄)
      ⊣⊢ iprop((embLoc d ↦{Transfers.shareDrop fullShare 2} m (embLoc d))
          ∗ bigSep Finset.univ fun c : Fin ((K (F := F)).nCore 0) => embLoc d ↦{embTok c.val} m (embLoc d)) :=
  Transfers.pointsTo_toks (nD := nD) (τ := τ) (sig := sig) (Ix := HIx 1) (Val := Elt F) (Name := ℕ) (U := UU) (Lvl := ℕ)
    (ℓ := embLoc d) (S := Finset.univ) (f := m (embLoc d)) fullShare 2

/-! ## @main -/

/-- What @main leaves the claim: the arguments as launched, the lookup, the programmed logits. -/
abbrev FIN (d : Dev nD) : sProp 𝕄 :=
  iprop((a0Loc d ↦{fullShare} m (a0Loc d)) ∗ (embLoc d ↦{fullShare} m (embLoc d))
    ∗ (v4Loc d ↦{fullShare} (Cert.Spec.lookup (m (a0Loc d)) (m (embLoc d)) : Buf (Elt F) (v4Loc d)))
    ∗ (v6Loc d ↦{fullShare} (Cert.Spec.logits (F := F) : Buf (Elt F) (v6Loc d))))

set_option maxHeartbeats 4000000 in
theorem hmain (κ : GSem nD τ sig → ℕ) (d : Dev nD) :
    iprop((K (F := F)).ctx EH (P m (tkM m)) κ ∗ (K (F := F)).tcSt EH d 0 ∗ (K (F := F)).tcRes m ρ d ∗ GT (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4, Hv5, Hv6⟩, -, -⟩, HG⟩
  -- the tokens transposed
  iapply (wp_host_step m d (Proc.devRef .tc main_arg0) (Proc.devRef .tc main_v0) (by decide) rfl rfl rfl
      (fun t => transpose S50x1024 [1, 0] t Gen.transposes_S1024x50_S50x1024_1_0) (fun W => StableHlo.unary_result main_arg0 main_v0 _ _ _ W) _ _ _ rfl) $$ [Hb Ha0 Hv0]
  · isplitl [Hb]; · iexact Hb
    isplitl [Ha0]; · iexact Ha0
    iexact Hv0
  iintro ⟨Hb, Ha0, Hv0⟩
  -- and cut into the tiles' rows
  iapply (wp_host_step m d (Proc.devRef .tc main_v0) (Proc.devRef .tc main_v1) (by decide) rfl rfl rfl
      (fun t => shapeCast S32x20x80 t Gen.shapeCasts_S50x1024_S32x20x80) (fun W => StableHlo.reshape_result main_v0 main_v1 rfl _ _ _ W) _ _ (tkM m d) rfl) $$ [Hb Hv0 Hv1]
  · isplitl [Hb]; · iexact Hb
    isplitl [Hv0]; · iexact Hv0
    iexact Hv1
  iintro ⟨Hb, Hv0, Hv1⟩
  -- the SparseCore call
  ihave Hsp := ((emb_split m d).1) $$ Ha1
  icases Hsp with ⟨Hembr, Hembs⟩
  iapply ((K (F := F)).wp_run (D (F := F)) 𝒱 (EH := EH) (P := P m (tkM m)) κ d 0)
  isplitr; · iexact Hctx
  isplitl [Hst]; · iexact Hst
  isplitl [Hv1 Hv2 Hembs]
  · iapply (Entails.of_eq (st_eq m (tkM m) d).symm)
    isplitl [Hv1 Hv2]
    · isplitl [Hv1]; · iexact Hv1
      iexact Hv2
    iexact Hembs
  iintro ⟨Hst, Hdn⟩
  ihave Hdn' := (Entails.of_eq (dn_eq m (tkM m) d)) $$ Hdn
  icases Hdn' with ⟨⟨Hv1, Hv2⟩, Hembs⟩
  ihave Ha1 := ((emb_split m d).2) $$ [Hembr Hembs]
  · isplitl [Hembr]; · iexact Hembr
    iexact Hembs
  -- the result read in row-major order
  iapply (wp_host_step m d (Proc.devRef .tc main_v2) (Proc.devRef .tc main_v3) (by decide) rfl rfl rfl
      (fun t => shapeCast S50x1024x128 t Gen.shapeCasts_S32x20x80x128_S50x1024x128) (fun W => StableHlo.reshape_result main_v2 main_v3 rfl _ _ _ W) _ _ _ rfl) $$ [Hb Hv2 Hv3]
  · isplitl [Hb]; · iexact Hb
    isplitl [Hv2]; · iexact Hv2
    iexact Hv3
  iintro ⟨Hb, Hv2, Hv3⟩
  -- and transposed: the lookup
  iapply (wp_host_step m d (Proc.devRef .tc main_v3) (Proc.devRef .tc main_v4) (by decide) rfl rfl rfl
      (fun t => transpose S1024x50x128 [1, 0, 2] t Gen.transposes_S50x1024x128_S1024x50x128_1_0_2) (fun W => StableHlo.unary_result main_v3 main_v4 _ _ _ W) _ _
      (Cert.Spec.lookup (m (a0Loc d)) (m (embLoc d))) (unrelay_lookup (m (a0Loc d)) (m (embLoc d)))) $$ [Hb Hv3 Hv4]
  · isplitl [Hb]; · iexact Hb
    isplitl [Hv3]; · iexact Hv3
    iexact Hv4
  iintro ⟨Hb, Hv3, Hv4⟩
  -- the logits kernel
  iapply (wp_logits_call (P m (tkM m)) κ d _ _) $$ [Hst HG Hb Hv5]
  · isplitr; · iexact Hctx
    isplitl [Hst]; · iexact Hst
    isplitl [HG]; · iexact HG
    isplitl [Hb]; · iexact Hb
    iexact Hv5
  iintro ⟨Hst, Hb, Hv5⟩
  -- and its result transposed: the programmed logits
  iapply (wp_host_step m d (Proc.devRef .tc main_v5) (Proc.devRef .tc main_v6) (by decide) rfl rfl rfl
      (fun t => transpose S1024x50x1000 [2, 0, 1] t Gen.transposes_S50x1000x1024_S1024x50x1000_2_0_1) (fun W => StableHlo.unary_result main_v5 main_v6 _ _ _ W) _ _
      (Cert.Spec.logits (F := F)) (logitsOut_spec _ _)) $$ [Hb Hv5 Hv6]
  · isplitl [Hb]; · iexact Hb
    isplitl [Hv5]; · iexact Hv5
    iexact Hv6
  iintro ⟨Hb, Hv5, Hv6⟩
  isplitl [Hst]; · iexact Hst
  isplitl [Ha0]; · iexact Ha0
  isplitl [Ha1]; · iexact Ha1
  isplitl [Hv4]; · iexact Hv4
  iexact Hv6

/-! ## The final memory, the run -/

def fq (d : Dev nD) (s' : Phys nD τ sig (Elt F)) : Prop :=
  s'.mem.mem (v4Loc d) = Cert.Spec.lookup (m (a0Loc d)) (m (embLoc d)) ∧ s'.mem.mem (v6Loc d) = Cert.Spec.logits (F := F)
    ∧ s'.mem.mem (a0Loc d) = m (a0Loc d) ∧ s'.mem.mem (embLoc d) = m (embLoc d)

theorem hfin (d : Dev nD) (s' : Phys nD τ sig (Elt F)) : iprop(FIN m d ∗ SI s') ⊢ (⌜fq m d s'⌝ : sProp 𝕄) := by
  iintro ⟨⟨Ha0, Ha1, Hv4, Hv6⟩, HSI⟩
  icombine HSI Ha0 gives %h0
  icombine HSI Ha1 gives %h1
  icombine HSI Hv4 gives %h4
  icombine HSI Hv6 gives %h6
  ipureintro
  exact ⟨funext fun i => h4 i (Finset.mem_univ i), funext fun i => h6 i (Finset.mem_univ i),
    funext fun i => h0 i (Finset.mem_univ i), funext fun i => h1 i (Finset.mem_univ i)⟩

/-- The program's post: on every device the two results are the lookup and the programmed logits of the launch memory's
    arguments, and the arguments are as launched. -/
def QC : PUnit × MemSt nD τ sig (Elt F) → Prop := fun r => ∀ c : Dev nD,
  r.2.mem (v4Loc c) = Cert.Spec.lookup (m (a0Loc c)) (m (embLoc c)) ∧ r.2.mem (v6Loc c) = Cert.Spec.logits (F := F)
    ∧ r.2.mem (a0Loc c) = m (a0Loc c) ∧ r.2.mem (embLoc c) = m (embLoc c)

/-- Every weakly fair execution of the device's threads terminates, nothing faulting, with that post — provided every
    token word names a row of the table. -/
theorem run_main [∀ e, Nonempty (Elt F e)] (htok : ∀ (d : Dev nD) (p : S1024x50.Idx), ((m (a0Loc d)) p).toNat < 1000) :
    θ_run (Cert.Kernel.defs (F := F)) (Cert.Kernel.threads (F := F)) ⟨m, fun _ => 0, ρ⟩ (QC m) :=
  have htk : TokOK (tkM m) := fun d i => relay_lt (m (a0Loc d)) (htok d) i
  SparseCore.Cfg.θ_run_sc (K := K (F := F)) (D := D (F := F)) (𝒱 := 𝒱) (EH := EH) (P := P m (tkM m)) facts v₀
    (fun q hq => match q with | 0 => nomatch hq)
    (fun q _ => match q with | 0 => tileObl m (tkM m) facts htk)
    (fun q _ => match q with | 0 => vecSplit m (tkM m))
    m ρ main (fun d => GT (F := F) d) (FIN m) (u₀ (F := F)) (hu₀ m (tkM m)) (hmain m ρ) (fq m) (hfin m) (QC m) (fun _ h => h)

end Cert.Proof.KB

end
-- ==== Proof.RefRun.lean ====
/-
  The reference program as a straight line of host operations, and its run.

  The reference's entry function calls four module-local functions; a call means the callee's operations executed on
  the caller's buffers, so the whole program is one list of 79 host operations: the table of programmed targets, the
  24 operations of the row lookup (the index wrap, the in-range mask, the gather of rows, the select), the 23 of the
  sign-corrected remainder by 8, and the 31 that build the index pairs (position, target) and scatter ones into the
  array of −10⁹. Every weakly fair execution of that line terminates, and every buffer ends at the fold of the
  operations' results over the contents the run started from.
-/
import proofs.«211305_g76828374991638_cont_9to1_m_1055_18_alg».proof.Proof.Gen.ReferenceIdeal
import Idealize.ShloMosaic.Lib.StableHlo.Run

noncomputable section

namespace Cert.Proof.Ref

open Cert.ReferenceIdeal Idealize.ShloMosaic Idealize.ShloMosaic.TcCoe Idealize.SL.Sem Idealize.ShloMosaic.StableHlo
open Cert.ReferenceIdeal.Facts₀

variable {F : FTy → Type} [FloatOps F]

/-- The program's 79 operations in order, each call replaced by the callee's operations over that call's buffers. -/
abbrev ops : List (HloOp τ sig (Elt F)) :=
  [
    nullary main_c (fun i => lit0 (S8.rowMajor i)),
    TRef.nullary main_call0.c (constantI S_ 32 0#32),
    TRef.unary main_call0.c main_call0.v0 (broadcastInDim S1024x50 ![] bcast_S_S1024x50),
    TRef.binary (.of main_arg0 : TRef sig ⟨S1024x50, .i32⟩) main_call0.v0 main_call0.v1 (cmpi .slt),
    TRef.nullary main_call0.c_0 (constantI S_ 32 1000#32),
    TRef.unary main_call0.c_0 main_call0.v2 (broadcastInDim S1024x50 ![] bcast_S_S1024x50),
    TRef.binary (.of main_arg0 : TRef sig ⟨S1024x50, .i32⟩) main_call0.v2 main_call0.v3 addi,
    TRef.ternary main_call0.v1 main_call0.v3 (.of main_arg0 : TRef sig ⟨S1024x50, .i32⟩) main_call0.call0.v0 select,
    TRef.unary main_call0.call0.v0 main_call0.v5 (broadcastInDim S1024x50x1 ![0, 1] bcast_S1024x50_S1024x50x1_0_1),
    TRef.nullary main_call0.c_1 (constantI S1 32 999#32),
    TRef.nullary main_call0.c_2 (constantI S_ 32 0#32),
    TRef.unary main_call0.c_2 main_call0.v6 (broadcastInDim S1024x50x1 ![] bcast_S_S1024x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x50x1 ![0, 1, 2] bcast_S1x1x1_S1024x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x1_S1024x50_d2 h_S_),
    TRef.binary (.of main_arg1 : TRef sig ⟨S1000x128, .f32⟩) main_call0.v5 main_call0.v13 (fun x i => Host.gather gather_S1000x128_S1024x50x1_S1024x50x128_2_0_n_n_0_2_1128 x i),
    TRef.unary main_call0.v12 main_call0.v14 (broadcastInDim S1024x50x128 ![0, 1] bcast_S1024x50_S1024x50x128_0_1),
    TRef.nullary main_call0.cst (constant S_ .f32 0x7FC00000#32),
    TRef.unary main_call0.cst main_call0.v15 (broadcastInDim S1024x50x128 ![] bcast_S_S1024x50x128),
    TRef.ternary main_call0.v14 main_call0.v13 main_call0.v15 main_call0.v16 select,
    nullary main_v1 (iotaInDim S50 32 0),
    nullary main_c_0 (constantI S_ 32 8#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S50 ![] bcast_S_S50),
    TRef.binary (.of main_v1 : TRef sig ⟨S50, .i32⟩) main_call1.v3 main_call1.v4 Host.remsi,
    TRef.nullary main_call1.c_1 (constantI S_ 32 0#32),
    TRef.unary main_call1.c_1 main_call1.v5 (broadcastInDim S50 ![] bcast_S_S50),
    TRef.binary main_call1.v4 main_call1.v5 main_call1.v6 (cmpi .ne),
    TRef.nullary main_call1.c_2 (constantI S_ 32 0#32),
    TRef.unary main_call1.c_2 main_call1.v7 (broadcastInDim S50 ![] bcast_S_S50),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S50 ![] bcast_S_S50),
    TRef.binary main_call1.v8 main_call1.v10 main_call1.v11 (cmpi .ne),
    TRef.binary main_call1.v11 main_call1.v6 main_call1.v12 andi,
    TRef.unary main_call1.call0.v0 main_call1.v13 (broadcastInDim S50 ![] bcast_S_S50),
    TRef.binary main_call1.v4 main_call1.v13 main_call1.v14 addi,
    TRef.ternary main_call1.v12 main_call1.v14 main_call1.v4 main_call1.v15 select,
    nullary main_c_1 (constantI S_ 32 0#32),
    unary main_c_1 main_v3 (broadcastInDim S50 ![] bcast_S_S50 : (⟨S_, .i32⟩ : BufTy).Contents (Elt F) → (⟨S50, .i32⟩ : BufTy).Contents (Elt F)),
    binary main_v2 main_v3 main_v4 (cmpi .slt : (⟨S50, .i32⟩ : BufTy).Contents (Elt F) → (⟨S50, .i32⟩ : BufTy).Contents (Elt F) → (⟨S50, .i1⟩ : BufTy).Contents (Elt F)),
    nullary main_c_2 (constantI S_ 32 8#32),
    unary main_c_2 main_v5 (broadcastInDim S50 ![] bcast_S_S50 : (⟨S_, .i32⟩ : BufTy).Contents (Elt F) → (⟨S50, .i32⟩ : BufTy).Contents (Elt F)),
    binary main_v2 main_v5 main_v6 (addi : (⟨S50, .i32⟩ : BufTy).Contents (Elt F) → (⟨S50, .i32⟩ : BufTy).Contents (Elt F) → (⟨S50, .i32⟩ : BufTy).Contents (Elt F)),
    ternary main_v4 main_v6 main_v2 main_v7 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    unary main_v7 main_v8 (broadcastInDim S50x1 ![0] bcast_S50_S50x1_0 : (⟨S50, .i32⟩ : BufTy).Contents (Elt F) → (⟨S50x1, .i32⟩ : BufTy).Contents (Elt F)),
    binary main_c main_v8 main_v9 ((fun x i => Host.gather gather_S8_S50x1_S50_n_0_n_n_0_1_1 x i) : (⟨S8, .i32⟩ : BufTy).Contents (Elt F) → (⟨S50x1, .i32⟩ : BufTy).Contents (Elt F) → (⟨S50, .i32⟩ : BufTy).Contents (Elt F)),
    nullary main_cst (constant S_ .f32 0xCE6E6B28#32),
    unary main_cst main_v10 (broadcastInDim S1024x50x1000 ![] bcast_S_S1024x50x1000 : (⟨S_, .f32⟩ : BufTy).Contents (Elt F) → (⟨S1024x50x1000, .f32⟩ : BufTy).Contents (Elt F)),
    nullary main_v11 (iotaInDim S50 32 0),
    nullary main_c_3 (constantI S_ 32 0#32),
    unary main_c_3 main_v12 (broadcastInDim S50 ![] bcast_S_S50 : (⟨S_, .i32⟩ : BufTy).Contents (Elt F) → (⟨S50, .i32⟩ : BufTy).Contents (Elt F)),
    binary main_v11 main_v12 main_v13 (cmpi .slt : (⟨S50, .i32⟩ : BufTy).Contents (Elt F) → (⟨S50, .i32⟩ : BufTy).Contents (Elt F) → (⟨S50, .i1⟩ : BufTy).Contents (Elt F)),
    nullary main_c_4 (constantI S_ 32 50#32),
    unary main_c_4 main_v14 (broadcastInDim S50 ![] bcast_S_S50 : (⟨S_, .i32⟩ : BufTy).Contents (Elt F) → (⟨S50, .i32⟩ : BufTy).Contents (Elt F)),
    binary main_v11 main_v14 main_v15 (addi : (⟨S50, .i32⟩ : BufTy).Contents (Elt F) → (⟨S50, .i32⟩ : BufTy).Contents (Elt F) → (⟨S50, .i32⟩ : BufTy).Contents (Elt F)),
    ternary main_v13 main_v15 main_v11 main_v16 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    nullary main_c_5 (constantI S_ 32 0#32),
    unary main_c_5 main_v17 (broadcastInDim S50 ![] bcast_S_S50 : (⟨S_, .i32⟩ : BufTy).Contents (Elt F) → (⟨S50, .i32⟩ : BufTy).Contents (Elt F)),
    binary main_v9 main_v17 main_v18 (cmpi .slt : (⟨S50, .i32⟩ : BufTy).Contents (Elt F) → (⟨S50, .i32⟩ : BufTy).Contents (Elt F) → (⟨S50, .i1⟩ : BufTy).Contents (Elt F)),
    nullary main_c_6 (constantI S_ 32 1000#32),
    unary main_c_6 main_v19 (broadcastInDim S50 ![] bcast_S_S50 : (⟨S_, .i32⟩ : BufTy).Contents (Elt F) → (⟨S50, .i32⟩ : BufTy).Contents (Elt F)),
    binary main_v9 main_v19 main_v20 (addi : (⟨S50, .i32⟩ : BufTy).Contents (Elt F) → (⟨S50, .i32⟩ : BufTy).Contents (Elt F) → (⟨S50, .i32⟩ : BufTy).Contents (Elt F)),
    ternary main_v18 main_v20 main_v9 main_v21 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    unary main_v16 main_v22 (broadcastInDim S50x1 ![0] bcast_S50_S50x1_0 : (⟨S50, .i32⟩ : BufTy).Contents (Elt F) → (⟨S50x1, .i32⟩ : BufTy).Contents (Elt F)),
    unary main_v21 main_v23 (broadcastInDim S50x1 ![0] bcast_S50_S50x1_0 : (⟨S50, .i32⟩ : BufTy).Contents (Elt F) → (⟨S50x1, .i32⟩ : BufTy).Contents (Elt F)),
    binary main_v22 main_v23 main_v24 ((fun a b => concatenate S50x2 1 [⟨S50x1, a⟩, ⟨S50x1, b⟩] concatenates_S50x1_S50x1_S50x2_d1) : (⟨S50x1, .i32⟩ : BufTy).Contents (Elt F) → (⟨S50x1, .i32⟩ : BufTy).Contents (Elt F) → (⟨S50x2, .i32⟩ : BufTy).Contents (Elt F)),
    nullary main_cst_7 (constant S_ .f32 0x3F800000#32),
    unary main_cst_7 main_v25 (broadcastInDim S1024x50 ![] bcast_S_S1024x50 : (⟨S_, .f32⟩ : BufTy).Contents (Elt F) → (⟨S1024x50, .f32⟩ : BufTy).Contents (Elt F)),
    ternary main_v10 main_v24 main_v25 main_v26 ((fun x i u => Host.scatter scatter_S1024x50x1000_S50x2_S1024x50_0_12_12_1 (fun _ b => b) x i u) : (⟨S1024x50x1000, .f32⟩ : BufTy).Contents (Elt F) → (⟨S50x2, .i32⟩ : BufTy).Contents (Elt F) → (⟨S1024x50, .f32⟩ : BufTy).Contents (Elt F) → (⟨S1024x50x1000, .f32⟩ : BufTy).Contents (Elt F)) ]

set_option maxRecDepth 4096 in
/-- The entry function is that straight line: the callees' definitions unfolded at their calls, and sequencing
    reassociated. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨
    nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., nullary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., nullary_bufs_sub .., unary_bufs_sub ..,
    ternary_bufs_sub ..⟩

/-- Every weakly fair execution of the program terminates, and every buffer ends at the fold of the 79 operations'
    results over the contents the run started from. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefVal.lean ====
/-
  The two results of the reference as terms of its arguments.

  The first result is the gathered rows under the in-range mask: the token array with negative entries wrapped by
  1000 (`wrapIdx`), given a unit axis as the gather's column of start indices (`startIdx`); the mask says the
  wrapped index lies in 0..999 (`inRange`, an and-reduction over the unit axis); the result selects the gathered
  row where the mask is set and the not-a-number word elsewhere (`takeVal`).

  The second result does not read the arguments: a 50 by 2 table of index pairs (`idxTable`: column 0 the
  position, column 1 the table 3 5 7 1 4 2 6 0 read at the position's sign-corrected remainder by 8), and the
  scatter of an array of ones at those pairs into an array of the word 0xCE6E6B28 (`logitsVal`).

  Reading the fold of the 79 operations at the two result buffers gives exactly these terms, and at the two
  argument buffers what was there.
-/
import proofs.«211305_g76828374991638_cont_9to1_m_1055_18_alg».proof.Proof.RefRun

noncomputable section

namespace Cert.Proof.Ref

open Cert.ReferenceIdeal Idealize.ShloMosaic Idealize.ShloMosaic.TcCoe Idealize.SL.Sem Idealize.ShloMosaic.StableHlo
open Cert.ReferenceIdeal.Facts₀

variable {F : FTy → Type} [FloatOps F]

/-- The token array with negative entries moved up by 1000 (a negative index counts rows from the end). -/
def wrapIdx (tok : IVec S1024x50 32) : IVec S1024x50 32 :=
  select (cmpi .slt tok (broadcastInDim S1024x50 ![] bcast_S_S1024x50 (constantI S_ 32 0#32)))
    (addi tok (broadcastInDim S1024x50 ![] bcast_S_S1024x50 (constantI S_ 32 1000#32))) tok

/-- The wrapped tokens as the gather's start indices: one index per (batch, position), on a unit axis. -/
def startIdx (tok : IVec S1024x50 32) : IVec S1024x50x1 32 :=
  broadcastInDim S1024x50x1 ![0, 1] bcast_S1024x50_S1024x50x1_0_1 (wrapIdx tok)

/-- The mask: the start index lies in 0..999, and-reduced over the unit axis. -/
def inRange (tok : IVec S1024x50 32) : IVec S1024x50 1 :=
  Host.reduce IntOp.andi
    (andi (cmpi .sge (startIdx tok) (broadcastInDim S1024x50x1 ![] bcast_S_S1024x50x1 (constantI S_ 32 0#32)))
      (cmpi .sle (startIdx tok)
        (broadcastInDim S1024x50x1 ![0, 1, 2] bcast_S1x1x1_S1024x50x1_0_1_2
          (broadcastInDim S1x1x1 ![2] bcast_S1_S1x1x1_2 (constantI S1 32 999#32)))))
    (constantI S_ 1 1#1) reducesTo_S1024x50x1_S1024x50_d2 h_S_

/-- The first result: the gathered row where the mask is set, the not-a-number word elsewhere. -/
def takeVal (tok : IVec S1024x50 32) (emb : FVec F S1000x128 .f32) : FVec F S1024x50x128 .f32 :=
  select (broadcastInDim S1024x50x128 ![0, 1] bcast_S1024x50_S1024x50x128_0_1 (inRange tok))
    (Host.gather gather_S1000x128_S1024x50x1_S1024x50x128_2_0_n_n_0_2_1128 emb (startIdx tok))
    (broadcastInDim S1024x50x128 ![] bcast_S_S1024x50x128 (constant S_ .f32 0x7FC00000#32))

/-- The table of programmed targets, as the program's first operation spells it. -/
def litTbl : IVec S8 32 := fun i => lit0 (S8.rowMajor i)

/-- The positions 0..49 reduced modulo 8 with the sign of the divisor (the sign-corrected remainder): a closed
    integer term. -/
def remVal : IVec S50 32 :=
  let v1 : IVec S50 32 := (iotaInDim S50 32 0)
  let c_0 : IVec S_ 32 := (constantI S_ 32 8#32)
  let call1_v0 : IVec S_ 32 := id c_0
  let call1_c : IVec S_ 32 := (constantI S_ 32 0#32)
  let call1_v1 : IVec S_ 1 := (cmpi .eq) call1_v0 call1_c
  let call1_c_0 : IVec S_ 32 := (constantI S_ 32 1#32)
  let call1_v2 : IVec S_ 32 := select call1_v1 call1_c_0 call1_v0
  let call1_v3 : IVec S50 32 := (broadcastInDim S50 ![] bcast_S_S50) call1_v2
  let call1_v4 : IVec S50 32 := Host.remsi v1 call1_v3
  let call1_c_1 : IVec S_ 32 := (constantI S_ 32 0#32)
  let call1_v5 : IVec S50 32 := (broadcastInDim S50 ![] bcast_S_S50) call1_c_1
  let call1_v6 : IVec S50 1 := (cmpi .ne) call1_v4 call1_v5
  let call1_c_2 : IVec S_ 32 := (constantI S_ 32 0#32)
  let call1_v7 : IVec S50 32 := (broadcastInDim S50 ![] bcast_S_S50) call1_c_2
  let call1_v8 : IVec S50 1 := (cmpi .slt) call1_v4 call1_v7
  let call1_c_3 : IVec S_ 32 := (constantI S_ 32 0#32)
  let call1_v9 : IVec S_ 1 := (cmpi .slt) call1_v2 call1_c_3
  let call1_v10 : IVec S50 1 := (broadcastInDim S50 ![] bcast_S_S50) call1_v9
  let call1_v11 : IVec S50 1 := (cmpi .ne) call1_v8 call1_v10
  let call1_v12 : IVec S50 1 := andi call1_v11 call1_v6
  let call1_v13 : IVec S50 32 := (broadcastInDim S50 ![] bcast_S_S50) call1_v2
  let call1_v14 : IVec S50 32 := addi call1_v4 call1_v13
  let v2 : IVec S50 32 := select call1_v12 call1_v14 call1_v4
  v2

/-- Column 0 of the scatter indices: the position, wrapped by 50 if negative. A closed integer term. -/
def col0 : IVec S50x1 32 :=
  let v11 : IVec S50 32 := (iotaInDim S50 32 0)
  let c_3 : IVec S_ 32 := (constantI S_ 32 0#32)
  let v12 : IVec S50 32 := (broadcastInDim S50 ![] bcast_S_S50) c_3
  let v13 : IVec S50 1 := (cmpi .slt) v11 v12
  let c_4 : IVec S_ 32 := (constantI S_ 32 50#32)
  let v14 : IVec S50 32 := (broadcastInDim S50 ![] bcast_S_S50) c_4
  let v15 : IVec S50 32 := addi v11 v14
  let v16 : IVec S50 32 := select v13 v15 v11
  let v22 : IVec S50x1 32 := (broadcastInDim S50x1 ![0] bcast_S50_S50x1_0) v16
  v22

/-- Column 1 of the scatter indices: the table of targets read at the remainder (wrapped by 8 if negative), the
    entry wrapped by 1000 if negative. A closed integer term. -/
def col1 : IVec S50x1 32 :=
  let c_1 : IVec S_ 32 := (constantI S_ 32 0#32)
  let v3 : IVec S50 32 := (broadcastInDim S50 ![] bcast_S_S50) c_1
  let v4 : IVec S50 1 := (cmpi .slt) remVal v3
  let c_2 : IVec S_ 32 := (constantI S_ 32 8#32)
  let v5 : IVec S50 32 := (broadcastInDim S50 ![] bcast_S_S50) c_2
  let v6 : IVec S50 32 := addi remVal v5
  let v7 : IVec S50 32 := select v4 v6 remVal
  let v8 : IVec S50x1 32 := (broadcastInDim S50x1 ![0] bcast_S50_S50x1_0) v7
  let v9 : IVec S50 32 := (fun x i => Host.gather gather_S8_S50x1_S50_n_0_n_n_0_1_1 x i) litTbl v8
  let c_5 : IVec S_ 32 := (constantI S_ 32 0#32)
  let v17 : IVec S50 32 := (broadcastInDim S50 ![] bcast_S_S50) c_5
  let v18 : IVec S50 1 := (cmpi .slt) v9 v17
  let c_6 : IVec S_ 32 := (constantI S_ 32 1000#32)
  let v19 : IVec S50 32 := (broadcastInDim S50 ![] bcast_S_S50) c_6
  let v20 : IVec S50 32 := addi v9 v19
  let v21 : IVec S50 32 := select v18 v20 v9
  let v23 : IVec S50x1 32 := (broadcastInDim S50x1 ![0] bcast_S50_S50x1_0) v21
  v23

/-- The 50 by 2 table of scatter indices: the two columns side by side. -/
def idxTable : IVec S50x2 32 :=
  concatenate S50x2 1 [⟨S50x1, col0⟩, ⟨S50x1, col1⟩] concatenates_S50x1_S50x1_S50x2_d1

/-- The second result: ones scattered at the table's index pairs into the array of the word 0xCE6E6B28. -/
def logitsVal : FVec F S1024x50x1000 .f32 :=
  Host.scatter scatter_S1024x50x1000_S50x2_S1024x50_0_12_12_1 (fun _ b => b)
    (broadcastInDim S1024x50x1000 ![] bcast_S_S1024x50x1000 (constant S_ .f32 0xCE6E6B28#32))
    idxTable
    (broadcastInDim S1024x50 ![] bcast_S_S1024x50 (constant S_ .f32 0x3F800000#32))

/-! ## The fold, read at the result and argument buffers

The line is cut in three: the first 47 operations (the table of targets, the lookup, the remainder), the next 28
(the two columns of scatter indices and the array of 0xCE6E6B28), and the last 4 (the columns set side by side, the
array of ones, the scatter). Each stretch is read over whatever the one before left. -/

/-- The first 47 operations. -/
abbrev opsA : List (HloOp τ sig (Elt F)) :=
  [
    nullary main_c (fun i => lit0 (S8.rowMajor i)),
    TRef.nullary main_call0.c (constantI S_ 32 0#32),
    TRef.unary main_call0.c main_call0.v0 (broadcastInDim S1024x50 ![] bcast_S_S1024x50),
    TRef.binary (.of main_arg0 : TRef sig ⟨S1024x50, .i32⟩) main_call0.v0 main_call0.v1 (cmpi .slt),
    TRef.nullary main_call0.c_0 (constantI S_ 32 1000#32),
    TRef.unary main_call0.c_0 main_call0.v2 (broadcastInDim S1024x50 ![] bcast_S_S1024x50),
    TRef.binary (.of main_arg0 : TRef sig ⟨S1024x50, .i32⟩) main_call0.v2 main_call0.v3 addi,
    TRef.ternary main_call0.v1 main_call0.v3 (.of main_arg0 : TRef sig ⟨S1024x50, .i32⟩) main_call0.call0.v0 select,
    TRef.unary main_call0.call0.v0 main_call0.v5 (broadcastInDim S1024x50x1 ![0, 1] bcast_S1024x50_S1024x50x1_0_1),
    TRef.nullary main_call0.c_1 (constantI S1 32 999#32),
    TRef.nullary main_call0.c_2 (constantI S_ 32 0#32),
    TRef.unary main_call0.c_2 main_call0.v6 (broadcastInDim S1024x50x1 ![] bcast_S_S1024x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x50x1 ![0, 1, 2] bcast_S1x1x1_S1024x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x1_S1024x50_d2 h_S_),
    TRef.binary (.of main_arg1 : TRef sig ⟨S1000x128, .f32⟩) main_call0.v5 main_call0.v13 (fun x i => Host.gather gather_S1000x128_S1024x50x1_S1024x50x128_2_0_n_n_0_2_1128 x i),
    TRef.unary main_call0.v12 main_call0.v14 (broadcastInDim S1024x50x128 ![0, 1] bcast_S1024x50_S1024x50x128_0_1),
    TRef.nullary main_call0.cst (constant S_ .f32 0x7FC00000#32),
    TRef.unary main_call0.cst main_call0.v15 (broadcastInDim S1024x50x128 ![] bcast_S_S1024x50x128),
    TRef.ternary main_call0.v14 main_call0.v13 main_call0.v15 main_call0.v16 select,
    nullary main_v1 (iotaInDim S50 32 0),
    nullary main_c_0 (constantI S_ 32 8#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S50 ![] bcast_S_S50),
    TRef.binary (.of main_v1 : TRef sig ⟨S50, .i32⟩) main_call1.v3 main_call1.v4 Host.remsi,
    TRef.nullary main_call1.c_1 (constantI S_ 32 0#32),
    TRef.unary main_call1.c_1 main_call1.v5 (broadcastInDim S50 ![] bcast_S_S50),
    TRef.binary main_call1.v4 main_call1.v5 main_call1.v6 (cmpi .ne),
    TRef.nullary main_call1.c_2 (constantI S_ 32 0#32),
    TRef.unary main_call1.c_2 main_call1.v7 (broadcastInDim S50 ![] bcast_S_S50),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S50 ![] bcast_S_S50),
    TRef.binary main_call1.v8 main_call1.v10 main_call1.v11 (cmpi .ne),
    TRef.binary main_call1.v11 main_call1.v6 main_call1.v12 andi,
    TRef.unary main_call1.call0.v0 main_call1.v13 (broadcastInDim S50 ![] bcast_S_S50),
    TRef.binary main_call1.v4 main_call1.v13 main_call1.v14 addi,
    TRef.ternary main_call1.v12 main_call1.v14 main_call1.v4 main_call1.v15 select ]

/-- The next 28 operations. -/
abbrev opsB : List (HloOp τ sig (Elt F)) :=
  [
    nullary main_c_1 (constantI S_ 32 0#32),
    unary main_c_1 main_v3 (broadcastInDim S50 ![] bcast_S_S50 : (⟨S_, .i32⟩ : BufTy).Contents (Elt F) → (⟨S50, .i32⟩ : BufTy).Contents (Elt F)),
    binary main_v2 main_v3 main_v4 (cmpi .slt : (⟨S50, .i32⟩ : BufTy).Contents (Elt F) → (⟨S50, .i32⟩ : BufTy).Contents (Elt F) → (⟨S50, .i1⟩ : BufTy).Contents (Elt F)),
    nullary main_c_2 (constantI S_ 32 8#32),
    unary main_c_2 main_v5 (broadcastInDim S50 ![] bcast_S_S50 : (⟨S_, .i32⟩ : BufTy).Contents (Elt F) → (⟨S50, .i32⟩ : BufTy).Contents (Elt F)),
    binary main_v2 main_v5 main_v6 (addi : (⟨S50, .i32⟩ : BufTy).Contents (Elt F) → (⟨S50, .i32⟩ : BufTy).Contents (Elt F) → (⟨S50, .i32⟩ : BufTy).Contents (Elt F)),
    ternary main_v4 main_v6 main_v2 main_v7 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    unary main_v7 main_v8 (broadcastInDim S50x1 ![0] bcast_S50_S50x1_0 : (⟨S50, .i32⟩ : BufTy).Contents (Elt F) → (⟨S50x1, .i32⟩ : BufTy).Contents (Elt F)),
    binary main_c main_v8 main_v9 ((fun x i => Host.gather gather_S8_S50x1_S50_n_0_n_n_0_1_1 x i) : (⟨S8, .i32⟩ : BufTy).Contents (Elt F) → (⟨S50x1, .i32⟩ : BufTy).Contents (Elt F) → (⟨S50, .i32⟩ : BufTy).Contents (Elt F)),
    nullary main_cst (constant S_ .f32 0xCE6E6B28#32),
    unary main_cst main_v10 (broadcastInDim S1024x50x1000 ![] bcast_S_S1024x50x1000 : (⟨S_, .f32⟩ : BufTy).Contents (Elt F) → (⟨S1024x50x1000, .f32⟩ : BufTy).Contents (Elt F)),
    nullary main_v11 (iotaInDim S50 32 0),
    nullary main_c_3 (constantI S_ 32 0#32),
    unary main_c_3 main_v12 (broadcastInDim S50 ![] bcast_S_S50 : (⟨S_, .i32⟩ : BufTy).Contents (Elt F) → (⟨S50, .i32⟩ : BufTy).Contents (Elt F)),
    binary main_v11 main_v12 main_v13 (cmpi .slt : (⟨S50, .i32⟩ : BufTy).Contents (Elt F) → (⟨S50, .i32⟩ : BufTy).Contents (Elt F) → (⟨S50, .i1⟩ : BufTy).Contents (Elt F)),
    nullary main_c_4 (constantI S_ 32 50#32),
    unary main_c_4 main_v14 (broadcastInDim S50 ![] bcast_S_S50 : (⟨S_, .i32⟩ : BufTy).Contents (Elt F) → (⟨S50, .i32⟩ : BufTy).Contents (Elt F)),
    binary main_v11 main_v14 main_v15 (addi : (⟨S50, .i32⟩ : BufTy).Contents (Elt F) → (⟨S50, .i32⟩ : BufTy).Contents (Elt F) → (⟨S50, .i32⟩ : BufTy).Contents (Elt F)),
    ternary main_v13 main_v15 main_v11 main_v16 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    nullary main_c_5 (constantI S_ 32 0#32),
    unary main_c_5 main_v17 (broadcastInDim S50 ![] bcast_S_S50 : (⟨S_, .i32⟩ : BufTy).Contents (Elt F) → (⟨S50, .i32⟩ : BufTy).Contents (Elt F)),
    binary main_v9 main_v17 main_v18 (cmpi .slt : (⟨S50, .i32⟩ : BufTy).Contents (Elt F) → (⟨S50, .i32⟩ : BufTy).Contents (Elt F) → (⟨S50, .i1⟩ : BufTy).Contents (Elt F)),
    nullary main_c_6 (constantI S_ 32 1000#32),
    unary main_c_6 main_v19 (broadcastInDim S50 ![] bcast_S_S50 : (⟨S_, .i32⟩ : BufTy).Contents (Elt F) → (⟨S50, .i32⟩ : BufTy).Contents (Elt F)),
    binary main_v9 main_v19 main_v20 (addi : (⟨S50, .i32⟩ : BufTy).Contents (Elt F) → (⟨S50, .i32⟩ : BufTy).Contents (Elt F) → (⟨S50, .i32⟩ : BufTy).Contents (Elt F)),
    ternary main_v18 main_v20 main_v9 main_v21 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    unary main_v16 main_v22 (broadcastInDim S50x1 ![0] bcast_S50_S50x1_0 : (⟨S50, .i32⟩ : BufTy).Contents (Elt F) → (⟨S50x1, .i32⟩ : BufTy).Contents (Elt F)),
    unary main_v21 main_v23 (broadcastInDim S50x1 ![0] bcast_S50_S50x1_0 : (⟨S50, .i32⟩ : BufTy).Contents (Elt F) → (⟨S50x1, .i32⟩ : BufTy).Contents (Elt F)) ]

/-- The last 4 operations. -/
abbrev opsC : List (HloOp τ sig (Elt F)) :=
  [
    binary main_v22 main_v23 main_v24 ((fun a b => concatenate S50x2 1 [⟨S50x1, a⟩, ⟨S50x1, b⟩] concatenates_S50x1_S50x1_S50x2_d1) : (⟨S50x1, .i32⟩ : BufTy).Contents (Elt F) → (⟨S50x1, .i32⟩ : BufTy).Contents (Elt F) → (⟨S50x2, .i32⟩ : BufTy).Contents (Elt F)),
    nullary main_cst_7 (constant S_ .f32 0x3F800000#32),
    unary main_cst_7 main_v25 (broadcastInDim S1024x50 ![] bcast_S_S1024x50 : (⟨S_, .f32⟩ : BufTy).Contents (Elt F) → (⟨S1024x50, .f32⟩ : BufTy).Contents (Elt F)),
    ternary main_v10 main_v24 main_v25 main_v26 ((fun x i u => Host.scatter scatter_S1024x50x1000_S50x2_S1024x50_0_12_12_1 (fun _ b => b) x i u) : (⟨S1024x50x1000, .f32⟩ : BufTy).Contents (Elt F) → (⟨S50x2, .i32⟩ : BufTy).Contents (Elt F) → (⟨S1024x50, .f32⟩ : BufTy).Contents (Elt F) → (⟨S1024x50x1000, .f32⟩ : BufTy).Contents (Elt F)) ]

theorem ops_split : (ops : List (HloOp τ sig (Elt F))) = opsA ++ (opsB ++ opsC) := rfl

/-- The fold over two stretches is the second's over the first's. -/
theorem after_split (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section
attribute [local irreducible] Host.reduce Host.gather Host.scatter

set_option maxRecDepth 8192 in
/-- The fold read at the first result buffer. -/
theorem v0_eq (V : Valuation τ sig (Elt F)) :
    after ops V (main_v0 : DevRef τ sig) = takeVal (V (main_arg0 : DevRef τ sig)) (V (main_arg1 : DevRef τ sig)) := by
  after_results_simp
  rfl

set_option maxRecDepth 8192 in
/-- The first stretch leaves the remainder in its buffer. -/
theorem rem_eq (V : Valuation τ sig (Elt F)) : after opsA V (main_v2 : DevRef τ sig) = remVal := by
  after_results_simp
  rfl

set_option maxRecDepth 8192 in
/-- The first stretch leaves the table of targets in its buffer. -/
theorem lit_eq (V : Valuation τ sig (Elt F)) : after opsA V (main_c : DevRef τ sig) = litTbl := by
  after_results_simp
  rfl

set_option maxRecDepth 8192 in
/-- The second stretch leaves column 0 of the scatter indices in its buffer. -/
theorem col0_of (W : Valuation τ sig (Elt F)) : after opsB W (main_v22 : DevRef τ sig) = col0 := by
  after_results_simp
  rfl

set_option maxRecDepth 8192 in
/-- The second stretch leaves column 1 in its buffer, over the remainder and the table of targets. -/
theorem col1_of (W : Valuation τ sig (Elt F)) (h2 : W (main_v2 : DevRef τ sig) = remVal) (hc : W (main_c : DevRef τ sig) = litTbl) :
    after opsB W (main_v23 : DevRef τ sig) = col1 := by
  after_results_simp
  rw [h2, hc]
  rfl

set_option maxRecDepth 8192 in
/-- The second stretch leaves the array of the word 0xCE6E6B28 in its buffer. -/
theorem base_of (W : Valuation τ sig (Elt F)) :
    after opsB W (main_v10 : DevRef τ sig)
      = broadcastInDim S1024x50x1000 ![] bcast_S_S1024x50x1000 (constant (F := F) S_ .f32 0xCE6E6B28#32) := by
  after_results_simp

set_option maxRecDepth 8192 in
/-- The last stretch, read at the second result buffer over the two columns and the base array. -/
theorem v26_of (W : Valuation τ sig (Elt F)) (X : FVec F S1024x50x1000 .f32) (A B : IVec S50x1 32)
    (hX : W (main_v10 : DevRef τ sig) = X) (hA : W (main_v22 : DevRef τ sig) = A) (hB : W (main_v23 : DevRef τ sig) = B) :
    after opsC W (main_v26 : DevRef τ sig)
      = Host.scatter scatter_S1024x50x1000_S50x2_S1024x50_0_12_12_1 (fun _ b => b) X
          (concatenate S50x2 1 [⟨S50x1, A⟩, ⟨S50x1, B⟩] concatenates_S50x1_S50x1_S50x2_d1)
          (broadcastInDim S1024x50 ![] bcast_S_S1024x50 (constant (F := F) S_ .f32 0x3F800000#32)) := by
  subst hX hA hB
  after_results_simp

/-- The fold read at the second result buffer. -/
theorem v26_eq (V : Valuation τ sig (Elt F)) :
    after ops V (main_v26 : DevRef τ sig) = logitsVal (F := F) := by
  rw [ops_split, after_split, after_split]
  exact v26_of _ _ _ _ (base_of _) (col0_of _) (col1_of _ (rem_eq V) (lit_eq V))

set_option maxRecDepth 8192 in
/-- No operation writes the token array. -/
theorem arg0_eq (V : Valuation τ sig (Elt F)) :
    after ops V (main_arg0 : DevRef τ sig) = V (main_arg0 : DevRef τ sig) := by
  after_results_simp

set_option maxRecDepth 8192 in
/-- No operation writes the embedding table. -/
theorem arg1_eq (V : Valuation τ sig (Elt F)) :
    after ops V (main_arg1 : DevRef τ sig) = V (main_arg1 : DevRef τ sig) := by
  after_results_simp
end

end Cert.Proof.Ref

end
-- ==== Proof.RefPre.lean ====
/-
  From the precondition to the range of the token words.

  The precondition is a printed function of the two arguments whose value is the one-bit word 1: the conjunction of
  "every table entry is finite" and "every token lies in 0..999", each an and-reduction over a whole array. Only the
  second half is used here, so the statement holds whatever the float values are: a reduction by and that came out 1
  met a 1 at every element, and an element is the and of the two signed comparisons of the token word with 0 and
  with 999. A word in that range read signed is below 1000 read as a natural number.
-/
import proofs.«211305_g76828374991638_cont_9to1_m_1055_18_alg».proof.Proof.Gen.Pre_input_domain
import Idealize.ShloMosaic.Lib.ReduceAll
import Idealize.ShloMosaic.Lib.ValueIdx
import Idealize.ShloMosaic.PureOps.Ideal

noncomputable section

namespace Cert.Proof.Ref

open Idealize.ShloMosaic

instance : Subsingleton Cert.Pre_input_domain.S_.Idx := ⟨fun a b => funext fun d => d.elim0⟩

variable {F : FTy → Type} [FloatOps F]

/-- Under the precondition every token word, read signed, lies in 0..999. -/
theorem range_of_pre (tok : IVec Cert.Pre_input_domain.S1024x50 32) (emb : FVec F Cert.Pre_input_domain.S1000x128 .f32)
    (h : Cert.Pre_input_domain.fn (F := F) tok emb = fun _ => 1#1) (p : Cert.Pre_input_domain.S1024x50.Idx) :
    0 ≤ (tok p).toInt ∧ (tok p).toInt ≤ 999 := by
  have h0 := congrFun h ValueIdx.ix0
  dsimp only [Cert.Pre_input_domain.fn] at h0
  obtain ⟨-, h9⟩ := IntOp.andi_eq_one.1 h0
  have hp := Host.reduce_andi_all _ _ _ _ _ h9 p
  obtain ⟨hge, hle⟩ := IntOp.andi_eq_one.1 hp
  have h1 := IntOp.cmpi_sge.1 hge
  have h2 := IntOp.cmpi_sle.1 hle
  exact ⟨h1, h2⟩

/-- Under the precondition every token word, read as a natural number, is below 1000. -/
theorem tok_lt_of_pre (tok : IVec Cert.Pre_input_domain.S1024x50 32) (emb : FVec F Cert.Pre_input_domain.S1000x128 .f32)
    (h : Cert.Pre_input_domain.fn (F := F) tok emb = fun _ => 1#1) (p : Cert.Pre_input_domain.S1024x50.Idx) :
    (tok p).toNat < 1000 := by
  obtain ⟨h0, h1⟩ := range_of_pre tok emb h p
  have hlt : (tok p).toNat < 4294967296 := (tok p).isLt
  rw [BitVec.toInt_eq_toNat_cond] at h0 h1
  by_cases hc : 2 * (tok p).toNat < 2 ^ 32
  · rw [if_pos hc] at h1
    omega
  · rw [if_neg hc] at h0
    omega

end Cert.Proof.Ref

end
-- ==== Proof.RefLookup.lean ====
/-
  The first result is the embedding lookup.

  Under the range 0 ≤ token ≤ 999: the wrap of negative indices changes nothing (no token is negative); the mask
  is 1 everywhere (an and-reduction whose every element is the and of two true comparisons); the gather of whole
  rows, read at (b, t, e), is the table at the row its start index names — read signed and cut at 999 — and column e;
  and a nonnegative word read signed is the word read as a natural number. So entry (b, t, e) is the table at row
  tokens[b, t], column e.
-/
import proofs.«211305_g76828374991638_cont_9to1_m_1055_18_alg».proof.Proof.RefVal
import proofs.«211305_g76828374991638_cont_9to1_m_1055_18_alg».proof.Proof.Spec
import Idealize.ShloMosaic.Lib.ValueIdx
import Idealize.ShloMosaic.Lib.Affine
import Idealize.ShloMosaic.PureOps.Reduce

noncomputable section

namespace Cert.Proof.Ref

open Cert.ReferenceIdeal Idealize.ShloMosaic Idealize.ShloMosaic.TcCoe Idealize.SL.Sem Idealize.ShloMosaic.StableHlo
open Cert.ReferenceIdeal.Facts₀
open Idealize.ShloMosaic.ValueIdx

variable {F : FTy → Type} [FloatOps F]

/-! ## Words -/

theorem toInt_zero32 : (0#32 : BitVec 32).toInt = 0 := by decide
theorem toInt_999 : (999#32 : BitVec 32).toInt = 999 := by decide

/-- A word that is nonnegative read signed is the same number read unsigned. -/
theorem toNat_of_nonneg {w : BitVec 32} (h : 0 ≤ w.toInt) : w.toInt.toNat = w.toNat := by
  have hlt : w.toNat < 4294967296 := w.isLt
  rw [BitVec.toInt_eq_toNat_cond] at h ⊢
  by_cases hc : 2 * w.toNat < 2 ^ 32
  · rw [if_pos hc]
    exact Int.toNat_natCast _
  · rw [if_neg hc] at h
    omega

/-- The wrap of a nonnegative index is the index. -/
theorem wrap_id {w : BitVec 32} (h : 0 ≤ w.toInt) :
    Scalar.select (IntOp.cmpi .slt w 0#32) (IntOp.addi w 1000#32) w = w := by
  have hne : ¬ IntOp.cmpi .slt w 0#32 = 1#1 := fun e => by
    have := IntOp.cmpi_slt.1 e
    rw [toInt_zero32] at this
    omega
  rw [eq_zero_of_ne_one hne, select_zero]

/-- A left fold by and, from 1, over words that are all 1, is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_all_one f l _ (IntOp.andi_eq_one.2 ⟨h, hl a List.mem_cons_self⟩)
      (fun n hn => hl n (List.mem_cons_of_mem _ hn))

/-! ## The start indices and the mask -/

/-- The wrapped token array at (b, t), for a nonnegative token: the token. -/
theorem wrapIdx_apply (tok : IVec S1024x50 32) (p : S1024x50.Idx) (h : 0 ≤ (tok p).toInt) : wrapIdx tok p = tok p :=
  wrap_id h

/-- The column of start indices at (b, t, 0) is the wrapped token array at (b, t). -/
theorem startIdx_apply (tok : IVec S1024x50 32) (b : Fin 1024) (t : Fin 50) (z : Fin 1) :
    startIdx tok (ix3 b t z) = wrapIdx tok (ix2 b t) := by
  unfold startIdx broadcastInDim
  exact congrArg (wrapIdx tok) (funext fun a => by
    match a with
    | ⟨0, _⟩ => rfl
    | ⟨1, _⟩ => rfl)

/-- With every token in 0..999 the mask is 1 at every (b, t). -/
theorem inRange_eq_one (tok : IVec S1024x50 32) (hr : ∀ p, 0 ≤ (tok p).toInt ∧ (tok p).toInt ≤ 999) (q : S1024x50.Idx) :
    inRange tok q = 1#1 := by
  unfold inRange
  rw [Host.reduce_eq_foldl]
  refine foldl_andi_all_one _ _ _ rfl (fun i _ => ?_)
  obtain ⟨b, t, z, rfl⟩ : ∃ (b : Fin 1024) (t : Fin 50) (z : Fin 1), i = ix3 b t z := ⟨i 0, i 1, i 2, eq_ix3 i⟩
  show IntOp.andi (IntOp.cmpi .sge (startIdx tok (ix3 b t z)) 0#32) (IntOp.cmpi .sle (startIdx tok (ix3 b t z)) 999#32) = 1#1
  rw [startIdx_apply, wrapIdx_apply tok _ (hr _).1]
  refine IntOp.andi_eq_one.2 ⟨IntOp.cmpi_sge.2 ?_, IntOp.cmpi_sle.2 ?_⟩
  · rw [toInt_zero32]; exact (hr _).1
  · rw [toInt_999]; exact (hr _).2

/-! ## The gather of whole rows, read at an entry -/

/-- The gather's dimension numbers: rows of a 1000 by 128 table at a 1024 by 50 column of start indices. -/
abbrev rowDims : GatherDims S1000x128 S1024x50x1 S1024x50x128 := gather_S1000x128_S1024x50x1_S1024x50x128_2_0_n_n_0_2_1128

/-- Entry (b, t, e) of the gather is the table at the row the start index at (b, t, 0) names — read signed and cut
    at 999, the last row — and column e. -/
theorem gather_row_apply {α : Type} (emb : S1000x128.Idx → α) (idx : IVec S1024x50x1 32) (b : Fin 1024) (t : Fin 50) (e : Fin 128) :
    Host.gather rowDims emb idx (ix3 b t e)
      = emb (ix2 (n0 := 1000) (n1 := 128) ⟨min (idx (ix3 b t (0 : Fin 1))).toInt.toNat 999, by omega⟩ e) := by
  unfold Host.gather
  congr 1
  funext a
  have hsi : ∀ c : Fin rowDims.startIndexMap.length, rowDims.siIdx (ix3 b t e) c = ix3 b t (0 : Fin 1) := by
    intro c
    funext a'
    refine Fin.ext ?_
    match a' with
    | ⟨0, _⟩ => rfl
    | ⟨1, _⟩ => rfl
    | ⟨2, _⟩ =>
      have hc : c.val < 1 := c.isLt
      show c.val = 0
      omega
  refine Fin.ext ?_
  match a with
  | ⟨0, _⟩ =>
    show rowDims.start (ix3 b t e) idx 0 + rowDims.batchCoord (ix3 b t e) 0 + rowDims.offCoord (ix3 b t e) 0
      = min (idx (ix3 b t (0 : Fin 1))).toInt.toNat 999
    rw [GatherDims.batchCoord_eq_zero _ _ _ (by decide), GatherDims.offCoord_eq_zero _ _ _ (by decide)]
    simp only [Nat.add_zero]
    unfold GatherDims.start
    rw [dif_pos (by decide), hsi]
    rfl
  | ⟨1, _⟩ =>
    show rowDims.start (ix3 b t e) idx 1 + rowDims.batchCoord (ix3 b t e) 1 + rowDims.offCoord (ix3 b t e) 1 = e.val
    have h1 : rowDims.start (ix3 b t e) idx 1 = 0 := rfl
    have h2 : rowDims.batchCoord (ix3 b t e) 1 = 0 := rfl
    have h3 : rowDims.offCoord (ix3 b t e) 1 = e.val := rfl
    rw [h1, h2, h3]
    omega

/-- The same, with the start index at (b, t, 0) named. -/
theorem gather_row_at {α : Type} (emb : S1000x128.Idx → α) (idx : IVec S1024x50x1 32) (b : Fin 1024) (t : Fin 50) (e : Fin 128)
    (w : BitVec 32) (hw : idx (ix3 b t (0 : Fin 1)) = w) :
    Host.gather rowDims emb idx (ix3 b t e)
      = emb (ix2 (n0 := 1000) (n1 := 128) ⟨min w.toInt.toNat 999, by omega⟩ e) := by
  subst hw
  exact gather_row_apply emb idx b t e

/-! ## The first result -/

set_option maxRecDepth 8192 in
/-- With every token in 0..999, the reference's first result is the lookup. -/
theorem takeVal_eq (tok : IVec S1024x50 32) (emb : FVec F S1000x128 .f32)
    (hr : ∀ p, 0 ≤ (tok p).toInt ∧ (tok p).toInt ≤ 999) : takeVal tok emb = Cert.Spec.lookup tok emb := by
  funext i
  obtain ⟨b, t, e, rfl⟩ : ∃ (b : Fin 1024) (t : Fin 50) (e : Fin 128), i = ix3 b t e := ⟨i 0, i 1, i 2, eq_ix3 i⟩
  have hm : broadcastInDim S1024x50x128 ![0, 1] bcast_S1024x50_S1024x50x128_0_1 (inRange tok) (ix3 b t e) = 1#1 :=
    inRange_eq_one tok hr _
  have hs : startIdx tok (ix3 b t (0 : Fin 1)) = tok (ix2 b t) := by
    rw [startIdx_apply, wrapIdx_apply tok _ (hr _).1]
  unfold takeVal
  rw [select_apply, hm, select_one, gather_row_at emb (startIdx tok) b t e _ hs]
  unfold Cert.Spec.lookup
  show emb (ix2 (n0 := 1000) (n1 := 128) ⟨min (tok (ix2 b t)).toInt.toNat 999, _⟩ e)
    = emb (ix2 (n0 := 1000) (n1 := 128) (Cert.Spec.rowOf (tok (ix2 b t))) e)
  have hrow : (⟨min (tok (ix2 b t)).toInt.toNat 999, by omega⟩ : Fin 1000) = Cert.Spec.rowOf (tok (ix2 b t)) :=
    Fin.ext (by show min _ 999 = min _ 999; rw [toNat_of_nonneg (hr _).1])
  rw [hrow]

end Cert.Proof.Ref

end
-- ==== Proof.LibWindowScatter.lean ====
/-
  A scatter whose body returns the update (`x.at[window].set(v)`), read at one entry of its result.

  The host's scatter is a left fold over the update's indices in row-major order: update index `j` lands at the
  result index `resultIdx? j` (its window start plus its window coordinate) when that lies inside the operand, and is
  dropped otherwise; the element there is replaced by the body applied to the old element and the update's. When the
  body returns the update and no two update indices land on the same entry, the order of the fold does not matter to
  what an entry ends with: an entry that some update index `j` lands on holds the update at `j`, and an entry that
  none lands on holds the operand's element. Both are proved for a fold of this form over any list of keys, and then
  stated for `Host.scatter`.
-/
import Idealize.ShloMosaic.PureOps.ShapeOps

noncomputable section

namespace Idealize.ShloMosaic.WindowScatter

open Idealize.ShloMosaic

variable {ι κ α : Type} [DecidableEq ι]

/-- One step of the fold: key `n` lands at `g n` (or nowhere), carrying `u n`. -/
def step (g : κ → Option ι) (f : α → α → α) (u : κ → α) (r : ι → α) (n : κ) : ι → α :=
  match g n with
  | some i => fun i' => if i' = i then f (r i) (u n) else r i'
  | none => r

/-- A step leaves alone every entry its key does not land on. -/
theorem step_other (g : κ → Option ι) (f : α → α → α) (u : κ → α) (r : ι → α) (n : κ) (i : ι) (h : g n ≠ some i) :
    step g f u r n i = r i := by
  unfold step
  cases hg : g n with
  | none => rfl
  | some i0 =>
    show (if i = i0 then f (r i0) (u n) else r i) = r i
    rw [if_neg]
    intro e
    exact h (by rw [hg, e])

/-- At the entry its key lands on, a step combines the old element with the key's value. -/
theorem step_hit (g : κ → Option ι) (f : α → α → α) (u : κ → α) (r : ι → α) (n : κ) (i : ι) (h : g n = some i) :
    step g f u r n i = f (r i) (u n) := by
  unfold step
  rw [h]
  show (if i = i then f (r i) (u n) else r i) = _
  rw [if_pos rfl]

/-- An entry no key of the list lands on comes through the fold unchanged. -/
theorem foldl_miss (g : κ → Option ι) (f : α → α → α) (u : κ → α) (i : ι) :
    ∀ (L : List κ) (r : ι → α), (∀ k ∈ L, g k ≠ some i) → L.foldl (step g f u) r i = r i
  | [], _, _ => rfl
  | a :: L, r, h => by
    rw [List.foldl_cons, foldl_miss g f u i L _ (fun k hk => h k (List.mem_cons_of_mem _ hk)),
      step_other g f u r a i (h a List.mem_cons_self)]

/-- With the body that returns the update: an entry that exactly one key `k` of a duplicate-free list lands on ends
    at `u k`. -/
theorem foldl_set_hit (g : κ → Option ι) (u : κ → α) (i : ι) (k : κ) (hk : g k = some i)
    (huniq : ∀ k', g k' = some i → k' = k) :
    ∀ (L : List κ) (r : ι → α), L.Nodup → k ∈ L → L.foldl (step g (fun _ b => b) u) r i = u k
  | [], _, _, h => absurd h List.not_mem_nil
  | a :: L, r, hnd, hmem => by
    rw [List.foldl_cons]
    by_cases hak : a = k
    · subst hak
      have hnot : a ∉ L := (List.nodup_cons.mp hnd).1
      rw [foldl_miss g _ u i L _ (fun k' hk' hg => hnot (huniq k' hg ▸ hk')), step_hit g _ u r a i hk]
    · have hkL : k ∈ L := by
        rcases List.mem_cons.mp hmem with h | h
        · exact absurd h.symm hak
        · exact h
      exact foldl_set_hit g u i k hk huniq L _ (List.nodup_cons.mp hnd).2 hkL

variable {s si u : Shape} {w : Nat}

/-- The host's scatter is the fold of `step` over the update's row-major positions. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  congr 1
  funext r n
  unfold step
  dsimp only
  generalize d.resultIdx? (u.rowMajor.symm n) idx = o
  cases o <;> rfl

/-- An entry no update index lands on keeps the operand's element. -/
theorem scatter_miss (d : ScatterDims s si u) (f : α → α → α) (x : s.Idx → α) (idx : IVec si w) (upd : u.Idx → α) (i : s.Idx)
    (h : ∀ j, d.resultIdx? j idx ≠ some i) : Host.scatter d f x idx upd i = x i := by
  rw [scatter_eq_foldl]
  exact foldl_miss _ _ _ i _ _ (fun n _ => h _)

/-- With the body that returns the update: an entry exactly one update index `j` lands on holds the update at `j`. -/
theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have h := foldl_set_hit (fun n => d.resultIdx? (u.rowMajor.symm n) idx) (fun n => upd (u.rowMajor.symm n)) i (u.rowMajor j)
    (by show d.resultIdx? (u.rowMajor.symm (u.rowMajor j)) idx = some i; rw [Equiv.symm_apply_apply]; exact hj)
    (fun n hn => by rw [← huniq _ hn, Equiv.apply_symm_apply])
    (List.finRange u.numel) x (List.nodup_finRange _) (List.mem_finRange _)
  rw [h]
  show upd (u.rowMajor.symm (u.rowMajor j)) = upd j
  rw [Equiv.symm_apply_apply]

end Idealize.ShloMosaic.WindowScatter

end
-- ==== Proof.RefLogits.lean ====
/-
  The second result is the programmed logits.

  The 50 by 2 index table is a closed integer term; evaluated once, row t is the pair (t, target t), where target t
  is the entry of the table 3 5 7 1 4 2 6 0 at t mod 8. The scatter writes a 1024 by 50 array of ones: the update
  at (b, t) lands at entry (b, t, target t) — axis 0 is the window axis, axes 1 and 2 come from row t of the index
  table, and the three coordinates are inside the operand. Different (b, t) land on different entries, so entry
  (b, t, v) ends with the update, 1, when v = target t, and keeps the operand's word otherwise.
-/
import proofs.«211305_g76828374991638_cont_9to1_m_1055_18_alg».proof.Proof.RefVal
import proofs.«211305_g76828374991638_cont_9to1_m_1055_18_alg».proof.Proof.Spec
import proofs.«211305_g76828374991638_cont_9to1_m_1055_18_alg».proof.Proof.LibWindowScatter
import Idealize.ShloMosaic.Lib.ValueIdx
import Idealize.ShloMosaic.Lib.Decide

noncomputable section

namespace Cert.Proof.Ref

open Cert.ReferenceIdeal Idealize.ShloMosaic Idealize.ShloMosaic.TcCoe Idealize.SL.Sem Idealize.ShloMosaic.StableHlo
open Cert.ReferenceIdeal.Facts₀
open Idealize.ShloMosaic.ValueIdx

variable {F : FTy → Type} [FloatOps F]

/-! ## The index table, evaluated -/

/-- Row t of the index table, read signed: the position t and its programmed target. -/
theorem idxTable_spec : ∀ t : Fin 50,
    (idxTable (ix2 (n0 := 50) (n1 := 2) t 0)).toInt = (t.val : Int)
      ∧ (idxTable (ix2 (n0 := 50) (n1 := 2) t 1)).toInt = (Cert.Spec.target t.val : Int) := by
  decide +kernel

/-! ## Where an update lands -/

/-- The scatter's dimension numbers: a 1024 by 50 update, its axis 0 the window axis, its axis 1 reading the 50
    index pairs, which name the operand's axes 1 and 2. -/
abbrev sd : ScatterDims S1024x50x1000 S50x2 S1024x50 := scatter_S1024x50x1000_S50x2_S1024x50_0_12_12_1

/-- The index-table entry update (b, t) reads for component c of its start: row t, column c. -/
theorem siIdx_eq (b : Fin 1024) (t : Fin 50) (c : Fin sd.scatterDimsToOperandDims.length) :
    sd.siIdx (ix2 b t) c = ix2 (n0 := 50) (n1 := 2) t ⟨c.val, c.isLt⟩ := by
  funext a
  refine Fin.ext ?_
  match a with
  | ⟨0, _⟩ => rfl
  | ⟨1, _⟩ => rfl

/-- An update index whose start plus window coordinate is, on every axis, the coordinate of the entry `i` lands
    at `i`: the coordinates are then inside the operand, and the landing index is theirs. -/
theorem resultIdx_of {s si u : Shape} {w : Nat} (d : ScatterDims s si u) (j : u.Idx) (idx : IVec si w) (i : s.Idx)
    (h : ∀ a, d.start j idx a + (d.window j a : Int) = ((i a).val : Int)) : d.resultIdx? j idx = some i := by
  have hin : ∀ a, 0 ≤ d.start j idx a + (d.window j a : Int) ∧ d.start j idx a + (d.window j a : Int) < s.size a := by
    intro a
    rw [h a]
    exact ⟨Int.natCast_nonneg _, by exact_mod_cast (i a).isLt⟩
  unfold ScatterDims.resultIdx?
  rw [dif_pos hin]
  congr 1
  funext a
  refine Fin.ext ?_
  show (d.start j idx a + (d.window j a : Int)).toNat = (i a).val
  rw [h a]
  exact Int.toNat_natCast _

/-- Start plus window coordinate of update (b, t), axis by axis: b, t, target t. -/
theorem land0 (b : Fin 1024) (t : Fin 50) :
    sd.start (ix2 b t) idxTable ⟨0, by decide⟩ + (sd.window (ix2 b t) ⟨0, by decide⟩ : Int) = (b.val : Int) := by
  have h1 : sd.start (ix2 b t) idxTable ⟨0, by decide⟩ = 0 := rfl
  have h2 : sd.window (ix2 b t) ⟨0, by decide⟩ = b.val := rfl
  rw [h1, h2, Int.zero_add]

theorem land1 (b : Fin 1024) (t : Fin 50) :
    sd.start (ix2 b t) idxTable ⟨1, by decide⟩ + (sd.window (ix2 b t) ⟨1, by decide⟩ : Int) = (t.val : Int) := by
  have h2 : sd.window (ix2 b t) ⟨1, by decide⟩ = 0 := rfl
  have h1 : sd.start (ix2 b t) idxTable ⟨1, by decide⟩ = (idxTable (ix2 (n0 := 50) (n1 := 2) t 0)).toInt := by
    unfold ScatterDims.start
    rw [dif_pos (by decide), siIdx_eq]
    rfl
  rw [h1, h2, (idxTable_spec t).1]
  simp

theorem land2 (b : Fin 1024) (t : Fin 50) :
    sd.start (ix2 b t) idxTable ⟨2, by decide⟩ + (sd.window (ix2 b t) ⟨2, by decide⟩ : Int) = (Cert.Spec.target t.val : Int) := by
  have h2 : sd.window (ix2 b t) ⟨2, by decide⟩ = 0 := rfl
  have h1 : sd.start (ix2 b t) idxTable ⟨2, by decide⟩ = (idxTable (ix2 (n0 := 50) (n1 := 2) t 1)).toInt := by
    unfold ScatterDims.start
    rw [dif_pos (by decide), siIdx_eq]
    rfl
  rw [h1, h2, (idxTable_spec t).2]
  simp

/-- A programmed target is a column of the operand. -/
theorem target_lt_1000 (t : Nat) : Cert.Spec.target t < 1000 := Nat.lt_trans (Cert.Spec.target_lt t) (by decide)

/-- Update (b, t) lands at entry (b, t, target t). -/
theorem lands (b : Fin 1024) (t : Fin 50) :
    sd.resultIdx? (ix2 b t) idxTable
      = some (ix3 (n0 := 1024) (n1 := 50) (n2 := 1000) b t ⟨Cert.Spec.target t.val, target_lt_1000 _⟩) :=
  resultIdx_of sd _ _ _ (fun a => by
    match a with
    | ⟨0, _⟩ => exact land0 b t
    | ⟨1, _⟩ => exact land1 b t
    | ⟨2, _⟩ => exact land2 b t)

/-! ## The second result -/

set_option backward.isDefEq.respectTransparency.types false in
/-- Two entries are the same entry only if their coordinates agree. -/
theorem ix3_inj {b b' : Fin 1024} {t t' : Fin 50} {v v' : Fin 1000}
    (h : ix3 (n0 := 1024) (n1 := 50) (n2 := 1000) b' t' v' = ix3 (n0 := 1024) (n1 := 50) (n2 := 1000) b t v) :
    b' = b ∧ t' = t ∧ v' = v :=
  ⟨congrFun h (0 : Fin 3), congrFun h (1 : Fin 3), congrFun h (2 : Fin 3)⟩

/-- The reference's second result is the programmed logits. -/
theorem logitsVal_eq : logitsVal (F := F) = Cert.Spec.logits (F := F) := by
  funext i
  obtain ⟨b, t, v, rfl⟩ : ∃ (b : Fin 1024) (t : Fin 50) (v : Fin 1000), i = ix3 b t v := ⟨i 0, i 1, i 2, eq_ix3 i⟩
  unfold logitsVal Cert.Spec.logits
  by_cases hv : v.val = Cert.Spec.target t.val
  · have hi : ix3 (n0 := 1024) (n1 := 50) (n2 := 1000) b t v
        = ix3 (n0 := 1024) (n1 := 50) (n2 := 1000) b t ⟨Cert.Spec.target t.val, target_lt_1000 _⟩ := by
      congr 1; exact Fin.ext hv
    rw [WindowScatter.scatter_set_hit sd _ idxTable _ (ix3 b t v) (ix2 b t) (by rw [lands, hi]) (fun j' hj' => by
      obtain ⟨b', t', rfl⟩ : ∃ (b' : Fin 1024) (t' : Fin 50), j' = ix2 b' t' := ⟨j' 0, j' 1, eq_ix2 j'⟩
      rw [lands] at hj'
      obtain ⟨h0, h1, -⟩ := ix3_inj (Option.some.inj hj')
      rw [h0, h1])]
    show FloatOps.ofBits .f32 0x3F800000#32 = if (ix3 b t v 2).val = Cert.Spec.target (ix3 b t v 1).val then _ else _
    rw [if_pos hv]
  · rw [WindowScatter.scatter_miss sd _ _ idxTable _ (ix3 b t v) (fun j' hj' => by
      obtain ⟨b', t', rfl⟩ : ∃ (b' : Fin 1024) (t' : Fin 50), j' = ix2 b' t' := ⟨j' 0, j' 1, eq_ix2 j'⟩
      rw [lands] at hj'
      obtain ⟨-, h1, h2⟩ := ix3_inj (Option.some.inj hj')
      exact hv (by rw [← h2, h1]))]
    show FloatOps.ofBits .f32 0xCE6E6B28#32 = if (ix3 b t v 2).val = Cert.Spec.target (ix3 b t v 1).val then _ else _
    rw [if_neg hv]

end Cert.Proof.Ref

end
-- ==== Proof.Ref.lean ====
/-
  The reference's run, with its results named.

  Under the precondition every weakly fair execution of the reference terminates; its first result is the embedding
  lookup of the two arguments, its second the programmed logits, and the two argument arrays end as they began. The
  run is the straight line's; the two results are the fold of the line's operations read at the result buffers, which
  are the lookup (given the tokens' range, which the precondition states) and the logits.
-/
import proofs.«211305_g76828374991638_cont_9to1_m_1055_18_alg».proof.Defs
import proofs.«211305_g76828374991638_cont_9to1_m_1055_18_alg».proof.Proof.Gen.ReferenceIdeal
import proofs.«211305_g76828374991638_cont_9to1_m_1055_18_alg».proof.Proof.Gen.Pre_input_domain
import proofs.«211305_g76828374991638_cont_9to1_m_1055_18_alg».proof.Proof.Spec
import proofs.«211305_g76828374991638_cont_9to1_m_1055_18_alg».proof.Proof.RefRun
import proofs.«211305_g76828374991638_cont_9to1_m_1055_18_alg».proof.Proof.RefVal
import proofs.«211305_g76828374991638_cont_9to1_m_1055_18_alg».proof.Proof.RefPre
import proofs.«211305_g76828374991638_cont_9to1_m_1055_18_alg».proof.Proof.RefLookup
import proofs.«211305_g76828374991638_cont_9to1_m_1055_18_alg».proof.Proof.RefLogits

noncomputable section

namespace Cert.Proof.Ref

open Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
          r.2.mem ((c.tc : Thread _ _).loc Cert.ReferenceIdeal.main_v0) = Cert.Spec.lookup (m ((c.tc : Thread _ _).loc Cert.ReferenceIdeal.main_arg0)) (m ((c.tc : Thread _ _).loc Cert.ReferenceIdeal.main_arg1))
        ∧ r.2.mem ((c.tc : Thread _ _).loc Cert.ReferenceIdeal.main_v26) = Cert.Spec.logits (F := Ideal)
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun r h c =>
      ⟨(h c Cert.ReferenceIdeal.main_v0).trans ((v0_eq (launchContents m c)).trans
          (takeVal_eq _ _ (range_of_pre _ _ (hpre c)))),
        (h c Cert.ReferenceIdeal.main_v26).trans ((v26_eq (launchContents m c)).trans logitsVal_eq),
        (h c Cert.ReferenceIdeal.main_arg0).trans (arg0_eq (launchContents m c)),
        (h c Cert.ReferenceIdeal.main_arg1).trans (arg1_eq (launchContents m c))⟩)
    (run_main m g)

end Cert.Proof.Ref

end
-- ==== Proof.Claims.lean ====
/-
  The five claims.

  Both kernel programs — the printed one read on words, its idealization read on extended reals — run to the end from
  any memory the precondition admits, and end with the first result at the embedding lookup of the launch memory's
  arguments and the second at the programmed logits: the precondition makes every token word a row of the table, which
  is all the run asks. The reference's run ends at the same two functions of its arguments. So each frame is its run
  with the results dropped, and the two idealized programs, started from memories that agree on the arguments, end
  with equal results. The ideal pass rewrote nothing, so there is nothing to preserve.
-/
import proofs.«211305_g76828374991638_cont_9to1_m_1055_18_alg».proof.Defs
import proofs.«211305_g76828374991638_cont_9to1_m_1055_18_alg».proof.Proof.KIMain
import proofs.«211305_g76828374991638_cont_9to1_m_1055_18_alg».proof.Proof.KBMain
import proofs.«211305_g76828374991638_cont_9to1_m_1055_18_alg».proof.Proof.Ref

noncomputable section

namespace Cert.Proof.Claims

open Idealize.ShloMosaic Idealize.SL.Sem

/-- Under the precondition every token word of the idealized kernel's argument names a row of the table. -/
theorem tok_ki (m : (ℓ : Loc Cert.KernelIdeal.nD Cert.KernelIdeal.τ Cert.KernelIdeal.sig) → Buf (Elt Ideal) ℓ) (h : Cert.Pre_KernelIdeal m) :
    ∀ (d : Dev Cert.KernelIdeal.nD) (p : Cert.KernelIdeal.S1024x50.Idx), ((m (Cert.Proof.KI.a0Loc d)) p).toNat < 1000 :=
  fun d p => Cert.Proof.Ref.tok_lt_of_pre (F := Ideal) _ _ (h d) p

/-- The same of the printed kernel's. -/
theorem tok_kb (m : (ℓ : Loc Cert.Kernel.nD Cert.Kernel.τ Cert.Kernel.sig) → Buf (Elt Bits) ℓ) (h : Cert.Pre_Kernel m) :
    ∀ (d : Dev Cert.Kernel.nD) (p : Cert.Kernel.S1024x50.Idx), ((m (Cert.Proof.KB.a0Loc d)) p).toNat < 1000 :=
  fun d p => Cert.Proof.Ref.tok_lt_of_pre (F := Bits) _ _ (h d) p

theorem frame_k : Cert.frame_Kernel := fun m ρ hpre =>
  (θ_run Cert.Kernel.defs _ _).mono (fun _ h c => ⟨(h c).2.2.1, (h c).2.2.2⟩) (Cert.Proof.KB.run_main (F := Bits) m ρ (tok_kb m hpre))

theorem frame_ki : Cert.frame_KernelIdeal := fun m ρ hpre =>
  (θ_run Cert.KernelIdeal.defs _ _).mono (fun _ h c => ⟨(h c).2.2.1, (h c).2.2.2⟩) (Cert.Proof.KI.run_main (F := Ideal) m ρ (tok_ki m hpre))

theorem frame_ri : Cert.frame_ReferenceIdeal := fun m ρ hpre =>
  (θ_run Cert.ReferenceIdeal.defs _ _).mono (fun _ h c => ⟨(h c).2.2.1, (h c).2.2.2⟩) (Cert.Proof.Ref.run m ρ hpre)

theorem algebraic : Cert.algebraic_KernelIdeal_ReferenceIdeal := by
  intro m ρ m' ρ' hpre hagree
  refine ⟨fun c => Cert.Spec.lookup (m (Cert.Proof.KI.a0Loc c)) (m (Cert.Proof.KI.embLoc c)), fun _ => Cert.Spec.logits (F := Ideal), ?_, ?_⟩
  · exact (θ_run Cert.KernelIdeal.defs _ _).mono (fun _ h c => h c) (Cert.Proof.KI.run_main (F := Ideal) m ρ (tok_ki m hpre))
  · have hpre' : Cert.Pre_ReferenceIdeal m' := fun c => by rw [(hagree c).1, (hagree c).2]; exact hpre c
    refine (θ_run Cert.ReferenceIdeal.defs _ _).mono (fun _ h c => ⟨?_, (h c).2.1, (h c).2.2.1, (h c).2.2.2⟩) (Cert.Proof.Ref.run m' ρ' hpre')
    rw [(h c).1, (hagree c).1, (hagree c).2]

end Cert.Proof.Claims

end
-- ==== Proof.lean ====
/-
  The certificate's proof. A SparseCore kernel gathers rows of an embedding table: the tokens are re-laid so that each of
  the 32 tiles works one row of 20 chunks of 80 token words; tile 0 of each SparseCore copies the table into the shared
  memory, all tiles meet at a barrier — across which tile 0 hands every tile a read share of that copy —, and each tile
  gathers, chunk by chunk, the table rows its words name and writes them to its blocks of the result. A TensorCore kernel
  writes the programmed logits position by position. Against the reference's `take` and its scatter of ones into a
  constant array, both results are equal entry by entry; no arithmetic is done, so nothing is asked of the table's
  entries, and of the tokens only that each names a row.
-/
import proofs.«211305_g76828374991638_cont_9to1_m_1055_18_alg».proof.Defs
import proofs.«211305_g76828374991638_cont_9to1_m_1055_18_alg».proof.Proof.Gen.Kernel
import proofs.«211305_g76828374991638_cont_9to1_m_1055_18_alg».proof.Proof.Gen.Kernel.Skeleton
import proofs.«211305_g76828374991638_cont_9to1_m_1055_18_alg».proof.Proof.Gen.Kernel.Launch
import proofs.«211305_g76828374991638_cont_9to1_m_1055_18_alg».proof.Proof.Gen.Kernel.Points
import proofs.«211305_g76828374991638_cont_9to1_m_1055_18_alg».proof.Proof.Gen.KernelIdeal
import proofs.«211305_g76828374991638_cont_9to1_m_1055_18_alg».proof.Proof.Gen.KernelIdeal.Skeleton
import proofs.«211305_g76828374991638_cont_9to1_m_1055_18_alg».proof.Proof.Gen.KernelIdeal.Launch
import proofs.«211305_g76828374991638_cont_9to1_m_1055_18_alg».proof.Proof.Gen.KernelIdeal.Points
import proofs.«211305_g76828374991638_cont_9to1_m_1055_18_alg».proof.Proof.Gen.ReferenceIdeal
import proofs.«211305_g76828374991638_cont_9to1_m_1055_18_alg».proof.Proof.Gen.Pre_input_domain
import proofs.«211305_g76828374991638_cont_9to1_m_1055_18_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Cert.Proof.Claims.frame_k, Cert.Proof.Claims.frame_ki, Cert.Proof.Claims.frame_ri, trivial, Cert.Proof.Claims.algebraic⟩

end Cert.Proof

end
